-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x128 : Shape := ⟨2, ![65536, 128]⟩
abbrev S65536x3 : Shape := ⟨2, ![65536, 3]⟩
abbrev S32768x3 : Shape := ⟨2, ![32768, 3]⟩
abbrev S2x600000 : Shape := ⟨2, ![2, 600000]⟩
abbrev S128x128 : Shape := ⟨2, ![128, 128]⟩
abbrev S128 : Shape := ⟨1, ![128]⟩
abbrev S6x128 : Shape := ⟨2, ![6, 128]⟩
abbrev S256x128 : Shape := ⟨2, ![256, 128]⟩
abbrev S_ : Shape := ⟨0, ![]⟩

class Facts : Prop where
  bcast_S_S65536x128 : S_.BroadcastsInDim S65536x128 (![] : Fin 0 → Fin S65536x128.rank)
  reducesTo_S65536x128_S_d0_1 : S65536x128.ReducesTo [0, 1] S_
  h_S_ : 0 < S_.numel
  bcast_S_S65536x3 : S_.BroadcastsInDim S65536x3 (![] : Fin 0 → Fin S65536x3.rank)
  reducesTo_S65536x3_S_d0_1 : S65536x3.ReducesTo [0, 1] S_
  bcast_S_S32768x3 : S_.BroadcastsInDim S32768x3 (![] : Fin 0 → Fin S32768x3.rank)
  reducesTo_S32768x3_S_d0_1 : S32768x3.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S6x128 : S_.BroadcastsInDim S6x128 (![] : Fin 0 → Fin S6x128.rank)
  reducesTo_S6x128_S_d0_1 : S6x128.ReducesTo [0, 1] S_
  bcast_S_S256x128 : S_.BroadcastsInDim S256x128 (![] : Fin 0 → Fin S256x128.rank)
  reducesTo_S256x128_S_d0_1 : S256x128.ReducesTo [0, 1] S_

variable [Facts]

def fn_part5 {F : FTy → Type} [FloatOps F] (main_arg19 : FVec F S128 .f32) (main_v83 : IVec S_ 1) (main_v84 : FVec F S128x128 .f32) (main_cst_32 : FVec F S_ .f32) : IVec S_ 1 :=
  let main_v85 : FVec F S128x128 .f32 := broadcastInDim S128x128 ![] bcast_S_S128x128 main_cst_32
  let main_v86 : IVec S128x128 1 := cmpf .olt main_v84 main_v85
  let main_c_33 : IVec S_ 1 := constantI S_ 1 1#1
  let main_v87 : IVec S_ 1 := (fun x v => Host.reduce IntOp.andi x v reducesTo_S128x128_S_d0_1 h_S_) main_v86 main_c_33
  let main_v88 : IVec S_ 1 := andi main_v83 main_v87
  let main_v89 : FVec F S128 .f32 := Host.absf main_arg19
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  main_v93

def fn_part4 {F : FTy → Type} [FloatOps F] (main_arg15 : FVec F S128 .f32) (main_arg16 : FVec F S128x128 .f32) (main_arg17 : FVec F S128 .f32) (main_arg18 : FVec F S128x128 .f32) (main_arg19 : FVec F S128 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x128 .f32 := Host.absf main_arg16
  let main_cst_28 : FVec F S_ .f32 := constant S_ .f32 0x7F800000#32
  let main_v75 : FVec F S128x128 .f32 := broadcastInDim S128x128 ![] bcast_S_S128x128 main_cst_28
  let main_v76 : IVec S128x128 1 := cmpf .olt main_v74 main_v75
  let main_c_29 : IVec S_ 1 := constantI S_ 1 1#1
  let main_v77 : IVec S_ 1 := (fun x v => Host.reduce IntOp.andi x v reducesTo_S128x128_S_d0_1 h_S_) main_v76 main_c_29
  let main_v78 : IVec S_ 1 := andi main_v73 main_v77
  let main_v79 : FVec F S128 .f32 := Host.absf main_arg17
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128x128 .f32 := Host.absf main_arg18
  let main_cst_32 : FVec F S_ .f32 := constant S_ .f32 0x7F800000#32
  fn_part5 (F := F) main_arg19 main_v83 main_v84 main_cst_32

def fn_part3 {F : FTy → Type} [FloatOps F] (main_arg12 : FVec F S256x128 .f32) (main_arg13 : FVec F S128 .f32) (main_arg14 : FVec F S128x128 .f32) (main_arg15 : FVec F S128 .f32) (main_arg16 : FVec F S128x128 .f32) (main_arg17 : FVec F S128 .f32) (main_arg18 : FVec F S128x128 .f32) (main_arg19 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S256x128 .f32 := Host.absf main_arg12
  let main_cst_20 : FVec F S_ .f32 := constant S_ .f32 0x7F800000#32
  let main_v55 : FVec F S256x128 .f32 := broadcastInDim S256x128 ![] bcast_S_S256x128 main_cst_20
  let main_v56 : IVec S256x128 1 := cmpf .olt main_v54 main_v55
  let main_c_21 : IVec S_ 1 := constantI S_ 1 1#1
  let main_v57 : IVec S_ 1 := (fun x v => Host.reduce IntOp.andi x v reducesTo_S256x128_S_d0_1 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg14
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg15 main_arg16 main_arg17 main_arg18 main_arg19 main_v63 main_v67

def fn_part2 {F : FTy → Type} [FloatOps F] (main_arg8 : FVec F S6x128 .f32) (main_arg9 : FVec F S128 .f32) (main_arg10 : FVec F S128x128 .f32) (main_arg11 : FVec F S128 .f32) (main_arg12 : FVec F S256x128 .f32) (main_arg13 : FVec F S128 .f32) (main_arg14 : FVec F S128x128 .f32) (main_arg15 : FVec F S128 .f32) (main_arg16 : FVec F S128x128 .f32) (main_arg17 : FVec F S128 .f32) (main_arg18 : FVec F S128x128 .f32) (main_arg19 : FVec F S128 .f32) (main_v33 : IVec S_ 1) : IVec S_ 1 :=
  let main_v34 : FVec F S6x128 .f32 := Host.absf main_arg8
  let main_cst_12 : FVec F S_ .f32 := constant S_ .f32 0x7F800000#32
  let main_v35 : FVec F S6x128 .f32 := broadcastInDim S6x128 ![] bcast_S_S6x128 main_cst_12
  let main_v36 : IVec S6x128 1 := cmpf .olt main_v34 main_v35
  let main_c_13 : IVec S_ 1 := constantI S_ 1 1#1
  let main_v37 : IVec S_ 1 := (fun x v => Host.reduce IntOp.andi x v reducesTo_S6x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_arg16 main_arg17 main_arg18 main_arg19 main_v48 main_v49 main_v50

def fn_part1 {F : FTy → Type} [FloatOps F] (main_arg5 : FVec F S128 .f32) (main_arg6 : FVec F S128x128 .f32) (main_arg7 : FVec F S128 .f32) (main_arg8 : FVec F S6x128 .f32) (main_arg9 : FVec F S128 .f32) (main_arg10 : FVec F S128x128 .f32) (main_arg11 : FVec F S128 .f32) (main_arg12 : FVec F S256x128 .f32) (main_arg13 : FVec F S128 .f32) (main_arg14 : FVec F S128x128 .f32) (main_arg15 : FVec F S128 .f32) (main_arg16 : FVec F S128x128 .f32) (main_arg17 : FVec F S128 .f32) (main_arg18 : FVec F S128x128 .f32) (main_arg19 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_v33

def fn {F : FTy → Type} [FloatOps F] (main_arg0 : FVec F S65536x128 .f32) (main_arg1 : FVec F S65536x3 .f32) (main_arg2 : FVec F S32768x3 .f32) (main_arg3 : IVec S2x600000 32) (main_arg4 : FVec F S128x128 .f32) (main_arg5 : FVec F S128 .f32) (main_arg6 : FVec F S128x128 .f32) (main_arg7 : FVec F S128 .f32) (main_arg8 : FVec F S6x128 .f32) (main_arg9 : FVec F S128 .f32) (main_arg10 : FVec F S128x128 .f32) (main_arg11 : FVec F S128 .f32) (main_arg12 : FVec F S256x128 .f32) (main_arg13 : FVec F S128 .f32) (main_arg14 : FVec F S128x128 .f32) (main_arg15 : FVec F S128 .f32) (main_arg16 : FVec F S128x128 .f32) (main_arg17 : FVec F S128 .f32) (main_arg18 : FVec F S128x128 .f32) (main_arg19 : FVec F S128 .f32) : IVec S_ 1 :=
  let main_v0 : FVec F S65536x128 .f32 := Host.absf main_arg0
  let main_cst : FVec F S_ .f32 := constant S_ .f32 0x7F800000#32
  let main_v1 : FVec F S65536x128 .f32 := broadcastInDim S65536x128 ![] bcast_S_S65536x128 main_cst
  let main_v2 : IVec S65536x128 1 := cmpf .olt main_v0 main_v1
  let main_c : IVec S_ 1 := constantI S_ 1 1#1
  let main_v3 : IVec S_ 1 := (fun x v => Host.reduce IntOp.andi x v reducesTo_S65536x128_S_d0_1 h_S_) main_v2 main_c
  let main_v4 : FVec F S65536x3 .f32 := Host.absf main_arg1
  let main_cst_0 : FVec F S_ .f32 := constant S_ .f32 0x7F800000#32
  let main_v5 : FVec F S65536x3 .f32 := broadcastInDim S65536x3 ![] bcast_S_S65536x3 main_cst_0
  let main_v6 : IVec S65536x3 1 := cmpf .olt main_v4 main_v5
  let main_c_1 : IVec S_ 1 := constantI S_ 1 1#1
  let main_v7 : IVec S_ 1 := (fun x v => Host.reduce IntOp.andi x v reducesTo_S65536x3_S_d0_1 h_S_) main_v6 main_c_1
  let main_v8 : IVec S_ 1 := andi main_v3 main_v7
  let main_v9 : FVec F S32768x3 .f32 := Host.absf main_arg2
  let main_cst_2 : FVec F S_ .f32 := constant S_ .f32 0x7F800000#32
  let main_v10 : FVec F S32768x3 .f32 := broadcastInDim S32768x3 ![] bcast_S_S32768x3 main_cst_2
  let main_v11 : IVec S32768x3 1 := cmpf .olt main_v9 main_v10
  let main_c_3 : IVec S_ 1 := constantI S_ 1 1#1
  let main_v12 : IVec S_ 1 := (fun x v => Host.reduce IntOp.andi x v reducesTo_S32768x3_S_d0_1 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_v13 main_v16
-- ==== Kernel.lean ====
abbrev S65536x128 : Shape := ⟨2, ![65536, 128]⟩
abbrev S65536x3 : Shape := ⟨2, ![65536, 3]⟩
abbrev S32768x3 : Shape := ⟨2, ![32768, 3]⟩
abbrev S2x600000 : Shape := ⟨2, ![2, 600000]⟩
abbrev S128x128 : Shape := ⟨2, ![128, 128]⟩
abbrev S128 : Shape := ⟨1, ![128]⟩
abbrev S6x128 : Shape := ⟨2, ![6, 128]⟩
abbrev S256x128 : Shape := ⟨2, ![256, 128]⟩
abbrev S1x600000 : Shape := ⟨2, ![1, 600000]⟩
abbrev S600000 : Shape := ⟨1, ![600000]⟩
abbrev S4096x128 : Shape := ⟨2, ![4096, 128]⟩
abbrev S1x128 : Shape := ⟨2, ![1, 128]⟩
abbrev S_ : Shape := ⟨0, ![]⟩
abbrev S600000x1 : Shape := ⟨2, ![600000, 1]⟩
abbrev S600000x3 : Shape := ⟨2, ![600000, 3]⟩
abbrev S600000x6 : Shape := ⟨2, ![600000, 6]⟩
abbrev S600000x128 : Shape := ⟨2, ![600000, 128]⟩
abbrev S6000x6 : Shape := ⟨2, ![6000, 6]⟩
abbrev S6000x128 : Shape := ⟨2, ![6000, 128]⟩
abbrev S6000x256 : Shape := ⟨2, ![6000, 256]⟩
abbrev S32768 : Shape := ⟨1, ![32768]⟩
abbrev S32768x1 : Shape := ⟨2, ![32768, 1]⟩
abbrev S32768x128 : Shape := ⟨2, ![32768, 128]⟩

abbrev nBuf : Space → Nat
  | .hbm => 71
  | .vmem => 30
  | .smem => 0
  | _ => 0

abbrev bufTy : (tb : Table) → Fin (tcTables nBuf tb) → BufTy
  | .hbm, ⟨0, _⟩ => ⟨S65536x128, .f32⟩
  | .hbm, ⟨1, _⟩ => ⟨S65536x3, .f32⟩
  | .hbm, ⟨2, _⟩ => ⟨S32768x3, .f32⟩
  | .hbm, ⟨3, _⟩ => ⟨S2x600000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S6x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S256x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S128x128, .f32⟩
  | .hbm, ⟨17, _⟩ => ⟨S128, .f32⟩
  | .hbm, ⟨18, _⟩ => ⟨S128x128, .f32⟩
  | .hbm, ⟨19, _⟩ => ⟨S128, .f32⟩
  | .hbm, ⟨20, _⟩ => ⟨S1x600000, .i32⟩
  | .hbm, ⟨21, _⟩ => ⟨S600000, .i32⟩
  | .hbm, ⟨22, _⟩ => ⟨S1x600000, .i32⟩
  | .hbm, ⟨23, _⟩ => ⟨S600000, .i32⟩
  | .hbm, ⟨24, _⟩ => ⟨S65536x128, .bf16⟩
  | .hbm, ⟨25, _⟩ => ⟨S_, .i32⟩
  | .hbm, ⟨26, _⟩ => ⟨S600000, .i32⟩
  | .hbm, ⟨27, _⟩ => ⟨S600000, .i1⟩
  | .hbm, ⟨28, _⟩ => ⟨S_, .i32⟩
  | .hbm, ⟨29, _⟩ => ⟨S600000, .i32⟩
  | .hbm, ⟨30, _⟩ => ⟨S600000, .i32⟩
  | .hbm, ⟨31, _⟩ => ⟨S600000, .i32⟩
  | .hbm, ⟨32, _⟩ => ⟨S600000x1, .i32⟩
  | .hbm, ⟨33, _⟩ => ⟨S600000x3, .f32⟩
  | .hbm, ⟨34, _⟩ => ⟨S_, .i32⟩
  | .hbm, ⟨35, _⟩ => ⟨S600000, .i32⟩
  | .hbm, ⟨36, _⟩ => ⟨S600000, .i1⟩
  | .hbm, ⟨37, _⟩ => ⟨S_, .i32⟩
  | .hbm, ⟨38, _⟩ => ⟨S600000, .i32⟩
  | .hbm, ⟨39, _⟩ => ⟨S600000, .i32⟩
  | .hbm, ⟨40, _⟩ => ⟨S600000, .i32⟩
  | .hbm, ⟨41, _⟩ => ⟨S600000x1, .i32⟩
  | .hbm, ⟨42, _⟩ => ⟨S600000x3, .f32⟩
  | .hbm, ⟨43, _⟩ => ⟨S600000x6, .f32⟩
  | .hbm, ⟨44, _⟩ => ⟨S_, .i32⟩
  | .hbm, ⟨45, _⟩ => ⟨S600000, .i32⟩
  | .hbm, ⟨46, _⟩ => ⟨S600000, .i1⟩
  | .hbm, ⟨47, _⟩ => ⟨S_, .i32⟩
  | .hbm, ⟨48, _⟩ => ⟨S600000, .i32⟩
  | .hbm, ⟨49, _⟩ => ⟨S600000, .i32⟩
  | .hbm, ⟨50, _⟩ => ⟨S600000, .i32⟩
  | .hbm, ⟨51, _⟩ => ⟨S600000x1, .i32⟩
  | .hbm, ⟨52, _⟩ => ⟨S600000x128, .bf16⟩
  | .hbm, ⟨53, _⟩ => ⟨S600000x128, .f32⟩
  | .hbm, ⟨54, _⟩ => ⟨S_, .f32⟩
  | .hbm, ⟨55, _⟩ => ⟨S600000, .f32⟩
  | .hbm, ⟨56, _⟩ => ⟨S_, .f32⟩
  | .hbm, ⟨57, _⟩ => ⟨S32768, .f32⟩
  | .hbm, ⟨58, _⟩ => ⟨S600000x1, .i32⟩
  | .hbm, ⟨59, _⟩ => ⟨S32768, .f32⟩
  | .hbm, ⟨60, _⟩ => ⟨S_, .f32⟩
  | .hbm, ⟨61, _⟩ => ⟨S32768, .f32⟩
  | .hbm, ⟨62, _⟩ => ⟨S32768, .f32⟩
  | .hbm, ⟨63, _⟩ => ⟨S32768x1, .f32⟩
  | .hbm, ⟨64, _⟩ => ⟨S_, .f32⟩
  | .hbm, ⟨65, _⟩ => ⟨S32768x128, .f32⟩
  | .hbm, ⟨66, _⟩ => ⟨S600000x1, .i32⟩
  | .hbm, ⟨67, _⟩ => ⟨S32768x128, .f32⟩
  | .hbm, ⟨68, _⟩ => ⟨S32768x128, .f32⟩
  | .hbm, ⟨69, _⟩ => ⟨S32768x128, .f32⟩
  | .hbm, ⟨70, _⟩ => ⟨S32768x128, .f32⟩
  | .local _ .vmem, ⟨0, _⟩ => ⟨S4096x128, .f32⟩
  | .local _ .vmem, ⟨1, _⟩ => ⟨S4096x128, .f32⟩
  | .local _ .vmem, ⟨2, _⟩ => ⟨S128x128, .f32⟩
  | .local _ .vmem, ⟨3, _⟩ => ⟨S128, .f32⟩
  | .local _ .vmem, ⟨4, _⟩ => ⟨S128x128, .f32⟩
  | .local _ .vmem, ⟨5, _⟩ => ⟨S128, .f32⟩
  | .local _ .vmem, ⟨6, _⟩ => ⟨S4096x128, .bf16⟩
  | .local _ .vmem, ⟨7, _⟩ => ⟨S4096x128, .bf16⟩
  | .local _ .vmem, ⟨8, _⟩ => ⟨S6000x6, .f32⟩
  | .local _ .vmem, ⟨9, _⟩ => ⟨S6000x6, .f32⟩
  | .local _ .vmem, ⟨10, _⟩ => ⟨S6000x128, .bf16⟩
  | .local _ .vmem, ⟨11, _⟩ => ⟨S6000x128, .bf16⟩
  | .local _ .vmem, ⟨12, _⟩ => ⟨S6x128, .f32⟩
  | .local _ .vmem, ⟨13, _⟩ => ⟨S128, .f32⟩
  | .local _ .vmem, ⟨14, _⟩ => ⟨S128x128, .f32⟩
  | .local _ .vmem, ⟨15, _⟩ => ⟨S128, .f32⟩
  | .local _ .vmem, ⟨16, _⟩ => ⟨S256x128, .f32⟩
  | .local _ .vmem, ⟨17, _⟩ => ⟨S128, .f32⟩
  | .local _ .vmem, ⟨18, _⟩ => ⟨S128x128, .f32⟩
  | .local _ .vmem, ⟨19, _⟩ => ⟨S128, .f32⟩
  | .local _ .vmem, ⟨20, _⟩ => ⟨S6000x128, .f32⟩
  | .local _ .vmem, ⟨21, _⟩ => ⟨S6000x128, .f32⟩
  | .local _ .vmem, ⟨22, _⟩ => ⟨S4096x128, .f32⟩
  | .local _ .vmem, ⟨23, _⟩ => ⟨S4096x128, .f32⟩
  | .local _ .vmem, ⟨24, _⟩ => ⟨S128x128, .f32⟩
  | .local _ .vmem, ⟨25, _⟩ => ⟨S128, .f32⟩
  | .local _ .vmem, ⟨26, _⟩ => ⟨S128x128, .f32⟩
  | .local _ .vmem, ⟨27, _⟩ => ⟨S128, .f32⟩
  | .local _ .vmem, ⟨28, _⟩ => ⟨S4096x128, .f32⟩
  | .local _ .vmem, ⟨29, _⟩ => ⟨S4096x128, .f32⟩
  | _, _ => ⟨S65536x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_c : Ref sig .tc := ⟨.hbm, 25, rfl⟩
abbrev main_v5 : Ref sig .tc := ⟨.hbm, 26, rfl⟩
abbrev main_v6 : Ref sig .tc := ⟨.hbm, 27, rfl⟩
abbrev main_c_0 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_c_1 : Ref sig .tc := ⟨.hbm, 34, rfl⟩
abbrev main_v12 : Ref sig .tc := ⟨.hbm, 35, rfl⟩
abbrev main_v13 : Ref sig .tc := ⟨.hbm, 36, rfl⟩
abbrev main_c_2 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_c_3 : Ref sig .tc := ⟨.hbm, 44, rfl⟩
abbrev main_v20 : Ref sig .tc := ⟨.hbm, 45, rfl⟩
abbrev main_v21 : Ref sig .tc := ⟨.hbm, 46, rfl⟩
abbrev main_c_4 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_cst : Ref sig .tc := ⟨.hbm, 54, rfl⟩
abbrev main_v28 : Ref sig .tc := ⟨.hbm, 55, rfl⟩
abbrev main_cst_5 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_6 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_cst_7 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg9_0 : Ref sig .tc := ⟨.vmem, 19, rfl⟩
abbrev cc1_stg10_0 : Ref sig .tc := ⟨.vmem, 20, rfl⟩
abbrev cc1_stg10_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg5_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem8_0 : DmaSem sig := 18
abbrev cc1_sem9_0 : DmaSem sig := 19
abbrev cc1_sem10_0 : DmaSem sig := 20
abbrev cc1_sem10_1 : DmaSem sig := 21
abbrev cc2_sem0_0 : DmaSem sig := 22
abbrev cc2_sem0_1 : DmaSem sig := 23
abbrev cc2_sem1_0 : DmaSem sig := 24
abbrev cc2_sem2_0 : DmaSem sig := 25
abbrev cc2_sem3_0 : DmaSem sig := 26
abbrev cc2_sem4_0 : DmaSem sig := 27
abbrev cc2_sem5_0 : DmaSem sig := 28
abbrev cc2_sem5_1 : DmaSem sig := 29

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6000x6 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S6000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S6x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S256x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S6000x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4096x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S4096x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  inb_S4096x128_S4096x128_0_0 : ∀ a, (![0, 0] : Fin 2 → Nat) a + S4096x128.size a ≤ S4096x128.size a
  h_S4096x128 : 0 < S4096x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S4096x128 : S1x128.Broadcasts S4096x128
  packedbf16_S4096x128_S4096x128_0_0 : (Rect.unit (s := S4096x128) ![0, 0] S4096x128.size inb_S4096x128_S4096x128_0_0).PackedRows (EltTy.packing .bf16)
  bcast_S_S600000 : S_.BroadcastsInDim S600000 (![] : Fin 0 → Fin S600000.rank)
  bcast_S600000_S600000x1_0 : S600000.BroadcastsInDim S600000x1 (![0] : Fin 1 → Fin S600000x1.rank)
  concatenates_S600000x3_S600000x3_S600000x6_d1 : Shape.Concatenates [S600000x3, S600000x3] S600000x6 1
  inb_S6000x6_S6000x6_0_0 : ∀ a, (![0, 0] : Fin 2 → Nat) a + S6000x6.size a ≤ S6000x6.size a
  h_S6000x6 : 0 < S6000x6.numel
  shapeCasts_S6000x6_S6000x6 : S6000x6.ShapeCasts S6000x6
  inb_S6x128_S6x128_0_0 : ∀ a, (![0, 0] : Fin 2 → Nat) a + S6x128.size a ≤ S6x128.size a
  h_S6x128 : 0 < S6x128.numel
  broadcasts_S1x128_S6000x128 : S1x128.Broadcasts S6000x128
  inb_S6000x128_S6000x128_0_0 : ∀ a, (![0, 0] : Fin 2 → Nat) a + S6000x128.size a ≤ S6000x128.size a
  h_S6000x128 : 0 < S6000x128.numel
  shapeCasts_S6000x128_S6000x128 : S6000x128.ShapeCasts S6000x128
  concatenates_S6000x128_S6000x128_S6000x256_d1 : Shape.Concatenates [S6000x128, S6000x128] S6000x256 1
  inb_S256x128_S256x128_0_0 : ∀ a, (![0, 0] : Fin 2 → Nat) a + S256x128.size a ≤ S256x128.size a
  h_S256x128 : 0 < S256x128.numel
  bcast_S_S32768 : S_.BroadcastsInDim S32768 (![] : Fin 0 → Fin S32768.rank)
  bcast_S32768_S32768x1_0 : S32768.BroadcastsInDim S32768x1 (![0] : Fin 1 → Fin S32768x1.rank)
  bcast_S_S32768x128 : S_.BroadcastsInDim S32768x128 (![] : Fin 0 → Fin S32768x128.rank)
  bcast_S32768x1_S32768x128_0_1 : S32768x1.BroadcastsInDim S32768x128 (![0, 1] : Fin 2 → Fin S32768x128.rank)
  shapeCasts_S4096x128_S4096x128 : S4096x128.ShapeCasts S4096x128
  dot_S4096x128_S128x128_S4096x128_1_0_0_1_n_n_wf : DotDims.WF S4096x128 S128x128 S4096x128 [1] [0] [0] [1] [] []
  gather_S65536x3_S600000x1_S600000x3_1_0_n_n_0_1_13_wf : GatherDims.WF S65536x3 S600000x1 S600000x3 [1] [0] [] [0] [] 1 ![1, 3]
  gather_S32768x3_S600000x1_S600000x3_1_0_n_n_0_1_13_wf : GatherDims.WF S32768x3 S600000x1 S600000x3 [1] [0] [] [0] [] 1 ![1, 3]
  gather_S65536x128_S600000x1_S600000x128_1_0_n_n_0_1_1128_wf : GatherDims.WF S65536x128 S600000x1 S600000x128 [1] [0] [] [0] [] 1 ![1, 128]
  dot_S6000x6_S6x128_S6000x128_1_0_0_1_n_n_wf : DotDims.WF S6000x6 S6x128 S6000x128 [1] [0] [0] [1] [] []
  dot_S6000x128_S128x128_S6000x128_1_0_0_1_n_n_wf : DotDims.WF S6000x128 S128x128 S6000x128 [1] [0] [0] [1] [] []
  dot_S6000x256_S256x128_S6000x128_1_0_0_1_n_n_wf : DotDims.WF S6000x256 S256x128 S6000x128 [1] [0] [0] [1] [] []
  scatter_S32768_S600000x1_S600000_n_0_0_1_wf : ScatterDims.WF S32768 S600000x1 S600000 [] [0] [0] 1
  scatter_S32768x128_S600000x1_S600000x128_1_0_0_1_wf : ScatterDims.WF S32768x128 S600000x1 S600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S65536x128.size a
  hwx0_0 : ∀ i : grid0.Coords, EltTy.bits .f32 = 32 ∨ (Rect.block (s := S65536x128) S4096x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x128.size a ≤ S65536x128.size a
  hwx0_5 : ∀ i : grid0.Coords, EltTy.bits .bf16 = 32 ∨ (Rect.block (s := S65536x128) S4096x128.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6000x6.size a ≤ S600000x6.size a
  hwx1_0 : ∀ i : grid1.Coords, EltTy.bits .f32 = 32 ∨ (Rect.block (s := S600000x6) S6000x6.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S6000x128.size a ≤ S600000x128.size a
  hwx1_1 : ∀ i : grid1.Coords, EltTy.bits .bf16 = 32 ∨ (Rect.block (s := S600000x128) S6000x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S6x128.size a ≤ S6x128.size a
  hwx1_2 : ∀ i : grid1.Coords, EltTy.bits .f32 = 32 ∨ (Rect.block (s := S6x128) S6x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S256x128.size a ≤ S256x128.size a
  hwx1_6 : ∀ i : grid1.Coords, EltTy.bits .f32 = 32 ∨ (Rect.block (s := S256x128) S256x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128.size a ≤ S128.size a
  hwx1_7 : ∀ i : grid1.Coords, EltTy.bits .f32 = 32 ∨ (Rect.block (s := S128) S128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128x128.size a ≤ S128x128.size a
  hwx1_8 : ∀ i : grid1.Coords, EltTy.bits .f32 = 32 ∨ (Rect.block (s := S128x128) S128x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S128.size a ≤ S128.size a
  hwx1_9 : ∀ i : grid1.Coords, EltTy.bits .f32 = 32 ∨ (Rect.block (s := S128) S128.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S6000x128.size a ≤ S600000x128.size a
  hwx1_10 : ∀ i : grid1.Coords, EltTy.bits .f32 = 32 ∨ (Rect.block (s := S600000x128) S6000x128.size (cc1_transform_10 i) (hinb1_10 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096x128.size a ≤ S32768x128.size a
  hwx2_0 : ∀ i : grid2.Coords, EltTy.bits .f32 = 32 ∨ (Rect.block (s := S32768x128) S4096x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S128.size a
  hwx2_2 : ∀ i : grid2.Coords, EltTy.bits .f32 = 32 ∨ (Rect.block (s := S128) S128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4096x128.size a ≤ S32768x128.size a
  hwx2_5 : ∀ i : grid2.Coords, EltTy.bits .f32 = 32 ∨ (Rect.block (s := S32768x128) S4096x128.size (cc2_transform_5 i) (hinb2_5 i)).WholeWords (EltTy.packing .f32)

variable [Facts₀]

def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def gather_S65536x3_S600000x1_S600000x3_1_0_n_n_0_1_13 : GatherDims S65536x3 S600000x1 S600000x3 where
  offsetDims := [1]
  collapsedSliceDims := [0]
  operandBatchingDims := []
  startIndicesBatchingDims := []
  startIndexMap := [0]
  indexVectorDim := 1
  sliceSizes := ![1, 3]
  wf := gather_S65536x3_S600000x1_S600000x3_1_0_n_n_0_1_13_wf
def gather_S32768x3_S600000x1_S600000x3_1_0_n_n_0_1_13 : GatherDims S32768x3 S600000x1 S600000x3 where
  offsetDims := [1]
  collapsedSliceDims := [0]
  operandBatchingDims := []
  startIndicesBatchingDims := []
  startIndexMap := [0]
  indexVectorDim := 1
  sliceSizes := ![1, 3]
  wf := gather_S32768x3_S600000x1_S600000x3_1_0_n_n_0_1_13_wf
def gather_S65536x128_S600000x1_S600000x128_1_0_n_n_0_1_1128 : GatherDims S65536x128 S600000x1 S600000x128 where
  offsetDims := [1]
  collapsedSliceDims := [0]
  operandBatchingDims := []
  startIndicesBatchingDims := []
  startIndexMap := [0]
  indexVectorDim := 1
  sliceSizes := ![1, 128]
  wf := gather_S65536x128_S600000x1_S600000x128_1_0_n_n_0_1_1128_wf
def dot_S6000x6_S6x128_S6000x128_1_0_0_1_n_n : DotDims S6000x6 S6x128 S6000x128 where
  lhsContracting := [1]
  rhsContracting := [0]
  lhsNonContracting := [0]
  rhsNonContracting := [1]
  lhsBatch := []
  rhsBatch := []
  wf := dot_S6000x6_S6x128_S6000x128_1_0_0_1_n_n_wf
def dot_S6000x128_S128x128_S6000x128_1_0_0_1_n_n : DotDims S6000x128 S128x128 S6000x128 where
  lhsContracting := [1]
  rhsContracting := [0]
  lhsNonContracting := [0]
  rhsNonContracting := [1]
  lhsBatch := []
  rhsBatch := []
  wf := dot_S6000x128_S128x128_S6000x128_1_0_0_1_n_n_wf
def dot_S6000x256_S256x128_S6000x128_1_0_0_1_n_n : DotDims S6000x256 S256x128 S6000x128 where
  lhsContracting := [1]
  rhsContracting := [0]
  lhsNonContracting := [0]
  rhsNonContracting := [1]
  lhsBatch := []
  rhsBatch := []
  wf := dot_S6000x256_S256x128_S6000x128_1_0_0_1_n_n_wf
def scatter_S32768_S600000x1_S600000_n_0_0_1 : ScatterDims S32768 S600000x1 S600000 where
  updateWindowDims := []
  insertedWindowDims := [0]
  scatterDimsToOperandDims := [0]
  indexVectorDim := 1
  wf := scatter_S32768_S600000x1_S600000_n_0_0_1_wf
def scatter_S32768x128_S600000x1_S600000x128_1_0_0_1 : ScatterDims S32768x128 S600000x1 S600000x128 where
  updateWindowDims := [1]
  insertedWindowDims := [0]
  scatterDimsToOperandDims := [0]
  indexVectorDim := 1
  wf := scatter_S32768x128_S600000x1_S600000x128_1_0_0_1_wf

abbrev win0_0 : Pipeline.Window sig grid0 :=
  Pipeline.Window.ofSpec (Memref.whole main_arg0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S4096x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v19) S6000x6.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S6000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S6x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg11) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg12) S256x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg13) S128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg14) S128x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg15) S128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v27) S6000x128.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev win2_0 : Pipeline.Window sig grid2 :=
  Pipeline.Window.ofSpec (Memref.whole main_v39) S4096x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg16) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg17) S128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg18) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg19) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v40) S4096x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S65536x128 : Shape := ⟨2, ![65536, 128]⟩
abbrev S65536x3 : Shape := ⟨2, ![65536, 3]⟩
abbrev S32768x3 : Shape := ⟨2, ![32768, 3]⟩
abbrev S2x600000 : Shape := ⟨2, ![2, 600000]⟩
abbrev S128x128 : Shape := ⟨2, ![128, 128]⟩
abbrev S128 : Shape := ⟨1, ![128]⟩
abbrev S6x128 : Shape := ⟨2, ![6, 128]⟩
abbrev S256x128 : Shape := ⟨2, ![256, 128]⟩
abbrev S1x600000 : Shape := ⟨2, ![1, 600000]⟩
abbrev S600000 : Shape := ⟨1, ![600000]⟩
abbrev S1x128 : Shape := ⟨2, ![1, 128]⟩
abbrev S_ : Shape := ⟨0, ![]⟩
abbrev S600000x1 : Shape := ⟨2, ![600000, 1]⟩
abbrev S600000x3 : Shape := ⟨2, ![600000, 3]⟩
abbrev S600000x6 : Shape := ⟨2, ![600000, 6]⟩
abbrev S600000x128 : Shape := ⟨2, ![600000, 128]⟩
abbrev S600000x256 : Shape := ⟨2, ![600000, 256]⟩
abbrev S32768 : Shape := ⟨1, ![32768]⟩
abbrev S32768x1 : Shape := ⟨2, ![32768, 1]⟩
abbrev S32768x128 : Shape := ⟨2, ![32768, 128]⟩

abbrev nBuf : Space → Nat
  | .hbm => 137
  | .vmem => 0
  | .smem => 0
  | _ => 0

abbrev hbmTy0_0 (i : Nat) : BufTy := match i % 128 with
  | 0 => ⟨S65536x128, .f32⟩
  | 1 => ⟨S65536x3, .f32⟩
  | 2 => ⟨S32768x3, .f32⟩
  | 3 => ⟨S2x600000, .i32⟩
  | 4 => ⟨S128x128, .f32⟩
  | 5 => ⟨S128, .f32⟩
  | 6 => ⟨S128x128, .f32⟩
  | 7 => ⟨S128, .f32⟩
  | 8 => ⟨S6x128, .f32⟩
  | 9 => ⟨S128, .f32⟩
  | 10 => ⟨S128x128, .f32⟩
  | 11 => ⟨S128, .f32⟩
  | 12 => ⟨S256x128, .f32⟩
  | 13 => ⟨S128, .f32⟩
  | 14 => ⟨S128x128, .f32⟩
  | 15 => ⟨S128, .f32⟩
  | 16 => ⟨S128x128, .f32⟩
  | 17 => ⟨S128, .f32⟩
  | 18 => ⟨S128x128, .f32⟩
  | 19 => ⟨S128, .f32⟩
  | 20 => ⟨S1x600000, .i32⟩
  | 21 => ⟨S600000, .i32⟩
  | 22 => ⟨S1x600000, .i32⟩
  | 23 => ⟨S600000, .i32⟩
  | 24 => ⟨S65536x128, .f32⟩
  | 25 => ⟨S1x128, .f32⟩
  | 26 => ⟨S65536x128, .f32⟩
  | 27 => ⟨S65536x128, .f32⟩
  | 28 => ⟨S65536x128, .f32⟩
  | 29 => ⟨S65536x128, .f32⟩
  | 30 => ⟨S_, .f32⟩
  | 31 => ⟨S65536x128, .f32⟩
  | 32 => ⟨S65536x128, .f32⟩
  | 33 => ⟨S_, .f32⟩
  | 34 => ⟨S65536x128, .f32⟩
  | 35 => ⟨S65536x128, .f32⟩
  | 36 => ⟨S65536x128, .f32⟩
  | 37 => ⟨S65536x128, .f32⟩
  | 38 => ⟨S1x128, .f32⟩
  | 39 => ⟨S65536x128, .f32⟩
  | 40 => ⟨S65536x128, .f32⟩
  | 41 => ⟨S_, .i32⟩
  | 42 => ⟨S600000, .i32⟩
  | 43 => ⟨S600000, .i1⟩
  | 44 => ⟨S_, .i32⟩
  | 45 => ⟨S600000, .i32⟩
  | 46 => ⟨S600000, .i32⟩
  | 47 => ⟨S600000, .i32⟩
  | 48 => ⟨S600000x1, .i32⟩
  | 49 => ⟨S600000x3, .f32⟩
  | 50 => ⟨S_, .i32⟩
  | 51 => ⟨S600000, .i32⟩
  | 52 => ⟨S600000, .i1⟩
  | 53 => ⟨S_, .i32⟩
  | 54 => ⟨S600000, .i32⟩
  | 55 => ⟨S600000, .i32⟩
  | 56 => ⟨S600000, .i32⟩
  | 57 => ⟨S600000x1, .i32⟩
  | 58 => ⟨S600000x3, .f32⟩
  | 59 => ⟨S600000x6, .f32⟩
  | 60 => ⟨S600000x128, .f32⟩
  | 61 => ⟨S1x128, .f32⟩
  | 62 => ⟨S600000x128, .f32⟩
  | 63 => ⟨S600000x128, .f32⟩
  | 64 => ⟨S600000x128, .f32⟩
  | 65 => ⟨S600000x128, .f32⟩
  | 66 => ⟨S_, .f32⟩
  | 67 => ⟨S600000x128, .f32⟩
  | 68 => ⟨S600000x128, .f32⟩
  | 69 => ⟨S_, .f32⟩
  | 70 => ⟨S600000x128, .f32⟩
  | 71 => ⟨S600000x128, .f32⟩
  | 72 => ⟨S600000x128, .f32⟩
  | 73 => ⟨S600000x128, .f32⟩
  | 74 => ⟨S1x128, .f32⟩
  | 75 => ⟨S600000x128, .f32⟩
  | 76 => ⟨S600000x128, .f32⟩
  | 77 => ⟨S_, .i32⟩
  | 78 => ⟨S600000, .i32⟩
  | 79 => ⟨S600000, .i1⟩
  | 80 => ⟨S_, .i32⟩
  | 81 => ⟨S600000, .i32⟩
  | 82 => ⟨S600000, .i32⟩
  | 83 => ⟨S600000, .i32⟩
  | 84 => ⟨S600000x1, .i32⟩
  | 85 => ⟨S600000x128, .f32⟩
  | 86 => ⟨S600000x256, .f32⟩
  | 87 => ⟨S600000x128, .f32⟩
  | 88 => ⟨S1x128, .f32⟩
  | 89 => ⟨S600000x128, .f32⟩
  | 90 => ⟨S600000x128, .f32⟩
  | 91 => ⟨S600000x128, .f32⟩
  | 92 => ⟨S600000x128, .f32⟩
  | 93 => ⟨S_, .f32⟩
  | 94 => ⟨S600000x128, .f32⟩
  | 95 => ⟨S600000x128, .f32⟩
  | 96 => ⟨S_, .f32⟩
  | 97 => ⟨S600000x128, .f32⟩
  | 98 => ⟨S600000x128, .f32⟩
  | 99 => ⟨S600000x128, .f32⟩
  | 100 => ⟨S600000x128, .f32⟩
  | 101 => ⟨S1x128, .f32⟩
  | 102 => ⟨S600000x128, .f32⟩
  | 103 => ⟨S600000x128, .f32⟩
  | 104 => ⟨S_, .f32⟩
  | 105 => ⟨S600000, .f32⟩
  | 106 => ⟨S_, .f32⟩
  | 107 => ⟨S32768, .f32⟩
  | 108 => ⟨S600000x1, .i32⟩
  | 109 => ⟨S32768, .f32⟩
  | 110 => ⟨S_, .f32⟩
  | 111 => ⟨S32768, .f32⟩
  | 112 => ⟨S32768, .f32⟩
  | 113 => ⟨S32768x1, .f32⟩
  | 114 => ⟨S_, .f32⟩
  | 115 => ⟨S32768x128, .f32⟩
  | 116 => ⟨S600000x1, .i32⟩
  | 117 => ⟨S32768x128, .f32⟩
  | 118 => ⟨S32768x128, .f32⟩
  | 119 => ⟨S32768x128, .f32⟩
  | 120 => ⟨S32768x128, .f32⟩
  | 121 => ⟨S1x128, .f32⟩
  | 122 => ⟨S32768x128, .f32⟩
  | 123 => ⟨S32768x128, .f32⟩
  | 124 => ⟨S32768x128, .f32⟩
  | 125 => ⟨S32768x128, .f32⟩
  | 126 => ⟨S_, .f32⟩
  | 127 => ⟨S32768x128, .f32⟩
  | _ => ⟨S65536x128, .f32⟩

abbrev hbmTy0_1 (i : Nat) : BufTy := match i % 128 with
  | 0 => ⟨S32768x128, .f32⟩
  | 1 => ⟨S_, .f32⟩
  | 2 => ⟨S32768x128, .f32⟩
  | 3 => ⟨S32768x128, .f32⟩
  | 4 => ⟨S32768x128, .f32⟩
  | 5 => ⟨S32768x128, .f32⟩
  | 6 => ⟨S1x128, .f32⟩
  | 7 => ⟨S32768x128, .f32⟩
  | 8 => ⟨S32768x128, .f32⟩
  | _ => ⟨S65536x128, .f32⟩

abbrev hbmTy (i : Nat) : BufTy := match i / 128 with
  | 0 => hbmTy0_0 i
  | 1 => hbmTy0_1 i
  | _ => ⟨S65536x128, .f32⟩

abbrev bufTy : (tb : Table) → Fin (tcTables nBuf tb) → BufTy
  | .hbm, ⟨i, _⟩ => hbmTy i
  | _, _ => ⟨S65536x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_c : Ref sig .tc := ⟨.hbm, 41, rfl⟩
abbrev main_v13 : Ref sig .tc := ⟨.hbm, 42, rfl⟩
abbrev main_v14 : Ref sig .tc := ⟨.hbm, 43, rfl⟩
abbrev main_c_0 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_c_1 : Ref sig .tc := ⟨.hbm, 50, rfl⟩
abbrev main_v20 : Ref sig .tc := ⟨.hbm, 51, rfl⟩
abbrev main_v21 : Ref sig .tc := ⟨.hbm, 52, rfl⟩
abbrev main_c_2 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_call1_v0 : Ref sig .tc := ⟨.hbm, 64, rfl⟩
abbrev main_call1_v1 : Ref sig .tc := ⟨.hbm, 65, rfl⟩
abbrev main_call1_cst : Ref sig .tc := ⟨.hbm, 66, rfl⟩
abbrev main_call1_v2 : Ref sig .tc := ⟨.hbm, 67, rfl⟩
abbrev main_call1_v3 : Ref sig .tc := ⟨.hbm, 68, rfl⟩
abbrev main_call1_cst_0 : Ref sig .tc := ⟨.hbm, 69, rfl⟩
abbrev main_call1_v4 : Ref sig .tc := ⟨.hbm, 70, rfl⟩
abbrev main_call1_v5 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_c_3 : Ref sig .tc := ⟨.hbm, 77, rfl⟩
abbrev main_v37 : Ref sig .tc := ⟨.hbm, 78, rfl⟩
abbrev main_v38 : Ref sig .tc := ⟨.hbm, 79, rfl⟩
abbrev main_c_4 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_call2_v0 : Ref sig .tc := ⟨.hbm, 91, rfl⟩
abbrev main_call2_v1 : Ref sig .tc := ⟨.hbm, 92, rfl⟩
abbrev main_call2_cst : Ref sig .tc := ⟨.hbm, 93, rfl⟩
abbrev main_call2_v2 : Ref sig .tc := ⟨.hbm, 94, rfl⟩
abbrev main_call2_v3 : Ref sig .tc := ⟨.hbm, 95, rfl⟩
abbrev main_call2_cst_0 : Ref sig .tc := ⟨.hbm, 96, rfl⟩
abbrev main_call2_v4 : Ref sig .tc := ⟨.hbm, 97, rfl⟩
abbrev main_call2_v5 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_cst : Ref sig .tc := ⟨.hbm, 104, rfl⟩
abbrev main_v54 : Ref sig .tc := ⟨.hbm, 105, rfl⟩
abbrev main_cst_5 : Ref sig .tc := ⟨.hbm, 106, rfl⟩
abbrev main_v55 : Ref sig .tc := ⟨.hbm, 107, rfl⟩
abbrev main_v56 : Ref sig .tc := ⟨.hbm, 108, rfl⟩
abbrev main_v57 : Ref sig .tc := ⟨.hbm, 109, rfl⟩
abbrev main_cst_6 : Ref sig .tc := ⟨.hbm, 110, rfl⟩
abbrev main_v58 : Ref sig .tc := ⟨.hbm, 111, rfl⟩
abbrev main_v59 : Ref sig .tc := ⟨.hbm, 112, rfl⟩
abbrev main_v60 : Ref sig .tc := ⟨.hbm, 113, rfl⟩
abbrev main_cst_7 : Ref sig .tc := ⟨.hbm, 114, rfl⟩
abbrev main_v61 : Ref sig .tc := ⟨.hbm, 115, rfl⟩
abbrev main_v62 : Ref sig .tc := ⟨.hbm, 116, rfl⟩
abbrev main_v63 : Ref sig .tc := ⟨.hbm, 117, rfl⟩
abbrev main_v64 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_call3_v0 : Ref sig .tc := ⟨.hbm, 124, rfl⟩
abbrev main_call3_v1 : Ref sig .tc := ⟨.hbm, 125, rfl⟩
abbrev main_call3_cst : Ref sig .tc := ⟨.hbm, 126, rfl⟩
abbrev main_call3_v2 : Ref sig .tc := ⟨.hbm, 127, rfl⟩
abbrev main_call3_v3 : Ref sig .tc := ⟨.hbm, 128, rfl⟩
abbrev main_call3_cst_0 : Ref sig .tc := ⟨.hbm, 129, rfl⟩
abbrev main_call3_v4 : Ref sig .tc := ⟨.hbm, 130, rfl⟩
abbrev main_call3_v5 : Ref sig .tc := ⟨.hbm, 131, rfl⟩
abbrev main_v70 : Ref sig .tc := ⟨.hbm, 132, rfl⟩
abbrev main_v71 : Ref sig .tc := ⟨.hbm, 133, rfl⟩
abbrev main_v72 : Ref sig .tc := ⟨.hbm, 134, rfl⟩
abbrev main_v73 : Ref sig .tc := ⟨.hbm, 135, rfl⟩
abbrev main_v74 : Ref sig .tc := ⟨.hbm, 136, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S128_S1x128_1 : S128.BroadcastsInDim S1x128 (![1] : Fin 1 → Fin S1x128.rank)
  bcast_S1x128_S65536x128_0_1 : S1x128.BroadcastsInDim S65536x128 (![0, 1] : Fin 2 → Fin S65536x128.rank)
  bcast_S_S65536x128 : S_.BroadcastsInDim S65536x128 (![] : Fin 0 → Fin S65536x128.rank)
  bcast_S_S600000 : S_.BroadcastsInDim S600000 (![] : Fin 0 → Fin S600000.rank)
  bcast_S600000_S600000x1_0 : S600000.BroadcastsInDim S600000x1 (![0] : Fin 1 → Fin S600000x1.rank)
  concatenates_S600000x3_S600000x3_S600000x6_d1 : Shape.Concatenates [S600000x3, S600000x3] S600000x6 1
  bcast_S1x128_S600000x128_0_1 : S1x128.BroadcastsInDim S600000x128 (![0, 1] : Fin 2 → Fin S600000x128.rank)
  bcast_S_S600000x128 : S_.BroadcastsInDim S600000x128 (![] : Fin 0 → Fin S600000x128.rank)
  concatenates_S600000x128_S600000x128_S600000x256_d1 : Shape.Concatenates [S600000x128, S600000x128] S600000x256 1
  bcast_S_S32768 : S_.BroadcastsInDim S32768 (![] : Fin 0 → Fin S32768.rank)
  bcast_S32768_S32768x1_0 : S32768.BroadcastsInDim S32768x1 (![0] : Fin 1 → Fin S32768x1.rank)
  bcast_S_S32768x128 : S_.BroadcastsInDim S32768x128 (![] : Fin 0 → Fin S32768x128.rank)
  bcast_S32768x1_S32768x128_0_1 : S32768x1.BroadcastsInDim S32768x128 (![0, 1] : Fin 2 → Fin S32768x128.rank)
  bcast_S1x128_S32768x128_0_1 : S1x128.BroadcastsInDim S32768x128 (![0, 1] : Fin 2 → Fin S32768x128.rank)
  dot_S65536x128_S128x128_S65536x128_1_0_0_1_n_n_wf : DotDims.WF S65536x128 S128x128 S65536x128 [1] [0] [0] [1] [] []
  gather_S65536x3_S600000x1_S600000x3_1_0_n_n_0_1_13_wf : GatherDims.WF S65536x3 S600000x1 S600000x3 [1] [0] [] [0] [] 1 ![1, 3]
  gather_S32768x3_S600000x1_S600000x3_1_0_n_n_0_1_13_wf : GatherDims.WF S32768x3 S600000x1 S600000x3 [1] [0] [] [0] [] 1 ![1, 3]
  dot_S600000x6_S6x128_S600000x128_1_0_0_1_n_n_wf : DotDims.WF S600000x6 S6x128 S600000x128 [1] [0] [0] [1] [] []
  dot_S600000x128_S128x128_S600000x128_1_0_0_1_n_n_wf : DotDims.WF S600000x128 S128x128 S600000x128 [1] [0] [0] [1] [] []
  gather_S65536x128_S600000x1_S600000x128_1_0_n_n_0_1_1128_wf : GatherDims.WF S65536x128 S600000x1 S600000x128 [1] [0] [] [0] [] 1 ![1, 128]
  dot_S600000x256_S256x128_S600000x128_1_0_0_1_n_n_wf : DotDims.WF S600000x256 S256x128 S600000x128 [1] [0] [0] [1] [] []
  scatter_S32768_S600000x1_S600000_n_0_0_1_wf : ScatterDims.WF S32768 S600000x1 S600000 [] [0] [0] 1
  scatter_S32768x128_S600000x1_S600000x128_1_0_0_1_wf : ScatterDims.WF S32768x128 S600000x1 S600000x128 [1] [0] [0] 1
  dot_S32768x128_S128x128_S32768x128_1_0_0_1_n_n_wf : DotDims.WF S32768x128 S128x128 S32768x128 [1] [0] [0] [1] [] []

variable [Facts₀]

def dot_S65536x128_S128x128_S65536x128_1_0_0_1_n_n : DotDims S65536x128 S128x128 S65536x128 where
  lhsContracting := [1]
  rhsContracting := [0]
  lhsNonContracting := [0]
  rhsNonContracting := [1]
  lhsBatch := []
  rhsBatch := []
  wf := dot_S65536x128_S128x128_S65536x128_1_0_0_1_n_n_wf
def gather_S65536x3_S600000x1_S600000x3_1_0_n_n_0_1_13 : GatherDims S65536x3 S600000x1 S600000x3 where
  offsetDims := [1]
  collapsedSliceDims := [0]
  operandBatchingDims := []
  startIndicesBatchingDims := []
  startIndexMap := [0]
  indexVectorDim := 1
  sliceSizes := ![1, 3]
  wf := gather_S65536x3_S600000x1_S600000x3_1_0_n_n_0_1_13_wf
def gather_S32768x3_S600000x1_S600000x3_1_0_n_n_0_1_13 : GatherDims S32768x3 S600000x1 S600000x3 where
  offsetDims := [1]
  collapsedSliceDims := [0]
  operandBatchingDims := []
  startIndicesBatchingDims := []
  startIndexMap := [0]
  indexVectorDim := 1
  sliceSizes := ![1, 3]
  wf := gather_S32768x3_S600000x1_S600000x3_1_0_n_n_0_1_13_wf
def dot_S600000x6_S6x128_S600000x128_1_0_0_1_n_n : DotDims S600000x6 S6x128 S600000x128 where
  lhsContracting := [1]
  rhsContracting := [0]
  lhsNonContracting := [0]
  rhsNonContracting := [1]
  lhsBatch := []
  rhsBatch := []
  wf := dot_S600000x6_S6x128_S600000x128_1_0_0_1_n_n_wf
def dot_S600000x128_S128x128_S600000x128_1_0_0_1_n_n : DotDims S600000x128 S128x128 S600000x128 where
  lhsContracting := [1]
  rhsContracting := [0]
  lhsNonContracting := [0]
  rhsNonContracting := [1]
  lhsBatch := []
  rhsBatch := []
  wf := dot_S600000x128_S128x128_S600000x128_1_0_0_1_n_n_wf
def gather_S65536x128_S600000x1_S600000x128_1_0_n_n_0_1_1128 : GatherDims S65536x128 S600000x1 S600000x128 where
  offsetDims := [1]
  collapsedSliceDims := [0]
  operandBatchingDims := []
  startIndicesBatchingDims := []
  startIndexMap := [0]
  indexVectorDim := 1
  sliceSizes := ![1, 128]
  wf := gather_S65536x128_S600000x1_S600000x128_1_0_n_n_0_1_1128_wf
def dot_S600000x256_S256x128_S600000x128_1_0_0_1_n_n : DotDims S600000x256 S256x128 S600000x128 where
  lhsContracting := [1]
  rhsContracting := [0]
  lhsNonContracting := [0]
  rhsNonContracting := [1]
  lhsBatch := []
  rhsBatch := []
  wf := dot_S600000x256_S256x128_S600000x128_1_0_0_1_n_n_wf
def scatter_S32768_S600000x1_S600000_n_0_0_1 : ScatterDims S32768 S600000x1 S600000 where
  updateWindowDims := []
  insertedWindowDims := [0]
  scatterDimsToOperandDims := [0]
  indexVectorDim := 1
  wf := scatter_S32768_S600000x1_S600000_n_0_0_1_wf
def scatter_S32768x128_S600000x1_S600000x128_1_0_0_1 : ScatterDims S32768x128 S600000x1 S600000x128 where
  updateWindowDims := [1]
  insertedWindowDims := [0]
  scatterDimsToOperandDims := [0]
  indexVectorDim := 1
  wf := scatter_S32768x128_S600000x1_S600000x128_1_0_0_1_wf
def dot_S32768x128_S128x128_S32768x128_1_0_0_1_n_n : DotDims S32768x128 S128x128 S32768x128 where
  lhsContracting := [1]
  rhsContracting := [0]
  lhsNonContracting := [0]
  rhsNonContracting := [1]
  lhsBatch := []
  rhsBatch := []
  wf := dot_S32768x128_S128x128_S32768x128_1_0_0_1_n_n_wf

class Facts : Prop extends Facts₀ where

variable [Facts]
-- ==== Proof.KernelRun.lean ====
/-
  The idealized kernel's run with its result array named.

  @main is six segments: the index arithmetic on the host, the node stage's region, the host gathers, the edge and
  message stage's region, the host scatter-add mean, the update stage's region.  The launch theorem for such a chain
  ends with every unscoped buffer of a core at the contents the last boundary's fold gives it; the generated frame
  reads the twenty argument arrays off that state.  Here the same final state is read once more, at the result
  array: it holds what the fold says the update stage's region leaves there.
-/
import proofs.«149918_j8864812499080_1_alg».proof.Proof.Gen.KernelIdeal.Frame

set_option maxRecDepth 16384

noncomputable section

namespace Cert.KernelIdeal.ValueRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]
variable (m : (ℓ : Loc nD τ sig) → Buf (Elt F) ℓ) (ρ : Dev nD → PrngReg)

local notation "𝕄" => MT nD τ sig Unit (Elt F) ℕ (UR sig nD τ) ℕ

set_option backward.isDefEq.respectTransparency.types false in
/-- Every weakly fair execution of @main terminates without a fault, the result array at the last boundary's contents
    and the arguments as launched: the launch over the six segments, the final thread state read against the final
    memory at the result array and at each argument. -/
theorem run_named : θ_run defs (onTc (τ := τ) (main (F := F))) ⟨m, fun _ => 0, ρ⟩ (fun r => ∀ c : Dev nD,
      r.2.mem ((c.tc : Thread nD τ).loc main_v40) = W6 m ρ c (Proc.devRef .tc main_v40)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v40 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c),
       (h c _ (mem_uc main_arg14 (by decide))).trans (W6_main_arg14 m ρ c),
       (h c _ (mem_uc main_arg15 (by decide))).trans (W6_main_arg15 m ρ c),
       (h c _ (mem_uc main_arg16 (by decide))).trans (W6_main_arg16 m ρ c),
       (h c _ (mem_uc main_arg17 (by decide))).trans (W6_main_arg17 m ρ c),
       (h c _ (mem_uc main_arg18 (by decide))).trans (W6_main_arg18 m ρ c),
       (h c _ (mem_uc main_arg19 (by decide))).trans (W6_main_arg19 m ρ c)⟩)

end Cert.KernelIdeal.ValueRun

end
-- ==== Proof.GlueDefs.lean ====
/-
  The host arithmetic between the three dense regions, as whole-array functions of what goes in.

  The edge index is a 2 × E array of words: row 0 the source node of each edge, row 1 its target grid cell.  A negative
  index is wrapped once by the extent of the axis it addresses (65536 nodes, 32768 cells).  From the wrapped sources
  and targets the host gathers, for every edge, the source's three coordinates and the target's three coordinates
  (joined into six edge attributes) and the source's row of node features; and after the message stage it sums the
  messages into their target cells and divides each cell's sum by the number of its edges, at least one.
  None of these functions is ever opened: both programs apply the same ones, so only their arguments are compared.
-/
import proofs.«149918_j8864812499080_1_alg».proof.Proof.Gen.KernelIdeal

noncomputable section

namespace Cert.KernelIdeal.Glue

open Idealize.ShloMosaic Cert.KernelIdeal Cert.KernelIdeal.Facts₀ Cert.KernelIdeal.Facts

variable {F : FTy → Type} [FloatOps F]

/-- Row 0 of the edge index: each edge's source node. -/
def edgeSrc (x3 : (⟨S2x600000, .i32⟩ : BufTy).Contents (Elt F)) : (⟨S600000, .i32⟩ : BufTy).Contents (Elt F) :=
  shapeCast S600000 (extractStridedSlice S1x600000 ![0, 0] x3 slices_S2x600000_S1x600000_0_0) shapeCasts_S1x600000_S600000

/-- Row 1 of the edge index: each edge's target cell. -/
def edgeTgt (x3 : (⟨S2x600000, .i32⟩ : BufTy).Contents (Elt F)) : (⟨S600000, .i32⟩ : BufTy).Contents (Elt F) :=
  shapeCast S600000 (extractStridedSlice S1x600000 ![1, 0] x3 slices_S2x600000_S1x600000_1_0) shapeCasts_S1x600000_S600000

/-- A negative index is moved up by the extent `n` of the axis; the others are kept. -/
def wrapIdx (n : BitVec 32) (v : (⟨S600000, .i32⟩ : BufTy).Contents (Elt F)) : (⟨S600000, .i32⟩ : BufTy).Contents (Elt F) :=
  select (cmpi .slt v (broadcastInDim S600000 ![] bcast_S_S600000 (constantI S_ 32 0#32)))
    (addi v (broadcastInDim S600000 ![] bcast_S_S600000 (constantI S_ 32 n))) v

/-- The indices as a column of one-entry index vectors. -/
def idxColumn (v : (⟨S600000, .i32⟩ : BufTy).Contents (Elt F)) : (⟨S600000x1, .i32⟩ : BufTy).Contents (Elt F) :=
  broadcastInDim S600000x1 ![0] bcast_S600000_S600000x1_0 v

/-- Six attributes per edge: the source node's coordinates, then the target cell's. -/
def edgeAttr (x1 : (⟨S65536x3, .f32⟩ : BufTy).Contents (Elt F)) (x2 : (⟨S32768x3, .f32⟩ : BufTy).Contents (Elt F))
    (x3 : (⟨S2x600000, .i32⟩ : BufTy).Contents (Elt F)) : (⟨S600000x6, .f32⟩ : BufTy).Contents (Elt F) :=
  concatenate S600000x6 1
    [⟨S600000x3, Host.gather gather_S65536x3_S600000x1_S600000x3_1_0_n_n_0_1_13 x1 (idxColumn (wrapIdx 65536#32 (edgeSrc x3)))⟩,
     ⟨S600000x3, Host.gather gather_S32768x3_S600000x1_S600000x3_1_0_n_n_0_1_13 x2 (idxColumn (wrapIdx 32768#32 (edgeTgt x3)))⟩]
    concatenates_S600000x3_S600000x3_S600000x6_d1

/-- The source node's feature row, per edge (the rows may be stored in either float format). -/
def gatherNodes {ε : EltTy} (nf : (⟨S65536x128, ε⟩ : BufTy).Contents (Elt F)) (x3 : (⟨S2x600000, .i32⟩ : BufTy).Contents (Elt F)) :
    (⟨S600000x128, ε⟩ : BufTy).Contents (Elt F) :=
  Host.gather gather_S65536x128_S600000x1_S600000x128_1_0_n_n_0_1_1128 nf (idxColumn (wrapIdx 65536#32 (edgeSrc x3)))

/-- The mean of the messages arriving at each cell: their sum over the cell's edges, divided by the number of those
    edges or by one if there is none. -/
def meanAgg (msg : (⟨S600000x128, .f32⟩ : BufTy).Contents (Elt F)) (x3 : (⟨S2x600000, .i32⟩ : BufTy).Contents (Elt F)) :
    (⟨S32768x128, .f32⟩ : BufTy).Contents (Elt F) :=
  Host.divf
    (Host.scatterAdd scatter_S32768x128_S600000x1_S600000x128_1_0_0_1
      (broadcastInDim S32768x128 ![] bcast_S_S32768x128 (constant S_ .f32 0x00000000#32))
      (idxColumn (edgeTgt x3)) msg)
    (broadcastInDim S32768x128 ![0, 1] bcast_S32768x1_S32768x128_0_1
      (broadcastInDim S32768x1 ![0] bcast_S32768_S32768x1_0
        (maximumf
          (Host.scatterAdd scatter_S32768_S600000x1_S600000_n_0_0_1
            (broadcastInDim S32768 ![] bcast_S_S32768 (constant S_ .f32 0x00000000#32))
            (idxColumn (edgeTgt x3))
            (broadcastInDim S600000 ![] bcast_S_S600000 (constant S_ .f32 0x3F800000#32)))
          (broadcastInDim S32768 ![] bcast_S_S32768 (constant S_ .f32 0x3F800000#32)))))

end Cert.KernelIdeal.Glue

end
-- ==== Proof.Glue.lean ====
/-
  What the host stretches of the idealized kernel write, read back as the whole-array functions of GlueDefs.

  The first stretch cuts the edge index into its source row and its target row.  The second wraps the indices, gathers
  the six edge attributes from the two coordinate arrays and gathers the source rows of the node stage's result.
  The third sums the message stage's result into the target cells and divides by the edge counts.  Each statement
  takes the contents of the buffers the stretch reads as hypotheses, so that it says only what the stretch computes.
-/
import proofs.«149918_j8864812499080_1_alg».proof.Proof.Gen.KernelIdeal.Frame
import proofs.«149918_j8864812499080_1_alg».proof.Proof.GlueDefs

set_option maxRecDepth 16384

noncomputable section

namespace Cert.KernelIdeal.Glue

open Idealize.ShloMosaic Idealize.ShloMosaic.TcCoe Idealize.ShloMosaic.Tactic Idealize.SL.Sem
open Idealize.ShloMosaic.StableHlo
open Cert.KernelIdeal Cert.KernelIdeal.Gen

/-- One operation's result at its own buffer is its function's value; at any other buffer it is what was there. -/
macro "results_rw" : tactic =>
  `(tactic| (repeat (first
               | rw [nullary_result] | rw [unary_result] | rw [binary_result] | rw [ternary_result] | rw [quaternary_result]
               | rw [reshape_result]
               | (rw [nullary_result_ne]; rotate_left; decide)
               | (rw [unary_result_ne]; rotate_left; decide)
               | (rw [binary_result_ne]; rotate_left; decide)
               | (rw [ternary_result_ne]; rotate_left; decide)
               | (rw [quaternary_result_ne]; rotate_left; decide)
               | (rw [reshape_result_ne]; rotate_left; decide))))

variable {F : FTy → Type} [FloatOps F]
variable (m : (ℓ : Loc nD τ sig) → Buf (Elt F) ℓ) (ρ : Dev nD → PrngReg)

/-- After the first stretch the source row of the edge index is in its own buffer. -/
theorem W1_v1 (c : Dev nD) :
    W1 m ρ c (Proc.devRef .tc main_v1) = edgeSrc (F := F) (m ((c : Thread nD τ).loc main_arg3)) := by
  show StableHlo.after hostOps0 (W0 m ρ c) (Proc.devRef .tc main_v1) = _
  after_results
  rfl

/-- After the first stretch the target row of the edge index is in its own buffer. -/
theorem W1_v3 (c : Dev nD) :
    W1 m ρ c (Proc.devRef .tc main_v3) = edgeTgt (F := F) (m ((c : Thread nD τ).loc main_arg3)) := by
  show StableHlo.after hostOps0 (W0 m ρ c) (Proc.devRef .tc main_v3) = _
  after_results
  rfl

set_option maxHeartbeats 8000000 in
/-- The second stretch leaves the six edge attributes: the source node's and the target cell's coordinates, gathered at
    the wrapped indices and joined. -/
theorem W3_v19 (c : Dev nD) {a1 : (⟨S65536x3, .f32⟩ : BufTy).Contents (Elt F)} {a2 : (⟨S32768x3, .f32⟩ : BufTy).Contents (Elt F)}
    {x3 : (⟨S2x600000, .i32⟩ : BufTy).Contents (Elt F)}
    (h1 : W2 m ρ c (Proc.devRef .tc main_arg1) = a1) (h2 : W2 m ρ c (Proc.devRef .tc main_arg2) = a2)
    (hs : W2 m ρ c (Proc.devRef .tc main_v1) = edgeSrc x3) (ht : W2 m ρ c (Proc.devRef .tc main_v3) = edgeTgt x3) :
    W3 m ρ c (Proc.devRef .tc main_v19) = edgeAttr a1 a2 x3 := by
  show StableHlo.after hostOps1 (W2 m ρ c) (Proc.devRef .tc main_v19) = _
  after_results_simp
  results_rw
  rw [h1, h2, hs, ht]
  rfl

set_option maxHeartbeats 8000000 in
/-- The second stretch leaves, per edge, the source node's row of the node stage's result. -/
theorem W3_v26 (c : Dev nD) {nf : (⟨S65536x128, .bf16⟩ : BufTy).Contents (Elt F)} {x3 : (⟨S2x600000, .i32⟩ : BufTy).Contents (Elt F)}
    (hn : W2 m ρ c (Proc.devRef .tc main_v4) = nf) (hs : W2 m ρ c (Proc.devRef .tc main_v1) = edgeSrc x3) :
    W3 m ρ c (Proc.devRef .tc main_v26) = gatherNodes nf x3 := by
  show StableHlo.after hostOps1 (W2 m ρ c) (Proc.devRef .tc main_v26) = _
  after_results_simp
  rw [hn, hs]
  rfl

set_option maxHeartbeats 8000000 in
/-- The third stretch leaves the mean of the messages arriving at each cell. -/
theorem W5_v39 (c : Dev nD) {msg : (⟨S600000x128, .f32⟩ : BufTy).Contents (Elt F)} {x3 : (⟨S2x600000, .i32⟩ : BufTy).Contents (Elt F)}
    (hm : W4 m ρ c (Proc.devRef .tc main_v27) = msg) (ht : W4 m ρ c (Proc.devRef .tc main_v3) = edgeTgt x3) :
    W5 m ρ c (Proc.devRef .tc main_v39) = meanAgg msg x3 := by
  show StableHlo.after hostOps2 (W4 m ρ c) (Proc.devRef .tc main_v39) = _
  after_results_simp
  rw [hm, ht]
  rfl

end Cert.KernelIdeal.Glue

end
-- ==== Proof.GlueArgs.lean ====
/-
  What each region finds in its argument buffers.

  The run is a fold of the buffer contents through six segments: a host stretch, a region, a host stretch, a region,
  a host stretch, a region.  A host stretch changes only the buffers its operations write; a region changes only the
  arrays it stages.  An argument that nothing before a boundary writes or stages still holds, at that boundary, what
  it held at launch; a buffer written by the first host stretch only is carried unchanged through the later segments.
-/
import proofs.«149918_j8864812499080_1_alg».proof.Proof.Gen.KernelIdeal.Frame

set_option maxRecDepth 16384

noncomputable section

namespace Cert.KernelIdeal.GlueArgs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

/-- A host stretch leaves a buffer as it was when none of its operations writes it: the stretch's list of operations
    is laid out and each operation's written reference is told apart from the buffer's. -/
macro "host_keeps " ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes,
      StableHlo.binaryIndexed_writes, Finset.mem_singleton]
    repeat' apply And.intro
    all_goals exact StableHlo.devRef_ne_of_ne (by decide))))

variable {F : FTy → Type} [FloatOps F]
variable (m : (ℓ : Loc nD τ sig) → Buf (Elt F) ℓ) (ρ : Dev nD → PrngReg)

/-- Argument `main_arg0` at the first host stretch's end is as launched. -/
theorem W1_arg0 (c : Dev nD) : W1 m ρ c (Proc.devRef .tc main_arg0) = m ((c : Thread nD τ).loc main_arg0) :=
  calc W1 m ρ c (Proc.devRef .tc main_arg0)
    _ = W0 m ρ c (Proc.devRef .tc main_arg0) := by host_keeps hostOps0
    _ = m ((c : Thread nD τ).loc main_arg0) := rfl

/-- Region 0 finds argument `main_arg0` as launched. -/
theorem V1_arg0 (c : Dev nD) : V1 m ρ c main_arg0 = m ((c : Thread nD τ).loc main_arg0) :=
  W1_arg0 m ρ c

/-- Argument `main_arg4` at the first host stretch's end is as launched. -/
theorem W1_arg4 (c : Dev nD) : W1 m ρ c (Proc.devRef .tc main_arg4) = m ((c : Thread nD τ).loc main_arg4) :=
  calc W1 m ρ c (Proc.devRef .tc main_arg4)
    _ = W0 m ρ c (Proc.devRef .tc main_arg4) := by host_keeps hostOps0
    _ = m ((c : Thread nD τ).loc main_arg4) := rfl

/-- Region 0 finds argument `main_arg4` as launched. -/
theorem V1_arg4 (c : Dev nD) : V1 m ρ c main_arg4 = m ((c : Thread nD τ).loc main_arg4) :=
  W1_arg4 m ρ c

/-- Argument `main_arg5` at the first host stretch's end is as launched. -/
theorem W1_arg5 (c : Dev nD) : W1 m ρ c (Proc.devRef .tc main_arg5) = m ((c : Thread nD τ).loc main_arg5) :=
  calc W1 m ρ c (Proc.devRef .tc main_arg5)
    _ = W0 m ρ c (Proc.devRef .tc main_arg5) := by host_keeps hostOps0
    _ = m ((c : Thread nD τ).loc main_arg5) := rfl

/-- Region 0 finds argument `main_arg5` as launched. -/
theorem V1_arg5 (c : Dev nD) : V1 m ρ c main_arg5 = m ((c : Thread nD τ).loc main_arg5) :=
  W1_arg5 m ρ c

/-- Argument `main_arg6` at the first host stretch's end is as launched. -/
theorem W1_arg6 (c : Dev nD) : W1 m ρ c (Proc.devRef .tc main_arg6) = m ((c : Thread nD τ).loc main_arg6) :=
  calc W1 m ρ c (Proc.devRef .tc main_arg6)
    _ = W0 m ρ c (Proc.devRef .tc main_arg6) := by host_keeps hostOps0
    _ = m ((c : Thread nD τ).loc main_arg6) := rfl

/-- Region 0 finds argument `main_arg6` as launched. -/
theorem V1_arg6 (c : Dev nD) : V1 m ρ c main_arg6 = m ((c : Thread nD τ).loc main_arg6) :=
  W1_arg6 m ρ c

/-- Argument `main_arg7` at the first host stretch's end is as launched. -/
theorem W1_arg7 (c : Dev nD) : W1 m ρ c (Proc.devRef .tc main_arg7) = m ((c : Thread nD τ).loc main_arg7) :=
  calc W1 m ρ c (Proc.devRef .tc main_arg7)
    _ = W0 m ρ c (Proc.devRef .tc main_arg7) := by host_keeps hostOps0
    _ = m ((c : Thread nD τ).loc main_arg7) := rfl

/-- Region 0 finds argument `main_arg7` as launched. -/
theorem V1_arg7 (c : Dev nD) : V1 m ρ c main_arg7 = m ((c : Thread nD τ).loc main_arg7) :=
  W1_arg7 m ρ c

/-- Argument `main_arg8` at the second host stretch's end is as launched: region 0 does not stage it. -/
theorem W3_arg8 (c : Dev nD) : W3 m ρ c (Proc.devRef .tc main_arg8) = m ((c : Thread nD τ).loc main_arg8) :=
  calc W3 m ρ c (Proc.devRef .tc main_arg8)
    _ = W2 m ρ c (Proc.devRef .tc main_arg8) := by host_keeps hostOps1
    _ = W1 m ρ c (Proc.devRef .tc main_arg8) := W2_of_ne m ρ c main_arg8 (by decide)
    _ = W0 m ρ c (Proc.devRef .tc main_arg8) := by host_keeps hostOps0
    _ = m ((c : Thread nD τ).loc main_arg8) := rfl

/-- Region 1 finds argument `main_arg8` as launched. -/
theorem V3_arg8 (c : Dev nD) : V3 m ρ c main_arg8 = m ((c : Thread nD τ).loc main_arg8) :=
  W3_arg8 m ρ c

/-- Argument `main_arg9` at the second host stretch's end is as launched: region 0 does not stage it. -/
theorem W3_arg9 (c : Dev nD) : W3 m ρ c (Proc.devRef .tc main_arg9) = m ((c : Thread nD τ).loc main_arg9) :=
  calc W3 m ρ c (Proc.devRef .tc main_arg9)
    _ = W2 m ρ c (Proc.devRef .tc main_arg9) := by host_keeps hostOps1
    _ = W1 m ρ c (Proc.devRef .tc main_arg9) := W2_of_ne m ρ c main_arg9 (by decide)
    _ = W0 m ρ c (Proc.devRef .tc main_arg9) := by host_keeps hostOps0
    _ = m ((c : Thread nD τ).loc main_arg9) := rfl

/-- Region 1 finds argument `main_arg9` as launched. -/
theorem V3_arg9 (c : Dev nD) : V3 m ρ c main_arg9 = m ((c : Thread nD τ).loc main_arg9) :=
  W3_arg9 m ρ c

/-- Argument `main_arg10` at the second host stretch's end is as launched: region 0 does not stage it. -/
theorem W3_arg10 (c : Dev nD) : W3 m ρ c (Proc.devRef .tc main_arg10) = m ((c : Thread nD τ).loc main_arg10) :=
  calc W3 m ρ c (Proc.devRef .tc main_arg10)
    _ = W2 m ρ c (Proc.devRef .tc main_arg10) := by host_keeps hostOps1
    _ = W1 m ρ c (Proc.devRef .tc main_arg10) := W2_of_ne m ρ c main_arg10 (by decide)
    _ = W0 m ρ c (Proc.devRef .tc main_arg10) := by host_keeps hostOps0
    _ = m ((c : Thread nD τ).loc main_arg10) := rfl

/-- Region 1 finds argument `main_arg10` as launched. -/
theorem V3_arg10 (c : Dev nD) : V3 m ρ c main_arg10 = m ((c : Thread nD τ).loc main_arg10) :=
  W3_arg10 m ρ c

/-- Argument `main_arg11` at the second host stretch's end is as launched: region 0 does not stage it. -/
theorem W3_arg11 (c : Dev nD) : W3 m ρ c (Proc.devRef .tc main_arg11) = m ((c : Thread nD τ).loc main_arg11) :=
  calc W3 m ρ c (Proc.devRef .tc main_arg11)
    _ = W2 m ρ c (Proc.devRef .tc main_arg11) := by host_keeps hostOps1
    _ = W1 m ρ c (Proc.devRef .tc main_arg11) := W2_of_ne m ρ c main_arg11 (by decide)
    _ = W0 m ρ c (Proc.devRef .tc main_arg11) := by host_keeps hostOps0
    _ = m ((c : Thread nD τ).loc main_arg11) := rfl

/-- Region 1 finds argument `main_arg11` as launched. -/
theorem V3_arg11 (c : Dev nD) : V3 m ρ c main_arg11 = m ((c : Thread nD τ).loc main_arg11) :=
  W3_arg11 m ρ c

/-- Argument `main_arg12` at the second host stretch's end is as launched: region 0 does not stage it. -/
theorem W3_arg12 (c : Dev nD) : W3 m ρ c (Proc.devRef .tc main_arg12) = m ((c : Thread nD τ).loc main_arg12) :=
  calc W3 m ρ c (Proc.devRef .tc main_arg12)
    _ = W2 m ρ c (Proc.devRef .tc main_arg12) := by host_keeps hostOps1
    _ = W1 m ρ c (Proc.devRef .tc main_arg12) := W2_of_ne m ρ c main_arg12 (by decide)
    _ = W0 m ρ c (Proc.devRef .tc main_arg12) := by host_keeps hostOps0
    _ = m ((c : Thread nD τ).loc main_arg12) := rfl

/-- Region 1 finds argument `main_arg12` as launched. -/
theorem V3_arg12 (c : Dev nD) : V3 m ρ c main_arg12 = m ((c : Thread nD τ).loc main_arg12) :=
  W3_arg12 m ρ c

/-- Argument `main_arg13` at the second host stretch's end is as launched: region 0 does not stage it. -/
theorem W3_arg13 (c : Dev nD) : W3 m ρ c (Proc.devRef .tc main_arg13) = m ((c : Thread nD τ).loc main_arg13) :=
  calc W3 m ρ c (Proc.devRef .tc main_arg13)
    _ = W2 m ρ c (Proc.devRef .tc main_arg13) := by host_keeps hostOps1
    _ = W1 m ρ c (Proc.devRef .tc main_arg13) := W2_of_ne m ρ c main_arg13 (by decide)
    _ = W0 m ρ c (Proc.devRef .tc main_arg13) := by host_keeps hostOps0
    _ = m ((c : Thread nD τ).loc main_arg13) := rfl

/-- Region 1 finds argument `main_arg13` as launched. -/
theorem V3_arg13 (c : Dev nD) : V3 m ρ c main_arg13 = m ((c : Thread nD τ).loc main_arg13) :=
  W3_arg13 m ρ c

/-- Argument `main_arg14` at the second host stretch's end is as launched: region 0 does not stage it. -/
theorem W3_arg14 (c : Dev nD) : W3 m ρ c (Proc.devRef .tc main_arg14) = m ((c : Thread nD τ).loc main_arg14) :=
  calc W3 m ρ c (Proc.devRef .tc main_arg14)
    _ = W2 m ρ c (Proc.devRef .tc main_arg14) := by host_keeps hostOps1
    _ = W1 m ρ c (Proc.devRef .tc main_arg14) := W2_of_ne m ρ c main_arg14 (by decide)
    _ = W0 m ρ c (Proc.devRef .tc main_arg14) := by host_keeps hostOps0
    _ = m ((c : Thread nD τ).loc main_arg14) := rfl

/-- Region 1 finds argument `main_arg14` as launched. -/
theorem V3_arg14 (c : Dev nD) : V3 m ρ c main_arg14 = m ((c : Thread nD τ).loc main_arg14) :=
  W3_arg14 m ρ c

/-- Argument `main_arg15` at the second host stretch's end is as launched: region 0 does not stage it. -/
theorem W3_arg15 (c : Dev nD) : W3 m ρ c (Proc.devRef .tc main_arg15) = m ((c : Thread nD τ).loc main_arg15) :=
  calc W3 m ρ c (Proc.devRef .tc main_arg15)
    _ = W2 m ρ c (Proc.devRef .tc main_arg15) := by host_keeps hostOps1
    _ = W1 m ρ c (Proc.devRef .tc main_arg15) := W2_of_ne m ρ c main_arg15 (by decide)
    _ = W0 m ρ c (Proc.devRef .tc main_arg15) := by host_keeps hostOps0
    _ = m ((c : Thread nD τ).loc main_arg15) := rfl

/-- Region 1 finds argument `main_arg15` as launched. -/
theorem V3_arg15 (c : Dev nD) : V3 m ρ c main_arg15 = m ((c : Thread nD τ).loc main_arg15) :=
  W3_arg15 m ρ c

/-- Argument `main_arg16` at the third host stretch's end is as launched: regions 0 and 1 do not stage it. -/
theorem W5_arg16 (c : Dev nD) : W5 m ρ c (Proc.devRef .tc main_arg16) = m ((c : Thread nD τ).loc main_arg16) :=
  calc W5 m ρ c (Proc.devRef .tc main_arg16)
    _ = W4 m ρ c (Proc.devRef .tc main_arg16) := by host_keeps hostOps2
    _ = W3 m ρ c (Proc.devRef .tc main_arg16) := W4_of_ne m ρ c main_arg16 (by decide)
    _ = W2 m ρ c (Proc.devRef .tc main_arg16) := by host_keeps hostOps1
    _ = W1 m ρ c (Proc.devRef .tc main_arg16) := W2_of_ne m ρ c main_arg16 (by decide)
    _ = W0 m ρ c (Proc.devRef .tc main_arg16) := by host_keeps hostOps0
    _ = m ((c : Thread nD τ).loc main_arg16) := rfl

/-- Region 2 finds argument `main_arg16` as launched. -/
theorem V5_arg16 (c : Dev nD) : V5 m ρ c main_arg16 = m ((c : Thread nD τ).loc main_arg16) :=
  W5_arg16 m ρ c

/-- Argument `main_arg17` at the third host stretch's end is as launched: regions 0 and 1 do not stage it. -/
theorem W5_arg17 (c : Dev nD) : W5 m ρ c (Proc.devRef .tc main_arg17) = m ((c : Thread nD τ).loc main_arg17) :=
  calc W5 m ρ c (Proc.devRef .tc main_arg17)
    _ = W4 m ρ c (Proc.devRef .tc main_arg17) := by host_keeps hostOps2
    _ = W3 m ρ c (Proc.devRef .tc main_arg17) := W4_of_ne m ρ c main_arg17 (by decide)
    _ = W2 m ρ c (Proc.devRef .tc main_arg17) := by host_keeps hostOps1
    _ = W1 m ρ c (Proc.devRef .tc main_arg17) := W2_of_ne m ρ c main_arg17 (by decide)
    _ = W0 m ρ c (Proc.devRef .tc main_arg17) := by host_keeps hostOps0
    _ = m ((c : Thread nD τ).loc main_arg17) := rfl

/-- Region 2 finds argument `main_arg17` as launched. -/
theorem V5_arg17 (c : Dev nD) : V5 m ρ c main_arg17 = m ((c : Thread nD τ).loc main_arg17) :=
  W5_arg17 m ρ c

/-- Argument `main_arg18` at the third host stretch's end is as launched: regions 0 and 1 do not stage it. -/
theorem W5_arg18 (c : Dev nD) : W5 m ρ c (Proc.devRef .tc main_arg18) = m ((c : Thread nD τ).loc main_arg18) :=
  calc W5 m ρ c (Proc.devRef .tc main_arg18)
    _ = W4 m ρ c (Proc.devRef .tc main_arg18) := by host_keeps hostOps2
    _ = W3 m ρ c (Proc.devRef .tc main_arg18) := W4_of_ne m ρ c main_arg18 (by decide)
    _ = W2 m ρ c (Proc.devRef .tc main_arg18) := by host_keeps hostOps1
    _ = W1 m ρ c (Proc.devRef .tc main_arg18) := W2_of_ne m ρ c main_arg18 (by decide)
    _ = W0 m ρ c (Proc.devRef .tc main_arg18) := by host_keeps hostOps0
    _ = m ((c : Thread nD τ).loc main_arg18) := rfl

/-- Region 2 finds argument `main_arg18` as launched. -/
theorem V5_arg18 (c : Dev nD) : V5 m ρ c main_arg18 = m ((c : Thread nD τ).loc main_arg18) :=
  W5_arg18 m ρ c

/-- Argument `main_arg19` at the third host stretch's end is as launched: regions 0 and 1 do not stage it. -/
theorem W5_arg19 (c : Dev nD) : W5 m ρ c (Proc.devRef .tc main_arg19) = m ((c : Thread nD τ).loc main_arg19) :=
  calc W5 m ρ c (Proc.devRef .tc main_arg19)
    _ = W4 m ρ c (Proc.devRef .tc main_arg19) := by host_keeps hostOps2
    _ = W3 m ρ c (Proc.devRef .tc main_arg19) := W4_of_ne m ρ c main_arg19 (by decide)
    _ = W2 m ρ c (Proc.devRef .tc main_arg19) := by host_keeps hostOps1
    _ = W1 m ρ c (Proc.devRef .tc main_arg19) := W2_of_ne m ρ c main_arg19 (by decide)
    _ = W0 m ρ c (Proc.devRef .tc main_arg19) := by host_keeps hostOps0
    _ = m ((c : Thread nD τ).loc main_arg19) := rfl

/-- Region 2 finds argument `main_arg19` as launched. -/
theorem V5_arg19 (c : Dev nD) : V5 m ρ c main_arg19 = m ((c : Thread nD τ).loc main_arg19) :=
  W5_arg19 m ρ c

/-- The first host stretch's row `main_v1` is carried through region 0, which does not stage it. -/
theorem W2_v1 (c : Dev nD) : W2 m ρ c (Proc.devRef .tc main_v1) = W1 m ρ c (Proc.devRef .tc main_v1) :=
  W2_of_ne m ρ c main_v1 (by decide)

/-- The first host stretch's row `main_v3` is carried through region 0, which does not stage it. -/
theorem W2_v3 (c : Dev nD) : W2 m ρ c (Proc.devRef .tc main_v3) = W1 m ρ c (Proc.devRef .tc main_v3) :=
  W2_of_ne m ρ c main_v3 (by decide)

/-- The row `main_v3` is carried to region 1's exit: neither region stages it and the second host stretch does not
    write it. -/
theorem W4_v3 (c : Dev nD) : W4 m ρ c (Proc.devRef .tc main_v3) = W1 m ρ c (Proc.devRef .tc main_v3) :=
  calc W4 m ρ c (Proc.devRef .tc main_v3)
    _ = W3 m ρ c (Proc.devRef .tc main_v3) := W4_of_ne m ρ c main_v3 (by decide)
    _ = W2 m ρ c (Proc.devRef .tc main_v3) := by host_keeps hostOps1
    _ = W1 m ρ c (Proc.devRef .tc main_v3) := W2_of_ne m ρ c main_v3 (by decide)

/-- Argument `main_arg1` at region 0's exit is as launched: region 0 does not stage it. -/
theorem W2_arg1 (c : Dev nD) : W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := by host_keeps hostOps0
    _ = m ((c : Thread nD τ).loc main_arg1) := rfl

/-- Argument `main_arg2` at region 0's exit is as launched: region 0 does not stage it. -/
theorem W2_arg2 (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := by host_keeps hostOps0
    _ = m ((c : Thread nD τ).loc main_arg2) := rfl

/-- Argument `main_arg3` at the first host stretch's end is as launched. -/
theorem W1_arg3 (c : Dev nD) : W1 m ρ c (Proc.devRef .tc main_arg3) = m ((c : Thread nD τ).loc main_arg3) :=
  calc W1 m ρ c (Proc.devRef .tc main_arg3)
    _ = W0 m ρ c (Proc.devRef .tc main_arg3) := by host_keeps hostOps0
    _ = m ((c : Thread nD τ).loc main_arg3) := rfl

end Cert.KernelIdeal.GlueArgs

end
-- ==== Proof.Spec.lean ====
/-
  The mathematics both programs compute, stated once on extended reals.

  Every dense stage of the layer acts row by row.  A row `y` of length `n` goes through a first affine map into
  128 hidden entries, `h j = (∑ k, y k · w₁ k j) + b₁ j`; each hidden entry is multiplied by its own logistic value
  (`x · 1 / (1 + e⁻ˣ)`); and a second affine map gives the 128 outputs `(∑ j, s j · w₂ j q) + b₂ q`.
  The node stage applies this to rows of length 128, the edge stage to rows of length 6, the message stage to a row of
  length 256 made of a gathered node row followed by the edge stage's row, and the update stage to rows of length 128.
  Which rows are gathered and how messages are summed into their targets is the same array-level arithmetic in both
  programs and is never opened here.
-/
import Idealize.ShloMosaic.PureOps.Ideal
import Idealize.ShloMosaic.Lib.ValueIdx

noncomputable section

open scoped BigOperators

namespace Cert.Spec

open Idealize.ShloMosaic Idealize.ShloMosaic.ValueIdx

/-- An entry times its logistic value. -/
def silu (x : EReal) : EReal := x * Ideal.logistic x

/-- One affine map on a row: entry `q` of `y · w + b`. -/
def dense {n : Nat} (w : (⟨2, ![n, 128]⟩ : Shape).Idx → EReal) (b : (⟨1, ![128]⟩ : Shape).Idx → EReal)
    (y : Fin n → EReal) (q : Fin 128) : EReal :=
  (∑ k : Fin n, y k * w (ix2 k q)) + b (ix1 q)

/-- The two-layer stage on a row: affine, entrywise `silu`, affine. -/
def mlpRow {n : Nat} (w1 : (⟨2, ![n, 128]⟩ : Shape).Idx → EReal) (b1 : (⟨1, ![128]⟩ : Shape).Idx → EReal)
    (w2 : (⟨2, ![128, 128]⟩ : Shape).Idx → EReal) (b2 : (⟨1, ![128]⟩ : Shape).Idx → EReal)
    (y : Fin n → EReal) (q : Fin 128) : EReal :=
  dense w2 b2 (fun j => silu (dense w1 b1 y j)) q

/-- The two-layer stage on every row of an `R × n` array. -/
def mlp {R n : Nat} (w1 : (⟨2, ![n, 128]⟩ : Shape).Idx → EReal) (b1 : (⟨1, ![128]⟩ : Shape).Idx → EReal)
    (w2 : (⟨2, ![128, 128]⟩ : Shape).Idx → EReal) (b2 : (⟨1, ![128]⟩ : Shape).Idx → EReal)
    (x : (⟨2, ![R, n]⟩ : Shape).Idx → EReal) : (⟨2, ![R, 128]⟩ : Shape).Idx → EReal :=
  fun i => mlpRow w1 b1 w2 b2 (fun k => x (ix2 (i 0) k)) (i 1)

/-- Two rows of length 128 side by side. -/
def joinRow (a b : Fin 128 → EReal) (k : Fin 256) : EReal :=
  if h : k.val < 128 then a ⟨k.val, h⟩ else b ⟨k.val - 128, by omega⟩

/-- The message stage on every edge: the edge stage's row of the edge's six coordinates is joined after the gathered
    node row, and the joined row goes through the message stage. -/
def edgeMsg {R : Nat} (ew1 : (⟨2, ![6, 128]⟩ : Shape).Idx → EReal) (eb1 : (⟨1, ![128]⟩ : Shape).Idx → EReal)
    (ew2 : (⟨2, ![128, 128]⟩ : Shape).Idx → EReal) (eb2 : (⟨1, ![128]⟩ : Shape).Idx → EReal)
    (mw1 : (⟨2, ![256, 128]⟩ : Shape).Idx → EReal) (mb1 : (⟨1, ![128]⟩ : Shape).Idx → EReal)
    (mw2 : (⟨2, ![128, 128]⟩ : Shape).Idx → EReal) (mb2 : (⟨1, ![128]⟩ : Shape).Idx → EReal)
    (ea : (⟨2, ![R, 6]⟩ : Shape).Idx → EReal) (nfs : (⟨2, ![R, 128]⟩ : Shape).Idx → EReal) :
    (⟨2, ![R, 128]⟩ : Shape).Idx → EReal :=
  fun i => mlpRow mw1 mb1 mw2 mb2
    (joinRow (fun k => nfs (ix2 (i 0) k)) (mlpRow ew1 eb1 ew2 eb2 (fun k => ea (ix2 (i 0) k)))) (i 1)

/-- The stage at row `p`, column `q`. -/
theorem mlp_apply {R n : Nat} (w1 : (⟨2, ![n, 128]⟩ : Shape).Idx → EReal) (b1 : (⟨1, ![128]⟩ : Shape).Idx → EReal)
    (w2 : (⟨2, ![128, 128]⟩ : Shape).Idx → EReal) (b2 : (⟨1, ![128]⟩ : Shape).Idx → EReal)
    (x : (⟨2, ![R, n]⟩ : Shape).Idx → EReal) (p : Fin R) (q : Fin 128) :
    mlp w1 b1 w2 b2 x (ix2 p q) = mlpRow w1 b1 w2 b2 (fun k => x (ix2 p k)) q := rfl

/-- The message stage at edge `p`, column `q`. -/
theorem edgeMsg_apply {R : Nat} (ew1 : (⟨2, ![6, 128]⟩ : Shape).Idx → EReal) (eb1 : (⟨1, ![128]⟩ : Shape).Idx → EReal)
    (ew2 : (⟨2, ![128, 128]⟩ : Shape).Idx → EReal) (eb2 : (⟨1, ![128]⟩ : Shape).Idx → EReal)
    (mw1 : (⟨2, ![256, 128]⟩ : Shape).Idx → EReal) (mb1 : (⟨1, ![128]⟩ : Shape).Idx → EReal)
    (mw2 : (⟨2, ![128, 128]⟩ : Shape).Idx → EReal) (mb2 : (⟨1, ![128]⟩ : Shape).Idx → EReal)
    (ea : (⟨2, ![R, 6]⟩ : Shape).Idx → EReal) (nfs : (⟨2, ![R, 128]⟩ : Shape).Idx → EReal) (p : Fin R) (q : Fin 128) :
    edgeMsg ew1 eb1 ew2 eb2 mw1 mb1 mw2 mb2 ea nfs (ix2 p q)
      = mlpRow mw1 mb1 mw2 mb2
          (joinRow (fun k => nfs (ix2 p k)) (mlpRow ew1 eb1 ew2 eb2 (fun k => ea (ix2 p k)))) q := rfl

end Cert.Spec

end
-- ==== Proof.LibPlainDot.lean ====
/-
  A plain matrix product read at an entry, at the ideal instance (every float an extended real).

  For an `a × k` matrix and a `k × b` matrix contracted over their shared axis into the zero matrix, entry
  `(p, q)` of the product is the sum over `j` of entry `(p, j)` of the first times entry `(j, q)` of the second.
-/
import Idealize.ShloMosaic.PureOps.Ideal.Laws
import Idealize.ShloMosaic.Lib.ValueIdx

noncomputable section

open scoped BigOperators

namespace Cert.LibPlainDot

open Idealize.ShloMosaic Idealize.ShloMosaic.ValueIdx

/-- The dimension numbers of a plain matrix product: `a × k` times `k × b` into `a × b`. -/
abbrev plainDot (a k b : Nat)
    (wf : DotDims.WF ⟨2, ![a, k]⟩ ⟨2, ![k, b]⟩ ⟨2, ![a, b]⟩ [1] [0] [0] [1] [] []) :
    DotDims ⟨2, ![a, k]⟩ ⟨2, ![k, b]⟩ ⟨2, ![a, b]⟩ where
  lhsContracting := [1]
  rhsContracting := [0]
  lhsNonContracting := [0]
  rhsNonContracting := [1]
  lhsBatch := []
  rhsBatch := []
  wf := wf

/-- The first operand's row coordinate is the result's row coordinate. -/
theorem lhs_row {a k b : Nat} (wf : DotDims.WF ⟨2, ![a, k]⟩ ⟨2, ![k, b]⟩ ⟨2, ![a, b]⟩ [1] [0] [0] [1] [] [])
    (i : (⟨2, ![a, b]⟩ : Shape).Idx) (c : (plainDot a k b wf).contr.Idx) :
    ((plainDot a k b wf).lhsIdx i c 0).val = (i 0).val := by
  unfold DotDims.lhsIdx
  rw [dif_neg (show ¬(0 : Fin (⟨2, ![a, k]⟩ : Shape).rank) ∈ (plainDot a k b wf).lhsBatch from List.not_mem_nil),
    dif_pos (show (0 : Fin (⟨2, ![a, k]⟩ : Shape).rank) ∈ (plainDot a k b wf).lhsNonContracting from List.mem_singleton.mpr rfl)]
  rfl

/-- The second operand's column coordinate is the result's column coordinate. -/
theorem rhs_col {a k b : Nat} (wf : DotDims.WF ⟨2, ![a, k]⟩ ⟨2, ![k, b]⟩ ⟨2, ![a, b]⟩ [1] [0] [0] [1] [] [])
    (i : (⟨2, ![a, b]⟩ : Shape).Idx) (c : (plainDot a k b wf).contr.Idx) :
    ((plainDot a k b wf).rhsIdx i c 1).val = (i 1).val := by
  unfold DotDims.rhsIdx
  rw [dif_neg (show ¬(1 : Fin (⟨2, ![k, b]⟩ : Shape).rank) ∈ (plainDot a k b wf).rhsBatch from List.not_mem_nil),
    dif_pos (show (1 : Fin (⟨2, ![k, b]⟩ : Shape).rank) ∈ (plainDot a k b wf).rhsNonContracting from List.mem_singleton.mpr rfl)]
  rfl

/-- Entry `(p, q)` of a plain matrix product accumulated into the zero matrix. -/
theorem matmul_zero_apply {a k b : Nat} {φ₁ φ₂ : FTy}
    (wf : DotDims.WF ⟨2, ![a, k]⟩ ⟨2, ![k, b]⟩ ⟨2, ![a, b]⟩ [1] [0] [0] [1] [] [])
    (l : FVec Ideal ⟨2, ![a, k]⟩ φ₁) (r : FVec Ideal ⟨2, ![k, b]⟩ φ₂) (p : Fin a) (q : Fin b) :
    FloatOps.matmul (plainDot a k b wf) none l r (constant ⟨2, ![a, b]⟩ .f32 0x00000000#32) (ix2 p q)
      = ∑ j : Fin k, l (ix2 p j) * r (ix2 j q) := by
  rw [Ideal.matmul_constant_zero_apply, ← Equiv.sum_comp (contrEquiv1 (plainDot a k b wf) k rfl rfl).symm]
  refine Finset.sum_congr rfl fun j _ => ?_
  have hj := contrEquiv1_symm_val (plainDot a k b wf) k rfl rfl j
  have el : (plainDot a k b wf).lhsIdx (ix2 p q) ((contrEquiv1 (plainDot a k b wf) k rfl rfl).symm j) = ix2 p j :=
    funext fun ax => Fin.ext (by
      match ax with
      | ⟨0, _⟩ => exact lhs_row wf _ _
      | ⟨1, _⟩ => exact ((plainDot a k b wf).lhsIdx_val_of_single rfl _ _).trans hj)
  have er : (plainDot a k b wf).rhsIdx (ix2 p q) ((contrEquiv1 (plainDot a k b wf) k rfl rfl).symm j) = ix2 j q :=
    funext fun ax => Fin.ext (by
      match ax with
      | ⟨0, _⟩ => exact ((plainDot a k b wf).rhsIdx_val_of_single rfl _ _).trans hj
      | ⟨1, _⟩ => exact rhs_col wf _ _)
  rw [el, er]

end Cert.LibPlainDot

end
-- ==== Proof.Body.lean ====
/-
  The pure value each kernel body stores, read at one entry.

  Each body computes, on a block of rows, a two-layer stage: a matrix product with a weight matrix into the zero
  matrix, a bias row added to every row, each entry multiplied by its logistic value, and a second product and bias.
  At the exact instance every format change is the identity, so that entry `(p, q)` of the stored block is the
  specification's row function of row `p` of the loaded block.
-/
import proofs.«149918_j8864812499080_1_alg».proof.Proof.Gen.KernelIdeal.Skeleton
import proofs.«149918_j8864812499080_1_alg».proof.Proof.Spec
import proofs.«149918_j8864812499080_1_alg».proof.Proof.LibPlainDot
import Idealize.ShloMosaic.Lib.ValueLayout

noncomputable section

open scoped BigOperators
open Idealize.ShloMosaic Idealize.ShloMosaic.TcCoe Idealize.ShloMosaic.ValueIdx Idealize.SL.Sem

namespace Cert.KernelIdeal.Body

open Cert.KernelIdeal Cert.KernelIdeal.Gen

/-- A bias vector laid out as one row and repeated over `R` rows reads, at `(p, q)`, its entry `q`. -/
theorem biasRows_apply {α : Type} {R : Nat} (b : (⟨1, ![128]⟩ : Shape).Idx → α)
    (hs : (⟨1, ![128]⟩ : Shape).ShapeCasts ⟨2, ![1, 128]⟩)
    (hb : (⟨2, ![1, 128]⟩ : Shape).Broadcasts ⟨2, ![R, 128]⟩) (p : Fin R) (q : Fin 128) :
    broadcastTo ⟨2, ![R, 128]⟩ (shapeCast ⟨2, ![1, 128]⟩ b hs) hb (ix2 p q) = b (ix1 q) :=
  (broadcastTo_1b_ab_apply _ hb p q).trans (shapeCast_a_1a_apply b hs 0 q)

/-- One affine layer on a block: the product of an `R × n` block with an `n × 128` weight matrix into the zero
    matrix, plus the bias row, is at `(p, q)` the affine map of row `p`. -/
theorem denseBlock_apply {R n : Nat} {φ₁ φ₂ : FTy}
    (wf : DotDims.WF ⟨2, ![R, n]⟩ ⟨2, ![n, 128]⟩ ⟨2, ![R, 128]⟩ [1] [0] [0] [1] [] [])
    (x : FVec Ideal ⟨2, ![R, n]⟩ φ₁) (w : FVec Ideal ⟨2, ![n, 128]⟩ φ₂) (b : FVec Ideal ⟨1, ![128]⟩ .f32)
    (hs : (⟨1, ![128]⟩ : Shape).ShapeCasts ⟨2, ![1, 128]⟩)
    (hb : (⟨2, ![1, 128]⟩ : Shape).Broadcasts ⟨2, ![R, 128]⟩) (p : Fin R) (q : Fin 128) :
    addf (matmul (Cert.LibPlainDot.plainDot R n 128 wf) none x w (constant ⟨2, ![R, 128]⟩ .f32 0x00000000#32))
        (broadcastTo ⟨2, ![R, 128]⟩ (shapeCast ⟨2, ![1, 128]⟩ b hs) hb) (ix2 p q)
      = Cert.Spec.dense w b (fun k => x (ix2 p k)) q := by
  show FloatOps.matmul (Cert.LibPlainDot.plainDot R n 128 wf) none x w (constant ⟨2, ![R, 128]⟩ .f32 0x00000000#32) (ix2 p q)
      + broadcastTo ⟨2, ![R, 128]⟩ (shapeCast ⟨2, ![1, 128]⟩ b hs) hb (ix2 p q) = _
  rw [Cert.LibPlainDot.matmul_zero_apply, biasRows_apply]
  rfl

/-- The two-layer stage on a block: two affine layers with the entrywise logistic product between them. -/
theorem mlpBlock_apply {R n : Nat} {φ₁ φ₂ φ₃ : FTy}
    (wf1 : DotDims.WF ⟨2, ![R, n]⟩ ⟨2, ![n, 128]⟩ ⟨2, ![R, 128]⟩ [1] [0] [0] [1] [] [])
    (wf2 : DotDims.WF ⟨2, ![R, 128]⟩ ⟨2, ![128, 128]⟩ ⟨2, ![R, 128]⟩ [1] [0] [0] [1] [] [])
    (x : FVec Ideal ⟨2, ![R, n]⟩ φ₁) (w1 : FVec Ideal ⟨2, ![n, 128]⟩ φ₂) (b1 : FVec Ideal ⟨1, ![128]⟩ .f32)
    (w2 : FVec Ideal ⟨2, ![128, 128]⟩ φ₃) (b2 : FVec Ideal ⟨1, ![128]⟩ .f32)
    (s : FVec Ideal ⟨2, ![R, 128]⟩ .bf16)
    (hs : (⟨1, ![128]⟩ : Shape).ShapeCasts ⟨2, ![1, 128]⟩)
    (hb : (⟨2, ![1, 128]⟩ : Shape).Broadcasts ⟨2, ![R, 128]⟩)
    (hS : ∀ (p : Fin R) (j : Fin 128), s (ix2 p j)
      = Cert.Spec.silu (addf (matmul (Cert.LibPlainDot.plainDot R n 128 wf1) none x w1 (constant ⟨2, ![R, 128]⟩ .f32 0x00000000#32))
        (broadcastTo ⟨2, ![R, 128]⟩ (shapeCast ⟨2, ![1, 128]⟩ b1 hs) hb) (ix2 p j)))
    (p : Fin R) (q : Fin 128) :
    addf (matmul (Cert.LibPlainDot.plainDot R 128 128 wf2) none s w2 (constant ⟨2, ![R, 128]⟩ .f32 0x00000000#32))
        (broadcastTo ⟨2, ![R, 128]⟩ (shapeCast ⟨2, ![1, 128]⟩ b2 hs) hb) (ix2 p q)
      = Cert.Spec.mlpRow w1 b1 w2 b2 (fun k => x (ix2 p k)) q := by
  refine (denseBlock_apply wf2 s w2 b2 hs hb p q).trans ?_
  unfold Cert.Spec.mlpRow
  refine congrArg (fun y => Cert.Spec.dense w2 b2 y q) (funext fun j => ?_)
  exact (hS p j).trans (congrArg Cert.Spec.silu (denseBlock_apply wf1 x w1 b1 hs hb p j))

/-- The node stage's stored block at `(p, q)`. -/
theorem k0_pay1_apply (x0 : Vec Ideal S4096x128 .f32) (w1 : Vec Ideal S128x128 .f32) (b1 : Vec Ideal S128 .f32)
    (w2 : Vec Ideal S128x128 .f32) (b2 : Vec Ideal S128 .f32) (p : Fin 4096) (q : Fin 128) :
    k0_pay1 (F := Ideal) x0 w1 b1 w2 b2 (ix2 p q) = Cert.Spec.mlpRow w1 b1 w2 b2 (fun k => x0 (ix2 p k)) q := by
  unfold k0_pay1
  exact mlpBlock_apply (R := 4096) (n := 128) dot_S4096x128_S128x128_S4096x128_1_0_0_1_n_n.wf
    dot_S4096x128_S128x128_S4096x128_1_0_0_1_n_n.wf x0 w1 b1 w2 b2 _ shapeCasts_S128_S1x128
    broadcasts_S1x128_S4096x128 (fun _ _ => rfl) p q

/-- The update stage's stored block at `(p, q)`: the same stage, after a cast of the block to its own shape. -/
theorem k2_pay1_apply (x0 : Vec Ideal S4096x128 .f32) (w1 : Vec Ideal S128x128 .f32) (b1 : Vec Ideal S128 .f32)
    (w2 : Vec Ideal S128x128 .f32) (b2 : Vec Ideal S128 .f32) (p : Fin 4096) (q : Fin 128) :
    k2_pay1 (F := Ideal) x0 w1 b1 w2 b2 (ix2 p q) = Cert.Spec.mlpRow w1 b1 w2 b2 (fun k => x0 (ix2 p k)) q := by
  unfold k2_pay1
  rw [shapeCast_self]
  exact mlpBlock_apply (R := 4096) (n := 128) dot_S4096x128_S128x128_S4096x128_1_0_0_1_n_n.wf
    dot_S4096x128_S128x128_S4096x128_1_0_0_1_n_n.wf x0 w1 b1 w2 b2 _ shapeCasts_S128_S1x128
    broadcasts_S1x128_S4096x128 (fun _ _ => rfl) p q

/-- A format change is the identity on every entry. -/
theorem truncf_apply {s : Shape} {φ ψ : FTy} (v : FVec Ideal s φ) (h : ψ.bits < φ.bits) (i : s.Idx) :
    truncf ψ v h i = v i := rfl

/-- A format change is the identity on every entry. -/
theorem extf_apply {s : Shape} {φ ψ : FTy} (v : FVec Ideal s φ) (h : φ.bits < ψ.bits) (i : s.Idx) :
    extf ψ v h i = v i := rfl

/-- Two `R × 128` blocks side by side read, on row `p`, the two rows joined. -/
theorem joinBlock_apply {R : Nat} (a b : (⟨2, ![R, 128]⟩ : Shape).Idx → EReal)
    (h : Shape.Concatenates [(⟨2, ![R, 128]⟩ : Shape), ⟨2, ![R, 128]⟩] ⟨2, ![R, 256]⟩ 1) (p : Fin R) (k : Fin 256) :
    concatenate ⟨2, ![R, 256]⟩ 1 [⟨⟨2, ![R, 128]⟩, a⟩, ⟨⟨2, ![R, 128]⟩, b⟩] h (ix2 p k)
      = Cert.Spec.joinRow (fun c => a (ix2 p c)) (fun c => b (ix2 p c)) k := by
  unfold Cert.Spec.joinRow
  split
  · next hk =>
    refine concatenate_pair_apply_left 1 a b h (ix2 p k) rfl (ix2 p ⟨k.val, hk⟩) fun ax => ?_
    match ax with
    | ⟨0, _⟩ => rfl
    | ⟨1, _⟩ => rfl
  · next hk =>
    refine concatenate_pair_apply_right 1 a b h (ix2 p k) rfl rfl (ix2 p ⟨k.val - 128, by omega⟩) (fun ax hax => ?_) ?_
    · match ax, hax with
      | ⟨0, _⟩, _ => rfl
      | ⟨1, _⟩, hax => exact absurd rfl hax
    · show (k.val - 128) + 128 = k.val
      omega

/-- The two-layer stage on a block with the intermediate block written out as the body computes it. -/
theorem mlpBlockT_apply {R n : Nat} {φ₁ φ₂ φ₃ : FTy}
    (wf1 : DotDims.WF ⟨2, ![R, n]⟩ ⟨2, ![n, 128]⟩ ⟨2, ![R, 128]⟩ [1] [0] [0] [1] [] [])
    (wf2 : DotDims.WF ⟨2, ![R, 128]⟩ ⟨2, ![128, 128]⟩ ⟨2, ![R, 128]⟩ [1] [0] [0] [1] [] [])
    (x : FVec Ideal ⟨2, ![R, n]⟩ φ₁) (w1 : FVec Ideal ⟨2, ![n, 128]⟩ φ₂) (b1 : FVec Ideal ⟨1, ![128]⟩ .f32)
    (w2 : FVec Ideal ⟨2, ![128, 128]⟩ φ₃) (b2 : FVec Ideal ⟨1, ![128]⟩ .f32)
    (hbits : FTy.bits .bf16 < FTy.bits .f32)
    (hs : (⟨1, ![128]⟩ : Shape).ShapeCasts ⟨2, ![1, 128]⟩)
    (hb : (⟨2, ![1, 128]⟩ : Shape).Broadcasts ⟨2, ![R, 128]⟩) (p : Fin R) (q : Fin 128) :
    addf (matmul (Cert.LibPlainDot.plainDot R 128 128 wf2) none
          (truncf .bf16
            (mulf
              (addf (matmul (Cert.LibPlainDot.plainDot R n 128 wf1) none x w1 (constant ⟨2, ![R, 128]⟩ .f32 0x00000000#32))
                (broadcastTo ⟨2, ![R, 128]⟩ (shapeCast ⟨2, ![1, 128]⟩ b1 hs) hb))
              (logistic
                (addf (matmul (Cert.LibPlainDot.plainDot R n 128 wf1) none x w1 (constant ⟨2, ![R, 128]⟩ .f32 0x00000000#32))
                  (broadcastTo ⟨2, ![R, 128]⟩ (shapeCast ⟨2, ![1, 128]⟩ b1 hs) hb))))
            hbits)
          w2 (constant ⟨2, ![R, 128]⟩ .f32 0x00000000#32))
        (broadcastTo ⟨2, ![R, 128]⟩ (shapeCast ⟨2, ![1, 128]⟩ b2 hs) hb) (ix2 p q)
      = Cert.Spec.mlpRow w1 b1 w2 b2 (fun k => x (ix2 p k)) q :=
  mlpBlock_apply wf1 wf2 x w1 b1 w2 b2 _ hs hb (fun _ _ => rfl) p q

/-- The edge and message stages' stored block at `(p, q)`: the edge stage's row joined after the gathered node row,
    through the message stage. -/
theorem k1_pay_apply (ea : Vec Ideal S6000x6 .f32) (ew1 : Vec Ideal S6x128 .f32) (eb1 : Vec Ideal S128 .f32)
    (ew2 : Vec Ideal S128x128 .f32) (eb2 : Vec Ideal S128 .f32) (nfs : Vec Ideal S6000x128 .bf16)
    (mw1 : Vec Ideal S256x128 .f32) (mb1 : Vec Ideal S128 .f32) (mw2 : Vec Ideal S128x128 .f32) (mb2 : Vec Ideal S128 .f32)
    (p : Fin 6000) (q : Fin 128) :
    k1_pay1 (F := Ideal) (k1_pay2 (F := Ideal) ea ew1 eb1 ew2 eb2 nfs mw1 mb1 mw2) mb2 (ix2 p q)
      = Cert.Spec.mlpRow mw1 mb1 mw2 mb2
          (Cert.Spec.joinRow (fun k => nfs (ix2 p k)) (Cert.Spec.mlpRow ew1 eb1 ew2 eb2 (fun k => ea (ix2 p k)))) q := by
  unfold k1_pay1 k1_pay2
  rw [shapeCast_self, shapeCast_self]
  refine (mlpBlockT_apply (R := 6000) (n := 256) dot_S6000x256_S256x128_S6000x128_1_0_0_1_n_n.wf
    dot_S6000x128_S128x128_S6000x128_1_0_0_1_n_n.wf _ _ mb1 _ mb2 bitsLt_bf16_f32 shapeCasts_S128_S1x128
    broadcasts_S1x128_S6000x128 p q).trans ?_
  refine congrArg (fun y => Cert.Spec.mlpRow mw1 mb1 mw2 mb2 y q) (funext fun k => ?_)
  refine (truncf_apply _ bitsLt_bf16_f32 (ix2 p k)).trans ?_
  refine (joinBlock_apply _ _ concatenates_S6000x128_S6000x128_S6000x256_d1 p k).trans ?_
  refine congrArg (fun y => Cert.Spec.joinRow (fun k => nfs (ix2 p k)) y k) (funext fun c => ?_)
  exact mlpBlockT_apply (R := 6000) (n := 6) dot_S6000x6_S6x128_S6000x128_1_0_0_1_n_n.wf
    dot_S6000x128_S128x128_S6000x128_1_0_0_1_n_n.wf _ _ eb1 _ eb2 bitsLt_bf16_f32 shapeCasts_S128_S1x128
    broadcasts_S1x128_S6000x128 p c

end Cert.KernelIdeal.Body

end
-- ==== Proof.Final0.lean ====
/-
  From blocks to the array, node stage (the first region): the result array after the region is the node stage applied
  to every row of the node array.

  The region is a row-tiled map.  Grid point `t` stages rows `4096·t … 4096·t + 4095` of the row operand and the whole
  of the two weight matrices and the two bias rows, and writes back rows `4096·t … 4096·t + 4095` of the result.  Given
  that the body's stored block is, entry by entry, the two-layer stage of the staged row (hypothesis `hpay`), the block
  point `t` writes back is block `t` of the stage applied to every row of the whole operand; the 16 blocks tile the
  65536 rows, so the result array is that whole-array function.
-/
import proofs.«149918_j8864812499080_1_alg».proof.Proof.Gen.KernelIdeal.Frame
import proofs.«149918_j8864812499080_1_alg».proof.Proof.Spec
import Idealize.ShloMosaic.Lib.Pipeline.Value

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Final0

open Cert.KernelIdeal Cert.KernelIdeal.Gen

variable (V : (c : Dev nD) → (b : Ref sig .tc) → Buf (Elt Ideal) ((c : Thread nD τ).loc b))

/-- The zero offset of a rank-2 access. -/
theorem zero_off2 : (![0, 0] : Fin 2 → Nat) = fun _ => 0 := funext fun a => by fin_cases a <;> rfl
/-- The zero offset of a rank-1 access. -/
theorem zero_off1 : (![0] : Fin 1 → Nat) = fun _ => 0 := funext fun a => by fin_cases a; rfl

/-- The index maps, decided over the 16 grid points: the row operand's block moves with the result's block along the
    rows; the weight and bias windows stay at block 0; the result's row-block number is at most 15 and its column
    block is 0. -/
theorem idx_facts : ∀ t : Fin cfg0.N,
    win0_0.index t (0 : Fin 2) = win0_5.index t (0 : Fin 2)
    ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) ≤ 15 ∧ win0_5.index t (1 : Fin 2) = 0 :=
  (by decide +kernel : ∀ t : Fin grid0.N, _)

/-- Every row block of the result is some grid point's. -/
theorem idx_onto : ∀ q0 : Fin 16, ∃ t : Fin cfg0.N, win0_5.index t = ![q0.val, 0] :=
  (by decide +kernel : ∀ q0 : Fin 16, ∃ t : Fin grid0.N, win0_5.index t = ![q0.val, 0])

/-- Window 1 stages the whole first weight matrix at every point: its block index is 0 on both axes. -/
theorem blk1_eq (c : Dev nD) (t : Fin cfg0.N) :
    (iblk0 V c 1 t : Vec Ideal S128x128 .f32) = (V c main_arg4 : S128x128.Idx → Elt Ideal .f32) := by
  obtain ⟨e0, e1, e2, e3, e4, e5, e6, e7, e8, e9⟩ := idx_facts t
  funext y
  show V c main_arg4 (((cfg0.win 1).blk t).view.emb y) = V c main_arg4 y
  refine congrArg (V c main_arg4) ?_
  funext a; apply Fin.ext
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- Window 2 stages the whole first bias row at every point: its block index is 0. -/
theorem blk2_eq (c : Dev nD) (t : Fin cfg0.N) :
    (iblk0 V c 2 t : Vec Ideal S128 .f32) = (V c main_arg5 : S128.Idx → Elt Ideal .f32) := by
  obtain ⟨e0, e1, e2, e3, e4, e5, e6, e7, e8, e9⟩ := idx_facts t
  funext y
  show V c main_arg5 (((cfg0.win 2).blk t).view.emb y) = V c main_arg5 y
  refine congrArg (V c main_arg5) ?_
  funext a; apply Fin.ext
  match a with
  | ⟨0, _⟩ => show win0_2.index t (0 : Fin 1) * 128 + 1 * (y 0).val = (y 0).val; omega

/-- Window 3 stages the whole second weight matrix at every point: its block index is 0 on both axes. -/
theorem blk3_eq (c : Dev nD) (t : Fin cfg0.N) :
    (iblk0 V c 3 t : Vec Ideal S128x128 .f32) = (V c main_arg6 : S128x128.Idx → Elt Ideal .f32) := by
  obtain ⟨e0, e1, e2, e3, e4, e5, e6, e7, e8, e9⟩ := idx_facts t
  funext y
  show V c main_arg6 (((cfg0.win 3).blk t).view.emb y) = V c main_arg6 y
  refine congrArg (V c main_arg6) ?_
  funext a; apply Fin.ext
  match a with
  | ⟨0, _⟩ => show win0_3.index t (0 : Fin 2) * 128 + 1 * (y 0).val = (y 0).val; omega
  | ⟨1, _⟩ => show win0_3.index t (1 : Fin 2) * 128 + 1 * (y 1).val = (y 1).val; omega

/-- Window 4 stages the whole second bias row at every point: its block index is 0. -/
theorem blk4_eq (c : Dev nD) (t : Fin cfg0.N) :
    (iblk0 V c 4 t : Vec Ideal S128 .f32) = (V c main_arg7 : S128.Idx → Elt Ideal .f32) := by
  obtain ⟨e0, e1, e2, e3, e4, e5, e6, e7, e8, e9⟩ := idx_facts t
  funext y
  show V c main_arg7 (((cfg0.win 4).blk t).view.emb y) = V c main_arg7 y
  refine congrArg (V c main_arg7) ?_
  funext a; apply Fin.ext
  match a with
  | ⟨0, _⟩ => show win0_4.index t (0 : Fin 1) * 128 + 1 * (y 0).val = (y 0).val; omega

/-- Row `p` of the row operand's block at point `t` is row `4096·t + p` of the operand. -/
theorem blk0_apply (c : Dev nD) (t : Fin cfg0.N) (p : Fin 4096) (k : Fin 128) (r : Fin 65536)
    (hr : r.val = win0_5.index t (0 : Fin 2) * 4096 + p.val) :
    (iblk0 V c 0 t : Vec Ideal S4096x128 .f32) (ix2 p k) = (V c main_arg0 : S65536x128.Idx → Elt Ideal .f32) (ix2 r k) := by
  obtain ⟨e0, e1, e2, e3, e4, e5, e6, e7, e8, e9⟩ := idx_facts t
  show V c main_arg0 (((cfg0.win 0).blk t).view.emb (ix2 p k)) = V c main_arg0 (ix2 r k)
  refine congrArg (V c main_arg0) ?_
  funext a; apply Fin.ext
  match a with
  | ⟨0, _⟩ => show win0_0.index t (0 : Fin 2) * 4096 + 1 * p.val = r.val; omega
  | ⟨1, _⟩ => show win0_0.index t (1 : Fin 2) * 128 + 1 * k.val = k.val; omega

/-- Entry `(p, q)` of the result's block at point `t` is entry `(4096·t + p, q)` of the result array. -/
theorem blk5_emb (t : Fin cfg0.N) (p : Fin 4096) (q : Fin 128) (r : Fin 65536)
    (hr : r.val = win0_5.index t (0 : Fin 2) * 4096 + p.val) :
    ((cfg0.win 5).blk t).view.emb (ix2 p q : S4096x128.Idx) = (ix2 r q : S65536x128.Idx) := by
  obtain ⟨e0, e1, e2, e3, e4, e5, e6, e7, e8, e9⟩ := idx_facts t
  funext a; apply Fin.ext
  match a with
  | ⟨0, _⟩ => show win0_5.index t (0 : Fin 2) * 4096 + 1 * p.val = r.val; omega
  | ⟨1, _⟩ => show win0_5.index t (1 : Fin 2) * 128 + 1 * q.val = q.val; omega

/-- The two-layer stage of a row depends only on the weights, the biases and the row. -/
theorem mlpRow_congr {n : Nat} {w1 w1' : (⟨2, ![n, 128]⟩ : Shape).Idx → EReal} {b1 b1' : (⟨1, ![128]⟩ : Shape).Idx → EReal}
    {w2 w2' : (⟨2, ![128, 128]⟩ : Shape).Idx → EReal} {b2 b2' : (⟨1, ![128]⟩ : Shape).Idx → EReal} {y y' : Fin n → EReal}
    (h1 : w1 = w1') (h2 : b1 = b1') (h3 : w2 = w2') (h4 : b2 = b2') (hy : y = y') (q : Fin 128) :
    Cert.Spec.mlpRow w1 b1 w2 b2 y q = Cert.Spec.mlpRow w1' b1' w2' b2' y' q := by
  subst h1 h2 h3 h4 hy; rfl

/-- What point `t` writes back is block `t` of the two-layer stage applied to every row of the whole operand: the
    stored block at `(p, q)` is the stage of the staged row `p` (`hpay`), the staged weights and biases are the whole
    arrays, the staged row `p` is row `4096·t + p` of the operand, and `(p, q)` of the block is `(4096·t + p, q)` of
    the result. -/
theorem flushed_eq (hpay : ∀ (x0 : Vec Ideal S4096x128 .f32) (w1 : Vec Ideal S128x128 .f32) (b1 : Vec Ideal S128 .f32) (w2 : Vec Ideal S128x128 .f32) (b2 : Vec Ideal S128 .f32) (p : Fin 4096) (q : Fin 128), k0_pay1 (F := Ideal) x0 w1 b1 w2 b2 (ix2 p q) = Cert.Spec.mlpRow w1 b1 w2 b2 (fun k => x0 (ix2 p k)) q)
    (c : Dev nD) (t : Fin cfg0.N) :
    (dat0 (F := Ideal) V c).flushed 5 t = ((cfg0.win 5).blk t).view.read (Elt Ideal)
      (Cert.Spec.mlp (V c main_arg4) (V c main_arg5) (V c main_arg6) (V c main_arg7) (V c main_arg0)) := by
  show (cfg0.win 5).cut (grid0.coords t) ((dat0 V c).after 5 t) = _
  rw [after0_5]
  unfold out0_5
  rw [View.canon_unit_zero zero_off2]
  simp only [View.ld_unit_zero (S := S4096x128) zero_off2, View.ld_unit_zero (S := S128x128) zero_off2, View.ld_unit_zero (S := S128) zero_off1]
  refine funext fun (j : S4096x128.Idx) => ?_
  obtain ⟨p, q, rfl⟩ : ∃ (p : Fin 4096) (q : Fin 128), j = ix2 p q := ⟨j 0, j 1, eq_ix2 j⟩
  have hb : win0_5.index t (0 : Fin 2) ≤ 15 := (idx_facts t).2.2.2.2.2.2.2.2.1
  have hr : (⟨win0_5.index t (0 : Fin 2) * 4096 + p.val, by have := p.isLt; omega⟩ : Fin 65536).val = win0_5.index t (0 : Fin 2) * 4096 + p.val := rfl
  show k0_pay1 (F := Ideal) (iblk0 V c 0 t) (iblk0 V c 1 t) (iblk0 V c 2 t) (iblk0 V c 3 t) (iblk0 V c 4 t) (ix2 p q)
    = Cert.Spec.mlp (V c main_arg4) (V c main_arg5) (V c main_arg6) (V c main_arg7) (V c main_arg0) (((cfg0.win 5).blk t).view.emb (ix2 p q : S4096x128.Idx))
  refine (hpay _ _ _ _ _ p q).trans ?_
  refine (mlpRow_congr (blk1_eq V c t) (blk2_eq V c t) (blk3_eq V c t) (blk4_eq V c t)
    (funext fun k => blk0_apply V c t p k _ hr) q).trans ?_
  exact (congrArg (Cert.Spec.mlp (V c main_arg4) (V c main_arg5) (V c main_arg6) (V c main_arg7) (V c main_arg0))
    (blk5_emb t p q _ hr)).symm

/-- An index of the result array is in point `t`'s block iff each coordinate is in the block's range on its axis. -/
theorem mem_blk (t : Fin cfg0.N) (i : S65536x128.Idx) :
    i ∈ ((cfg0.win 5).blk t).view.set ↔ ∀ a : Fin 2, win0_5.index t a * S4096x128.size a ≤ (i a).val ∧ (i a).val < win0_5.index t a * S4096x128.size a + S4096x128.size a := by
  show i ∈ ((View.whole main_v4).slice (win0_5.rect t)).set ↔ _
  rw [View.set_slice_whole, Rect.mem_set_unit]
  exact Iff.rfl

/-- Row `r` of the result array lies in the block of the point whose row-block number is `r / 4096`; every column lies
    in every block. -/
theorem cover (i : S65536x128.Idx) :
    ∃ t : Fin cfg0.N, (cfg0.win 5).flush t = true ∧ i ∈ ((cfg0.win 5).blk t).view.set := by
  have hi0 : (i 0).val < 65536 := (i 0).isLt
  have hi1 : (i 1).val < 128 := (i 1).isLt
  obtain ⟨t, ht⟩ := idx_onto ⟨(i 0).val / 4096, by omega⟩
  have q0 : win0_5.index t (0 : Fin 2) = (i 0).val / 4096 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 4096 ≤ (i 0).val ∧ (i 0).val < win0_5.index t (0 : Fin 2) * 4096 + 4096; omega
  | ⟨1, _⟩ => show win0_5.index t (1 : Fin 2) * 128 ≤ (i 1).val ∧ (i 1).val < win0_5.index t (1 : Fin 2) * 128 + 128; omega

/-- The result array after the region is the two-layer stage applied to every row of the operand the region found,
    with the weights and biases the region found. -/
theorem final0_of (hpay : ∀ (x0 : Vec Ideal S4096x128 .f32) (w1 : Vec Ideal S128x128 .f32) (b1 : Vec Ideal S128 .f32) (w2 : Vec Ideal S128x128 .f32) (b2 : Vec Ideal S128 .f32) (p : Fin 4096) (q : Fin 128), k0_pay1 (F := Ideal) x0 w1 b1 w2 b2 (ix2 p q) = Cert.Spec.mlpRow w1 b1 w2 b2 (fun k => x0 (ix2 p k)) q) (c : Dev nD) :
    (dat0 (F := Ideal) V c).arrAt 5 cfg0.N = Cert.Spec.mlp (V c main_arg4) (V c main_arg5) (V c main_arg6) (V c main_arg7) (V c main_arg0) :=
  (dat0 (F := Ideal) V c).arrAt_eq_of_cover 5 _ (fun t _ => flushed_eq V hpay c t) cover

end Cert.KernelIdeal.Final0

end
-- ==== Proof.Final1.lean ====
/-
  From blocks to the array, message stage (the second region): the result array after the region is, edge by edge, the
  message stage of the gathered node row joined with the edge stage's row of the edge's six coordinates.

  The region is a row-tiled map.  Grid point `t` stages rows `6000·t … 6000·t + 5999` of the two edge-indexed operands
  (the six coordinates and the gathered node rows) and the whole of the four weight matrices and the four bias rows, and
  writes back rows `6000·t … 6000·t + 5999` of the result.  Given that the body's stored block is, entry by entry, the
  message stage of the staged rows (hypothesis `hpay`), the block point `t` writes back is block `t` of the whole-array
  function; the 100 blocks tile the 600000 rows, so the result array is that function.
-/
import proofs.«149918_j8864812499080_1_alg».proof.Proof.Gen.KernelIdeal.Frame
import proofs.«149918_j8864812499080_1_alg».proof.Proof.Spec
import Idealize.ShloMosaic.Lib.Pipeline.Value

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Final1

open Cert.KernelIdeal Cert.KernelIdeal.Gen

variable (V : (c : Dev nD) → (b : Ref sig .tc) → Buf (Elt Ideal) ((c : Thread nD τ).loc b))

/-- The zero offset of a rank-2 access. -/
theorem zero_off2 : (![0, 0] : Fin 2 → Nat) = fun _ => 0 := funext fun a => by fin_cases a <;> rfl
/-- The zero offset of a rank-1 access. -/
theorem zero_off1 : (![0] : Fin 1 → Nat) = fun _ => 0 := funext fun a => by fin_cases a; rfl

/-- The index maps, decided over the 100 grid points: the two edge-indexed operands' blocks move with the result's block
    along the rows; the weight and bias windows stay at block 0; the result's row-block number is at most 99 and its
    column block is 0. -/
theorem idx_facts : ∀ t : Fin cfg1.N,
    win1_0.index t (0 : Fin 2) = win1_10.index t (0 : Fin 2) ∧ win1_0.index t (1 : Fin 2) = 0
    ∧ win1_1.index t (0 : Fin 2) = win1_10.index t (0 : Fin 2) ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 1) = 0
    ∧ win1_6.index t (0 : Fin 2) = 0 ∧ win1_6.index t (1 : Fin 2) = 0
    ∧ win1_7.index t (0 : Fin 1) = 0
    ∧ win1_8.index t (0 : Fin 2) = 0 ∧ win1_8.index t (1 : Fin 2) = 0
    ∧ win1_9.index t (0 : Fin 1) = 0
    ∧ win1_10.index t (0 : Fin 2) ≤ 99 ∧ win1_10.index t (1 : Fin 2) = 0 :=
  (by decide +kernel : ∀ t : Fin grid1.N, _)

/-- Every row block of the result is some grid point's. -/
theorem idx_onto : ∀ q0 : Fin 100, ∃ t : Fin cfg1.N, win1_10.index t = ![q0.val, 0] :=
  (by decide +kernel : ∀ q0 : Fin 100, ∃ t : Fin grid1.N, win1_10.index t = ![q0.val, 0])

/-- Window 2 stages the whole edge stage's first weight matrix at every point: its block index is 0 on both axes. -/
theorem blk2_eq (c : Dev nD) (t : Fin cfg1.N) :
    (iblk1 V c 2 t : Vec Ideal S6x128 .f32) = (V c main_arg8 : S6x128.Idx → Elt Ideal .f32) := by
  obtain ⟨e0, e1, e2, e3, e4, e5, e6, e7, e8, e9, e10, e11, e12, e13, e14, e15, e16, e17⟩ := idx_facts t
  funext y
  show V c main_arg8 (((cfg1.win 2).blk t).view.emb y) = V c main_arg8 y
  refine congrArg (V c main_arg8) ?_
  funext a; apply Fin.ext
  match a with
  | ⟨0, _⟩ => show win1_2.index t (0 : Fin 2) * 6 + 1 * (y 0).val = (y 0).val; omega
  | ⟨1, _⟩ => show win1_2.index t (1 : Fin 2) * 128 + 1 * (y 1).val = (y 1).val; omega

/-- Window 3 stages the whole edge stage's first bias row at every point: its block index is 0. -/
theorem blk3_eq (c : Dev nD) (t : Fin cfg1.N) :
    (iblk1 V c 3 t : Vec Ideal S128 .f32) = (V c main_arg9 : S128.Idx → Elt Ideal .f32) := by
  obtain ⟨e0, e1, e2, e3, e4, e5, e6, e7, e8, e9, e10, e11, e12, e13, e14, e15, e16, e17⟩ := idx_facts t
  funext y
  show V c main_arg9 (((cfg1.win 3).blk t).view.emb y) = V c main_arg9 y
  refine congrArg (V c main_arg9) ?_
  funext a; apply Fin.ext
  match a with
  | ⟨0, _⟩ => show win1_3.index t (0 : Fin 1) * 128 + 1 * (y 0).val = (y 0).val; omega

/-- Window 4 stages the whole edge stage's second weight matrix at every point: its block index is 0 on both axes. -/
theorem blk4_eq (c : Dev nD) (t : Fin cfg1.N) :
    (iblk1 V c 4 t : Vec Ideal S128x128 .f32) = (V c main_arg10 : S128x128.Idx → Elt Ideal .f32) := by
  obtain ⟨e0, e1, e2, e3, e4, e5, e6, e7, e8, e9, e10, e11, e12, e13, e14, e15, e16, e17⟩ := idx_facts t
  funext y
  show V c main_arg10 (((cfg1.win 4).blk t).view.emb y) = V c main_arg10 y
  refine congrArg (V c main_arg10) ?_
  funext a; apply Fin.ext
  match a with
  | ⟨0, _⟩ => show win1_4.index t (0 : Fin 2) * 128 + 1 * (y 0).val = (y 0).val; omega
  | ⟨1, _⟩ => show win1_4.index t (1 : Fin 2) * 128 + 1 * (y 1).val = (y 1).val; omega

/-- Window 5 stages the whole edge stage's second bias row at every point: its block index is 0. -/
theorem blk5_eq (c : Dev nD) (t : Fin cfg1.N) :
    (iblk1 V c 5 t : Vec Ideal S128 .f32) = (V c main_arg11 : S128.Idx → Elt Ideal .f32) := by
  obtain ⟨e0, e1, e2, e3, e4, e5, e6, e7, e8, e9, e10, e11, e12, e13, e14, e15, e16, e17⟩ := idx_facts t
  funext y
  show V c main_arg11 (((cfg1.win 5).blk t).view.emb y) = V c main_arg11 y
  refine congrArg (V c main_arg11) ?_
  funext a; apply Fin.ext
  match a with
  | ⟨0, _⟩ => show win1_5.index t (0 : Fin 1) * 128 + 1 * (y 0).val = (y 0).val; omega

/-- Window 6 stages the whole message stage's first weight matrix at every point: its block index is 0 on both axes. -/
theorem blk6_eq (c : Dev nD) (t : Fin cfg1.N) :
    (iblk1 V c 6 t : Vec Ideal S256x128 .f32) = (V c main_arg12 : S256x128.Idx → Elt Ideal .f32) := by
  obtain ⟨e0, e1, e2, e3, e4, e5, e6, e7, e8, e9, e10, e11, e12, e13, e14, e15, e16, e17⟩ := idx_facts t
  funext y
  show V c main_arg12 (((cfg1.win 6).blk t).view.emb y) = V c main_arg12 y
  refine congrArg (V c main_arg12) ?_
  funext a; apply Fin.ext
  match a with
  | ⟨0, _⟩ => show win1_6.index t (0 : Fin 2) * 256 + 1 * (y 0).val = (y 0).val; omega
  | ⟨1, _⟩ => show win1_6.index t (1 : Fin 2) * 128 + 1 * (y 1).val = (y 1).val; omega

/-- Window 7 stages the whole message stage's first bias row at every point: its block index is 0. -/
theorem blk7_eq (c : Dev nD) (t : Fin cfg1.N) :
    (iblk1 V c 7 t : Vec Ideal S128 .f32) = (V c main_arg13 : S128.Idx → Elt Ideal .f32) := by
  obtain ⟨e0, e1, e2, e3, e4, e5, e6, e7, e8, e9, e10, e11, e12, e13, e14, e15, e16, e17⟩ := idx_facts t
  funext y
  show V c main_arg13 (((cfg1.win 7).blk t).view.emb y) = V c main_arg13 y
  refine congrArg (V c main_arg13) ?_
  funext a; apply Fin.ext
  match a with
  | ⟨0, _⟩ => show win1_7.index t (0 : Fin 1) * 128 + 1 * (y 0).val = (y 0).val; omega

/-- Window 8 stages the whole message stage's second weight matrix at every point: its block index is 0 on both axes. -/
theorem blk8_eq (c : Dev nD) (t : Fin cfg1.N) :
    (iblk1 V c 8 t : Vec Ideal S128x128 .f32) = (V c main_arg14 : S128x128.Idx → Elt Ideal .f32) := by
  obtain ⟨e0, e1, e2, e3, e4, e5, e6, e7, e8, e9, e10, e11, e12, e13, e14, e15, e16, e17⟩ := idx_facts t
  funext y
  show V c main_arg14 (((cfg1.win 8).blk t).view.emb y) = V c main_arg14 y
  refine congrArg (V c main_arg14) ?_
  funext a; apply Fin.ext
  match a with
  | ⟨0, _⟩ => show win1_8.index t (0 : Fin 2) * 128 + 1 * (y 0).val = (y 0).val; omega
  | ⟨1, _⟩ => show win1_8.index t (1 : Fin 2) * 128 + 1 * (y 1).val = (y 1).val; omega

/-- Window 9 stages the whole message stage's second bias row at every point: its block index is 0. -/
theorem blk9_eq (c : Dev nD) (t : Fin cfg1.N) :
    (iblk1 V c 9 t : Vec Ideal S128 .f32) = (V c main_arg15 : S128.Idx → Elt Ideal .f32) := by
  obtain ⟨e0, e1, e2, e3, e4, e5, e6, e7, e8, e9, e10, e11, e12, e13, e14, e15, e16, e17⟩ := idx_facts t
  funext y
  show V c main_arg15 (((cfg1.win 9).blk t).view.emb y) = V c main_arg15 y
  refine congrArg (V c main_arg15) ?_
  funext a; apply Fin.ext
  match a with
  | ⟨0, _⟩ => show win1_9.index t (0 : Fin 1) * 128 + 1 * (y 0).val = (y 0).val; omega

/-- Row `p` of the coordinates' block at point `t` is row `6000·t + p` of the coordinates' array. -/
theorem blk0_apply (c : Dev nD) (t : Fin cfg1.N) (p : Fin 6000) (k : Fin 6) (r : Fin 600000)
    (hr : r.val = win1_10.index t (0 : Fin 2) * 6000 + p.val) :
    (iblk1 V c 0 t : Vec Ideal S6000x6 .f32) (ix2 p k) = (V c main_v19 : S600000x6.Idx → Elt Ideal .f32) (ix2 r k) := by
  obtain ⟨e0, e1, e2, e3, e4, e5, e6, e7, e8, e9, e10, e11, e12, e13, e14, e15, e16, e17⟩ := idx_facts t
  show V c main_v19 (((cfg1.win 0).blk t).view.emb (ix2 p k)) = V c main_v19 (ix2 r k)
  refine congrArg (V c main_v19) ?_
  funext a; apply Fin.ext
  match a with
  | ⟨0, _⟩ => show win1_0.index t (0 : Fin 2) * 6000 + 1 * p.val = r.val; omega
  | ⟨1, _⟩ => show win1_0.index t (1 : Fin 2) * 6 + 1 * k.val = k.val; omega

/-- Row `p` of the gathered node rows' block at point `t` is row `6000·t + p` of the gathered array. -/
theorem blk1_apply (c : Dev nD) (t : Fin cfg1.N) (p : Fin 6000) (k : Fin 128) (r : Fin 600000)
    (hr : r.val = win1_10.index t (0 : Fin 2) * 6000 + p.val) :
    (iblk1 V c 1 t : Vec Ideal S6000x128 .bf16) (ix2 p k) = (V c main_v26 : S600000x128.Idx → Elt Ideal .bf16) (ix2 r k) := by
  obtain ⟨e0, e1, e2, e3, e4, e5, e6, e7, e8, e9, e10, e11, e12, e13, e14, e15, e16, e17⟩ := idx_facts t
  show V c main_v26 (((cfg1.win 1).blk t).view.emb (ix2 p k)) = V c main_v26 (ix2 r k)
  refine congrArg (V c main_v26) ?_
  funext a; apply Fin.ext
  match a with
  | ⟨0, _⟩ => show win1_1.index t (0 : Fin 2) * 6000 + 1 * p.val = r.val; omega
  | ⟨1, _⟩ => show win1_1.index t (1 : Fin 2) * 128 + 1 * k.val = k.val; omega

/-- Entry `(p, q)` of the result's block at point `t` is entry `(6000·t + p, q)` of the result array. -/
theorem blk10_emb (t : Fin cfg1.N) (p : Fin 6000) (q : Fin 128) (r : Fin 600000)
    (hr : r.val = win1_10.index t (0 : Fin 2) * 6000 + p.val) :
    ((cfg1.win 10).blk t).view.emb (ix2 p q : S6000x128.Idx) = (ix2 r q : S600000x128.Idx) := by
  obtain ⟨e0, e1, e2, e3, e4, e5, e6, e7, e8, e9, e10, e11, e12, e13, e14, e15, e16, e17⟩ := idx_facts t
  funext a; apply Fin.ext
  match a with
  | ⟨0, _⟩ => show win1_10.index t (0 : Fin 2) * 6000 + 1 * p.val = r.val; omega
  | ⟨1, _⟩ => show win1_10.index t (1 : Fin 2) * 128 + 1 * q.val = q.val; omega

/-- The message of an edge depends only on the eight weight and bias arrays, the gathered node row and the edge's
    coordinates. -/
theorem msgRow_congr {ew1 ew1' : (⟨2, ![6, 128]⟩ : Shape).Idx → EReal} {eb1 eb1' : (⟨1, ![128]⟩ : Shape).Idx → EReal}
    {ew2 ew2' : (⟨2, ![128, 128]⟩ : Shape).Idx → EReal} {eb2 eb2' : (⟨1, ![128]⟩ : Shape).Idx → EReal}
    {mw1 mw1' : (⟨2, ![256, 128]⟩ : Shape).Idx → EReal} {mb1 mb1' : (⟨1, ![128]⟩ : Shape).Idx → EReal}
    {mw2 mw2' : (⟨2, ![128, 128]⟩ : Shape).Idx → EReal} {mb2 mb2' : (⟨1, ![128]⟩ : Shape).Idx → EReal}
    {a a' : Fin 128 → EReal} {y y' : Fin 6 → EReal}
    (h1 : ew1 = ew1') (h2 : eb1 = eb1') (h3 : ew2 = ew2') (h4 : eb2 = eb2')
    (h5 : mw1 = mw1') (h6 : mb1 = mb1') (h7 : mw2 = mw2') (h8 : mb2 = mb2') (ha : a = a') (hy : y = y') (q : Fin 128) :
    Cert.Spec.mlpRow mw1 mb1 mw2 mb2 (Cert.Spec.joinRow a (Cert.Spec.mlpRow ew1 eb1 ew2 eb2 y)) q
      = Cert.Spec.mlpRow mw1' mb1' mw2' mb2' (Cert.Spec.joinRow a' (Cert.Spec.mlpRow ew1' eb1' ew2' eb2' y')) q := by
  subst h1 h2 h3 h4 h5 h6 h7 h8 ha hy; rfl

/-- What point `t` writes back is block `t` of the whole-array message function: the stored block at `(p, q)` is the
    message of the staged rows `p` (`hpay`), the staged weights and biases are the whole arrays, the staged rows `p` are
    rows `6000·t + p` of the two edge-indexed operands, and `(p, q)` of the block is `(6000·t + p, q)` of the result. -/
theorem flushed_eq (hpay : ∀ (ea : Vec Ideal S6000x6 .f32) (ew1 : Vec Ideal S6x128 .f32) (eb1 : Vec Ideal S128 .f32) (ew2 : Vec Ideal S128x128 .f32) (eb2 : Vec Ideal S128 .f32) (nfs : Vec Ideal S6000x128 .bf16) (mw1 : Vec Ideal S256x128 .f32) (mb1 : Vec Ideal S128 .f32) (mw2 : Vec Ideal S128x128 .f32) (mb2 : Vec Ideal S128 .f32) (p : Fin 6000) (q : Fin 128), k1_pay1 (F := Ideal) (k1_pay2 (F := Ideal) ea ew1 eb1 ew2 eb2 nfs mw1 mb1 mw2) mb2 (ix2 p q) = Cert.Spec.mlpRow mw1 mb1 mw2 mb2 (Cert.Spec.joinRow (fun k => nfs (ix2 p k)) (Cert.Spec.mlpRow ew1 eb1 ew2 eb2 (fun k => ea (ix2 p k)))) q)
    (c : Dev nD) (t : Fin cfg1.N) :
    (dat1 (F := Ideal) V c).flushed 10 t = ((cfg1.win 10).blk t).view.read (Elt Ideal)
      (Cert.Spec.edgeMsg (V c main_arg8) (V c main_arg9) (V c main_arg10) (V c main_arg11) (V c main_arg12) (V c main_arg13) (V c main_arg14) (V c main_arg15) (V c main_v19) (V c main_v26)) := by
  show (cfg1.win 10).cut (grid1.coords t) ((dat1 V c).after 10 t) = _
  rw [after1_10]
  unfold out1_10
  rw [View.canon_unit_zero zero_off2]
  simp only [View.ld_unit_zero (S := S6000x6) zero_off2, View.ld_unit_zero (S := S6000x128) zero_off2, View.ld_unit_zero (S := S6x128) zero_off2, View.ld_unit_zero (S := S256x128) zero_off2, View.ld_unit_zero (S := S128x128) zero_off2, View.ld_unit_zero (S := S128) zero_off1]
  refine funext fun (j : S6000x128.Idx) => ?_
  obtain ⟨p, q, rfl⟩ : ∃ (p : Fin 6000) (q : Fin 128), j = ix2 p q := ⟨j 0, j 1, eq_ix2 j⟩
  have hb : win1_10.index t (0 : Fin 2) ≤ 99 := (idx_facts t).2.2.2.2.2.2.2.2.2.2.2.2.2.2.2.2.1
  have hr : (⟨win1_10.index t (0 : Fin 2) * 6000 + p.val, by have := p.isLt; omega⟩ : Fin 600000).val = win1_10.index t (0 : Fin 2) * 6000 + p.val := rfl
  show k1_pay1 (F := Ideal) (k1_pay2 (F := Ideal) (iblk1 V c 0 t) (iblk1 V c 2 t) (iblk1 V c 3 t) (iblk1 V c 4 t) (iblk1 V c 5 t) (iblk1 V c 1 t) (iblk1 V c 6 t) (iblk1 V c 7 t) (iblk1 V c 8 t)) (iblk1 V c 9 t) (ix2 p q)
    = Cert.Spec.edgeMsg (V c main_arg8) (V c main_arg9) (V c main_arg10) (V c main_arg11) (V c main_arg12) (V c main_arg13) (V c main_arg14) (V c main_arg15) (V c main_v19) (V c main_v26) (((cfg1.win 10).blk t).view.emb (ix2 p q : S6000x128.Idx))
  refine (hpay _ _ _ _ _ _ _ _ _ _ p q).trans ?_
  refine (msgRow_congr (blk2_eq V c t) (blk3_eq V c t) (blk4_eq V c t) (blk5_eq V c t) (blk6_eq V c t) (blk7_eq V c t)
    (blk8_eq V c t) (blk9_eq V c t) (funext fun k => blk1_apply V c t p k _ hr) (funext fun k => blk0_apply V c t p k _ hr) q).trans ?_
  exact (congrArg (Cert.Spec.edgeMsg (V c main_arg8) (V c main_arg9) (V c main_arg10) (V c main_arg11) (V c main_arg12) (V c main_arg13) (V c main_arg14) (V c main_arg15) (V c main_v19) (V c main_v26))
    (blk10_emb t p q _ hr)).symm

/-- An index of the result array is in point `t`'s block iff each coordinate is in the block's range on its axis. -/
theorem mem_blk (t : Fin cfg1.N) (i : S600000x128.Idx) :
    i ∈ ((cfg1.win 10).blk t).view.set ↔ ∀ a : Fin 2, win1_10.index t a * S6000x128.size a ≤ (i a).val ∧ (i a).val < win1_10.index t a * S6000x128.size a + S6000x128.size a := by
  show i ∈ ((View.whole main_v27).slice (win1_10.rect t)).set ↔ _
  rw [View.set_slice_whole, Rect.mem_set_unit]
  exact Iff.rfl

/-- Row `r` of the result array lies in the block of the point whose row-block number is `r / 6000`; every column lies
    in every block. -/
theorem cover (i : S600000x128.Idx) :
    ∃ t : Fin cfg1.N, (cfg1.win 10).flush t = true ∧ i ∈ ((cfg1.win 10).blk t).view.set := by
  have hi0 : (i 0).val < 600000 := (i 0).isLt
  have hi1 : (i 1).val < 128 := (i 1).isLt
  obtain ⟨t, ht⟩ := idx_onto ⟨(i 0).val / 6000, by omega⟩
  have q0 : win1_10.index t (0 : Fin 2) = (i 0).val / 6000 := congrFun ht 0
  have q1 : win1_10.index t (1 : Fin 2) = 0 := congrFun ht 1
  refine ⟨t, flush1_10 t, ?_⟩
  rw [mem_blk]
  intro a
  match a with
  | ⟨0, _⟩ => show win1_10.index t (0 : Fin 2) * 6000 ≤ (i 0).val ∧ (i 0).val < win1_10.index t (0 : Fin 2) * 6000 + 6000; omega
  | ⟨1, _⟩ => show win1_10.index t (1 : Fin 2) * 128 ≤ (i 1).val ∧ (i 1).val < win1_10.index t (1 : Fin 2) * 128 + 128; omega

/-- The result array after the region is the whole-array message function of the arrays the region found. -/
theorem final1_of (hpay : ∀ (ea : Vec Ideal S6000x6 .f32) (ew1 : Vec Ideal S6x128 .f32) (eb1 : Vec Ideal S128 .f32) (ew2 : Vec Ideal S128x128 .f32) (eb2 : Vec Ideal S128 .f32) (nfs : Vec Ideal S6000x128 .bf16) (mw1 : Vec Ideal S256x128 .f32) (mb1 : Vec Ideal S128 .f32) (mw2 : Vec Ideal S128x128 .f32) (mb2 : Vec Ideal S128 .f32) (p : Fin 6000) (q : Fin 128), k1_pay1 (F := Ideal) (k1_pay2 (F := Ideal) ea ew1 eb1 ew2 eb2 nfs mw1 mb1 mw2) mb2 (ix2 p q) = Cert.Spec.mlpRow mw1 mb1 mw2 mb2 (Cert.Spec.joinRow (fun k => nfs (ix2 p k)) (Cert.Spec.mlpRow ew1 eb1 ew2 eb2 (fun k => ea (ix2 p k)))) q) (c : Dev nD) :
    (dat1 (F := Ideal) V c).arrAt 10 cfg1.N = Cert.Spec.edgeMsg (V c main_arg8) (V c main_arg9) (V c main_arg10) (V c main_arg11) (V c main_arg12) (V c main_arg13) (V c main_arg14) (V c main_arg15) (V c main_v19) (V c main_v26) :=
  (dat1 (F := Ideal) V c).arrAt_eq_of_cover 10 _ (fun t _ => flushed_eq V hpay c t) cover

end Cert.KernelIdeal.Final1

end
-- ==== Proof.Final2.lean ====
/-
  From blocks to the array, update stage (the third region): the result array after the region is the update stage
  applied to every row of the array of summed messages.

  The region is a row-tiled map.  Grid point `t` stages rows `4096·t … 4096·t + 4095` of the row operand and the whole
  of the two weight matrices and the two bias rows, and writes back rows `4096·t … 4096·t + 4095` of the result.  Given
  that the body's stored block is, entry by entry, the two-layer stage of the staged row (hypothesis `hpay`), the block
  point `t` writes back is block `t` of the stage applied to every row of the whole operand; the 8 blocks tile the
  32768 rows, so the result array is that whole-array function.
-/
import proofs.«149918_j8864812499080_1_alg».proof.Proof.Gen.KernelIdeal.Frame
import proofs.«149918_j8864812499080_1_alg».proof.Proof.Spec
import Idealize.ShloMosaic.Lib.Pipeline.Value

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Final2

open Cert.KernelIdeal Cert.KernelIdeal.Gen

variable (V : (c : Dev nD) → (b : Ref sig .tc) → Buf (Elt Ideal) ((c : Thread nD τ).loc b))

/-- The zero offset of a rank-2 access. -/
theorem zero_off2 : (![0, 0] : Fin 2 → Nat) = fun _ => 0 := funext fun a => by fin_cases a <;> rfl
/-- The zero offset of a rank-1 access. -/
theorem zero_off1 : (![0] : Fin 1 → Nat) = fun _ => 0 := funext fun a => by fin_cases a; rfl

/-- The index maps, decided over the 8 grid points: the row operand's block moves with the result's block along the
    rows; the weight and bias windows stay at block 0; the result's row-block number is at most 7 and its column
    block is 0. -/
theorem idx_facts : ∀ t : Fin cfg2.N,
    win2_0.index t (0 : Fin 2) = win2_5.index t (0 : Fin 2)
    ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = 0 ∧ win2_3.index t (1 : Fin 2) = 0
    ∧ win2_4.index t (0 : Fin 1) = 0
    ∧ win2_5.index t (0 : Fin 2) ≤ 7 ∧ win2_5.index t (1 : Fin 2) = 0 :=
  (by decide +kernel : ∀ t : Fin grid2.N, _)

/-- Every row block of the result is some grid point's. -/
theorem idx_onto : ∀ q0 : Fin 8, ∃ t : Fin cfg2.N, win2_5.index t = ![q0.val, 0] :=
  (by decide +kernel : ∀ q0 : Fin 8, ∃ t : Fin grid2.N, win2_5.index t = ![q0.val, 0])

/-- Window 1 stages the whole first weight matrix at every point: its block index is 0 on both axes. -/
theorem blk1_eq (c : Dev nD) (t : Fin cfg2.N) :
    (iblk2 V c 1 t : Vec Ideal S128x128 .f32) = (V c main_arg16 : S128x128.Idx → Elt Ideal .f32) := by
  obtain ⟨e0, e1, e2, e3, e4, e5, e6, e7, e8, e9⟩ := idx_facts t
  funext y
  show V c main_arg16 (((cfg2.win 1).blk t).view.emb y) = V c main_arg16 y
  refine congrArg (V c main_arg16) ?_
  funext a; apply Fin.ext
  match a with
  | ⟨0, _⟩ => show win2_1.index t (0 : Fin 2) * 128 + 1 * (y 0).val = (y 0).val; omega
  | ⟨1, _⟩ => show win2_1.index t (1 : Fin 2) * 128 + 1 * (y 1).val = (y 1).val; omega

/-- Window 2 stages the whole first bias row at every point: its block index is 0. -/
theorem blk2_eq (c : Dev nD) (t : Fin cfg2.N) :
    (iblk2 V c 2 t : Vec Ideal S128 .f32) = (V c main_arg17 : S128.Idx → Elt Ideal .f32) := by
  obtain ⟨e0, e1, e2, e3, e4, e5, e6, e7, e8, e9⟩ := idx_facts t
  funext y
  show V c main_arg17 (((cfg2.win 2).blk t).view.emb y) = V c main_arg17 y
  refine congrArg (V c main_arg17) ?_
  funext a; apply Fin.ext
  match a with
  | ⟨0, _⟩ => show win2_2.index t (0 : Fin 1) * 128 + 1 * (y 0).val = (y 0).val; omega

/-- Window 3 stages the whole second weight matrix at every point: its block index is 0 on both axes. -/
theorem blk3_eq (c : Dev nD) (t : Fin cfg2.N) :
    (iblk2 V c 3 t : Vec Ideal S128x128 .f32) = (V c main_arg18 : S128x128.Idx → Elt Ideal .f32) := by
  obtain ⟨e0, e1, e2, e3, e4, e5, e6, e7, e8, e9⟩ := idx_facts t
  funext y
  show V c main_arg18 (((cfg2.win 3).blk t).view.emb y) = V c main_arg18 y
  refine congrArg (V c main_arg18) ?_
  funext a; apply Fin.ext
  match a with
  | ⟨0, _⟩ => show win2_3.index t (0 : Fin 2) * 128 + 1 * (y 0).val = (y 0).val; omega
  | ⟨1, _⟩ => show win2_3.index t (1 : Fin 2) * 128 + 1 * (y 1).val = (y 1).val; omega

/-- Window 4 stages the whole second bias row at every point: its block index is 0. -/
theorem blk4_eq (c : Dev nD) (t : Fin cfg2.N) :
    (iblk2 V c 4 t : Vec Ideal S128 .f32) = (V c main_arg19 : S128.Idx → Elt Ideal .f32) := by
  obtain ⟨e0, e1, e2, e3, e4, e5, e6, e7, e8, e9⟩ := idx_facts t
  funext y
  show V c main_arg19 (((cfg2.win 4).blk t).view.emb y) = V c main_arg19 y
  refine congrArg (V c main_arg19) ?_
  funext a; apply Fin.ext
  match a with
  | ⟨0, _⟩ => show win2_4.index t (0 : Fin 1) * 128 + 1 * (y 0).val = (y 0).val; omega

/-- Row `p` of the row operand's block at point `t` is row `4096·t + p` of the operand. -/
theorem blk0_apply (c : Dev nD) (t : Fin cfg2.N) (p : Fin 4096) (k : Fin 128) (r : Fin 32768)
    (hr : r.val = win2_5.index t (0 : Fin 2) * 4096 + p.val) :
    (iblk2 V c 0 t : Vec Ideal S4096x128 .f32) (ix2 p k) = (V c main_v39 : S32768x128.Idx → Elt Ideal .f32) (ix2 r k) := by
  obtain ⟨e0, e1, e2, e3, e4, e5, e6, e7, e8, e9⟩ := idx_facts t
  show V c main_v39 (((cfg2.win 0).blk t).view.emb (ix2 p k)) = V c main_v39 (ix2 r k)
  refine congrArg (V c main_v39) ?_
  funext a; apply Fin.ext
  match a with
  | ⟨0, _⟩ => show win2_0.index t (0 : Fin 2) * 4096 + 1 * p.val = r.val; omega
  | ⟨1, _⟩ => show win2_0.index t (1 : Fin 2) * 128 + 1 * k.val = k.val; omega

/-- Entry `(p, q)` of the result's block at point `t` is entry `(4096·t + p, q)` of the result array. -/
theorem blk5_emb (t : Fin cfg2.N) (p : Fin 4096) (q : Fin 128) (r : Fin 32768)
    (hr : r.val = win2_5.index t (0 : Fin 2) * 4096 + p.val) :
    ((cfg2.win 5).blk t).view.emb (ix2 p q : S4096x128.Idx) = (ix2 r q : S32768x128.Idx) := by
  obtain ⟨e0, e1, e2, e3, e4, e5, e6, e7, e8, e9⟩ := idx_facts t
  funext a; apply Fin.ext
  match a with
  | ⟨0, _⟩ => show win2_5.index t (0 : Fin 2) * 4096 + 1 * p.val = r.val; omega
  | ⟨1, _⟩ => show win2_5.index t (1 : Fin 2) * 128 + 1 * q.val = q.val; omega

/-- The two-layer stage of a row depends only on the weights, the biases and the row. -/
theorem mlpRow_congr {n : Nat} {w1 w1' : (⟨2, ![n, 128]⟩ : Shape).Idx → EReal} {b1 b1' : (⟨1, ![128]⟩ : Shape).Idx → EReal}
    {w2 w2' : (⟨2, ![128, 128]⟩ : Shape).Idx → EReal} {b2 b2' : (⟨1, ![128]⟩ : Shape).Idx → EReal} {y y' : Fin n → EReal}
    (h1 : w1 = w1') (h2 : b1 = b1') (h3 : w2 = w2') (h4 : b2 = b2') (hy : y = y') (q : Fin 128) :
    Cert.Spec.mlpRow w1 b1 w2 b2 y q = Cert.Spec.mlpRow w1' b1' w2' b2' y' q := by
  subst h1 h2 h3 h4 hy; rfl

/-- What point `t` writes back is block `t` of the two-layer stage applied to every row of the whole operand: the
    stored block at `(p, q)` is the stage of the staged row `p` (`hpay`), the staged weights and biases are the whole
    arrays, the staged row `p` is row `4096·t + p` of the operand, and `(p, q)` of the block is `(4096·t + p, q)` of
    the result. -/
theorem flushed_eq (hpay : ∀ (x0 : Vec Ideal S4096x128 .f32) (w1 : Vec Ideal S128x128 .f32) (b1 : Vec Ideal S128 .f32) (w2 : Vec Ideal S128x128 .f32) (b2 : Vec Ideal S128 .f32) (p : Fin 4096) (q : Fin 128), k2_pay1 (F := Ideal) x0 w1 b1 w2 b2 (ix2 p q) = Cert.Spec.mlpRow w1 b1 w2 b2 (fun k => x0 (ix2 p k)) q)
    (c : Dev nD) (t : Fin cfg2.N) :
    (dat2 (F := Ideal) V c).flushed 5 t = ((cfg2.win 5).blk t).view.read (Elt Ideal)
      (Cert.Spec.mlp (V c main_arg16) (V c main_arg17) (V c main_arg18) (V c main_arg19) (V c main_v39)) := by
  show (cfg2.win 5).cut (grid2.coords t) ((dat2 V c).after 5 t) = _
  rw [after2_5]
  unfold out2_5
  rw [View.canon_unit_zero zero_off2]
  simp only [View.ld_unit_zero (S := S4096x128) zero_off2, View.ld_unit_zero (S := S128x128) zero_off2, View.ld_unit_zero (S := S128) zero_off1]
  refine funext fun (j : S4096x128.Idx) => ?_
  obtain ⟨p, q, rfl⟩ : ∃ (p : Fin 4096) (q : Fin 128), j = ix2 p q := ⟨j 0, j 1, eq_ix2 j⟩
  have hb : win2_5.index t (0 : Fin 2) ≤ 7 := (idx_facts t).2.2.2.2.2.2.2.2.1
  have hr : (⟨win2_5.index t (0 : Fin 2) * 4096 + p.val, by have := p.isLt; omega⟩ : Fin 32768).val = win2_5.index t (0 : Fin 2) * 4096 + p.val := rfl
  show k2_pay1 (F := Ideal) (iblk2 V c 0 t) (iblk2 V c 1 t) (iblk2 V c 2 t) (iblk2 V c 3 t) (iblk2 V c 4 t) (ix2 p q)
    = Cert.Spec.mlp (V c main_arg16) (V c main_arg17) (V c main_arg18) (V c main_arg19) (V c main_v39) (((cfg2.win 5).blk t).view.emb (ix2 p q : S4096x128.Idx))
  refine (hpay _ _ _ _ _ p q).trans ?_
  refine (mlpRow_congr (blk1_eq V c t) (blk2_eq V c t) (blk3_eq V c t) (blk4_eq V c t)
    (funext fun k => blk0_apply V c t p k _ hr) q).trans ?_
  exact (congrArg (Cert.Spec.mlp (V c main_arg16) (V c main_arg17) (V c main_arg18) (V c main_arg19) (V c main_v39))
    (blk5_emb t p q _ hr)).symm

/-- An index of the result array is in point `t`'s block iff each coordinate is in the block's range on its axis. -/
theorem mem_blk (t : Fin cfg2.N) (i : S32768x128.Idx) :
    i ∈ ((cfg2.win 5).blk t).view.set ↔ ∀ a : Fin 2, win2_5.index t a * S4096x128.size a ≤ (i a).val ∧ (i a).val < win2_5.index t a * S4096x128.size a + S4096x128.size a := by
  show i ∈ ((View.whole main_v40).slice (win2_5.rect t)).set ↔ _
  rw [View.set_slice_whole, Rect.mem_set_unit]
  exact Iff.rfl

/-- Row `r` of the result array lies in the block of the point whose row-block number is `r / 4096`; every column lies
    in every block. -/
theorem cover (i : S32768x128.Idx) :
    ∃ t : Fin cfg2.N, (cfg2.win 5).flush t = true ∧ i ∈ ((cfg2.win 5).blk t).view.set := by
  have hi0 : (i 0).val < 32768 := (i 0).isLt
  have hi1 : (i 1).val < 128 := (i 1).isLt
  obtain ⟨t, ht⟩ := idx_onto ⟨(i 0).val / 4096, by omega⟩
  have q0 : win2_5.index t (0 : Fin 2) = (i 0).val / 4096 := congrFun ht 0
  have q1 : win2_5.index t (1 : Fin 2) = 0 := congrFun ht 1
  refine ⟨t, flush2_5 t, ?_⟩
  rw [mem_blk]
  intro a
  match a with
  | ⟨0, _⟩ => show win2_5.index t (0 : Fin 2) * 4096 ≤ (i 0).val ∧ (i 0).val < win2_5.index t (0 : Fin 2) * 4096 + 4096; omega
  | ⟨1, _⟩ => show win2_5.index t (1 : Fin 2) * 128 ≤ (i 1).val ∧ (i 1).val < win2_5.index t (1 : Fin 2) * 128 + 128; omega

/-- The result array after the region is the two-layer stage applied to every row of the operand the region found,
    with the weights and biases the region found. -/
theorem final2_of (hpay : ∀ (x0 : Vec Ideal S4096x128 .f32) (w1 : Vec Ideal S128x128 .f32) (b1 : Vec Ideal S128 .f32) (w2 : Vec Ideal S128x128 .f32) (b2 : Vec Ideal S128 .f32) (p : Fin 4096) (q : Fin 128), k2_pay1 (F := Ideal) x0 w1 b1 w2 b2 (ix2 p q) = Cert.Spec.mlpRow w1 b1 w2 b2 (fun k => x0 (ix2 p k)) q) (c : Dev nD) :
    (dat2 (F := Ideal) V c).arrAt 5 cfg2.N = Cert.Spec.mlp (V c main_arg16) (V c main_arg17) (V c main_arg18) (V c main_arg19) (V c main_v39) :=
  (dat2 (F := Ideal) V c).arrAt_eq_of_cover 5 _ (fun t _ => flushed_eq V hpay c t) cover

end Cert.KernelIdeal.Final2

end
-- ==== Proof.Closed.lean ====
/-
  The idealized kernel's result as one formula of the argument arrays.

  Walking @main's six segments: the node stage's region leaves `mlp` of the node features; the second host stretch
  gathers, per edge, that result's source row and the six coordinates; the edge and message region leaves `edgeMsg` of
  them; the third host stretch takes the mean of the messages per target cell; and the update stage's region leaves
  `mlp` of the means.  Each region's value is the blocks-to-array theorem of that region at the body's row formula;
  each host stretch's value is read off the fold; the weight and bias arrays reach every region as launched.
-/
import proofs.«149918_j8864812499080_1_alg».proof.Proof.Glue
import proofs.«149918_j8864812499080_1_alg».proof.Proof.GlueArgs
import proofs.«149918_j8864812499080_1_alg».proof.Proof.Body
import proofs.«149918_j8864812499080_1_alg».proof.Proof.Final0
import proofs.«149918_j8864812499080_1_alg».proof.Proof.Final1
import proofs.«149918_j8864812499080_1_alg».proof.Proof.Final2

set_option maxRecDepth 16384

noncomputable section

namespace Cert.KernelIdeal.Closed

open Idealize.ShloMosaic Idealize.ShloMosaic.TcCoe Idealize.SL.Sem
open Cert.KernelIdeal Cert.KernelIdeal.Gen Cert.KernelIdeal.Glue Cert.KernelIdeal.GlueArgs

/-- The whole layer on extended reals: node stage, gathers, edge and message stage, mean over target cells, update
    stage. -/
def layer (x0 : (⟨S65536x128, .f32⟩ : BufTy).Contents (Elt Ideal)) (x1 : (⟨S65536x3, .f32⟩ : BufTy).Contents (Elt Ideal))
    (x2 : (⟨S32768x3, .f32⟩ : BufTy).Contents (Elt Ideal)) (x3 : (⟨S2x600000, .i32⟩ : BufTy).Contents (Elt Ideal))
    (x4 : (⟨S128x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal))
    (x8 : (⟨S6x128, .f32⟩ : BufTy).Contents (Elt Ideal)) (x9 : (⟨S128, .f32⟩ : BufTy).Contents (Elt Ideal))
    (x10 : (⟨S128x128, .f32⟩ : BufTy).Contents (Elt Ideal)) (x11 : (⟨S128, .f32⟩ : BufTy).Contents (Elt Ideal))
    (x12 : (⟨S256x128, .f32⟩ : BufTy).Contents (Elt Ideal)) (x13 : (⟨S128, .f32⟩ : BufTy).Contents (Elt Ideal))
    (x14 : (⟨S128x128, .f32⟩ : BufTy).Contents (Elt Ideal)) (x15 : (⟨S128, .f32⟩ : BufTy).Contents (Elt Ideal))
    (x16 : (⟨S128x128, .f32⟩ : BufTy).Contents (Elt Ideal)) (x17 : (⟨S128, .f32⟩ : BufTy).Contents (Elt Ideal))
    (x18 : (⟨S128x128, .f32⟩ : BufTy).Contents (Elt Ideal)) (x19 : (⟨S128, .f32⟩ : BufTy).Contents (Elt Ideal)) :
    (⟨S32768x128, .f32⟩ : BufTy).Contents (Elt Ideal) :=
  Cert.Spec.mlp x16 x17 x18 x19
    (meanAgg (F := Ideal)
      (Cert.Spec.edgeMsg x8 x9 x10 x11 x12 x13 x14 x15 (edgeAttr (F := Ideal) x1 x2 x3)
        (gatherNodes (F := Ideal) (ε := .f32) (Cert.Spec.mlp x4 x5 x6 x7 x0) x3)) x3)

variable (m : (ℓ : Loc nD τ sig) → Buf (Elt Ideal) ℓ) (ρ : Dev nD → PrngReg)

/-- The node stage's region leaves the stage applied to every row of the node features. -/
theorem node_array (c : Dev nD) :
    W2 m ρ c (Proc.devRef .tc main_v4)
      = Cert.Spec.mlp (m ((c : Thread nD τ).loc main_arg4)) (m ((c : Thread nD τ).loc main_arg5)) (m ((c : Thread nD τ).loc main_arg6)) (m ((c : Thread nD τ).loc main_arg7)) (m ((c : Thread nD τ).loc main_arg0)) := by
  refine (W2_arr m ρ c 5).trans ?_
  rw [Cert.KernelIdeal.Final0.final0_of (V1 m ρ) Cert.KernelIdeal.Body.k0_pay1_apply c,
    V1_arg4 m ρ c, V1_arg5 m ρ c, V1_arg6 m ρ c, V1_arg7 m ρ c, V1_arg0 m ρ c]

/-- The edge and message region leaves the message stage applied to every edge. -/
theorem message_array (c : Dev nD) :
    W4 m ρ c (Proc.devRef .tc main_v27)
      = Cert.Spec.edgeMsg (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))
          (edgeAttr (F := Ideal) (m ((c : Thread nD τ).loc main_arg1)) (m ((c : Thread nD τ).loc main_arg2)) (m ((c : Thread nD τ).loc main_arg3)))
          (gatherNodes (F := Ideal) (ε := .f32) (Cert.Spec.mlp (m ((c : Thread nD τ).loc main_arg4)) (m ((c : Thread nD τ).loc main_arg5)) (m ((c : Thread nD τ).loc main_arg6)) (m ((c : Thread nD τ).loc main_arg7)) (m ((c : Thread nD τ).loc main_arg0))) (m ((c : Thread nD τ).loc main_arg3))) := by
  have hs : W2 m ρ c (Proc.devRef .tc main_v1) = edgeSrc (F := Ideal) (m ((c : Thread nD τ).loc main_arg3)) := (W2_v1 m ρ c).trans (W1_v1 m ρ c)
  have ht : W2 m ρ c (Proc.devRef .tc main_v3) = edgeTgt (F := Ideal) (m ((c : Thread nD τ).loc main_arg3)) := (W2_v3 m ρ c).trans (W1_v3 m ρ c)
  have h19 : V3 m ρ c main_v19 = edgeAttr (F := Ideal) (m ((c : Thread nD τ).loc main_arg1)) (m ((c : Thread nD τ).loc main_arg2)) (m ((c : Thread nD τ).loc main_arg3)) :=
    W3_v19 m ρ c (W2_arg1 m ρ c) (W2_arg2 m ρ c) hs ht
  have h26 : V3 m ρ c main_v26
      = gatherNodes (F := Ideal) (ε := .bf16) (Cert.Spec.mlp (m ((c : Thread nD τ).loc main_arg4)) (m ((c : Thread nD τ).loc main_arg5)) (m ((c : Thread nD τ).loc main_arg6)) (m ((c : Thread nD τ).loc main_arg7)) (m ((c : Thread nD τ).loc main_arg0))) (m ((c : Thread nD τ).loc main_arg3)) :=
    W3_v26 m ρ c (node_array m ρ c) hs
  refine (W4_arr m ρ c 10).trans ?_
  rw [Cert.KernelIdeal.Final1.final1_of (V3 m ρ) Cert.KernelIdeal.Body.k1_pay_apply c,
    V3_arg8 m ρ c, V3_arg9 m ρ c, V3_arg10 m ρ c, V3_arg11 m ρ c, V3_arg12 m ρ c, V3_arg13 m ρ c, V3_arg14 m ρ c, V3_arg15 m ρ c,
    h19, h26]
  rfl

/-- After the run the result array holds the layer of the argument arrays. -/
theorem result_array (c : Dev nD) :
    W6 m ρ c (Proc.devRef .tc main_v40)
      = layer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) := by
  have h39 : V5 m ρ c main_v39 = meanAgg (F := Ideal) _ (m ((c : Thread nD τ).loc main_arg3)) :=
    W5_v39 m ρ c (message_array m ρ c) ((W4_v3 m ρ c).trans (W1_v3 m ρ c))
  refine (W6_arr m ρ c 5).trans ?_
  rw [Cert.KernelIdeal.Final2.final2_of (V5 m ρ) Cert.KernelIdeal.Body.k2_pay1_apply c,
    V5_arg16 m ρ c, V5_arg17 m ρ c, V5_arg18 m ρ c, V5_arg19 m ρ c, h39]
  rfl

end Cert.KernelIdeal.Closed

end
-- ==== Proof.RefRows.lean ====
/-
  The reference's four dense stages, each identified with the specification's row function of its input array.

  A stage is: matrix product with the first weight plus a row-broadcast bias; each entry times one over one plus the
  exponential of its negation; matrix product with the second weight plus a row-broadcast bias.  Read at row `p`,
  column `q`, this is the two-layer row function applied to row `p` of the stage's input.
-/
import proofs.«149918_j8864812499080_1_alg».proof.Proof.Gen.ReferenceIdeal.Read
import proofs.«149918_j8864812499080_1_alg».proof.Proof.Spec
import Idealize.ShloMosaic.Lib.IdealHost

set_option maxRecDepth 16384

noncomputable section

open scoped BigOperators

namespace Cert.ReferenceIdeal.RefRows

open Cert.ReferenceIdeal Cert.ReferenceIdeal.Gen Idealize.ShloMosaic Idealize.ShloMosaic.TcCoe Idealize.SL.Sem
  Idealize.ShloMosaic.StableHlo Idealize.ShloMosaic.ValueIdx

/-! ### The node stage: 65536 rows of length 128 -/

section node
variable (x0 : (⟨S65536x128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal))

/-- The first affine map at row `p`, hidden column `j`. -/
theorem node_hidden (p : Fin 65536) (j : Fin 128) :
    Read.val_main_v7 (F := Ideal) x0 x4 x5 (ix2 p j) = Cert.Spec.dense x4 x5 (fun k => x0 (ix2 p k)) j := by
  have e1 : ∀ k : Fin 128, Read.lidx_main_v4 (ix2 p j) k = ix2 p k := fun k =>
    funext fun a => Fin.ext (by match a with | ⟨0, _⟩ => rfl | ⟨1, _⟩ => rfl)
  have e2 : ∀ k : Fin 128, Read.ridx_main_v4 (ix2 p j) k = ix2 k j := fun k =>
    funext fun a => Fin.ext (by match a with | ⟨0, _⟩ => rfl | ⟨1, _⟩ => rfl)
  have e3 : Read.idx_main_v5 (Read.idx_main_v6 (ix2 p j)) = ix1 j :=
    funext fun a => Fin.ext (by match a with | ⟨0, _⟩ => rfl)
  rw [Read.val_main_v7_apply, Read.val_main_v4_apply, Read.val_main_v6_apply, Read.val_main_v5_apply, e3]
  simp only [e1, e2, Ideal.addf_def]
  rfl

/-- The hidden entry times its logistic value at row `p`, hidden column `j`. -/
theorem node_act (p : Fin 65536) (j : Fin 128) :
    Read.val_main_v8 (F := Ideal) x0 x4 x5 (ix2 p j)
      = Cert.Spec.silu (Cert.Spec.dense x4 x5 (fun k => x0 (ix2 p k)) j) := by
  rw [Read.val_main_v8_apply, Read.val_main_call0_v5_apply, Read.val_main_call0_v4_apply, Read.val_main_call0_cst_0_apply,
    Read.val_main_call0_v3_apply, Read.val_main_call0_v2_apply, Read.val_main_call0_cst_apply, Read.val_main_call0_v1_apply,
    Read.val_main_call0_v0_apply, node_hidden]
  simp only [Ideal.mulf_def, Ideal.hostDivf_def, Ideal.addf_def, Ideal.hostUnary_exp_def, Ideal.hostNegf_def, Ideal.negf_def,
    Ideal.ofBits_def, Ideal.ofBits_one_f32]
  rfl

/-- The node stage is the two-layer row function of each input row. -/
theorem node_stage : Read.val_main_v12 (F := Ideal) x0 x4 x5 x6 x7 = Cert.Spec.mlp x4 x5 x6 x7 x0 := by
  funext i
  obtain ⟨p, q, rfl⟩ : ∃ (p : Fin 65536) (q : Fin 128), i = ix2 p q := ⟨i 0, i 1, eq_ix2 i⟩
  have e1 : ∀ k : Fin 128, Read.lidx_main_v9 (ix2 p q) k = ix2 p k := fun k =>
    funext fun a => Fin.ext (by match a with | ⟨0, _⟩ => rfl | ⟨1, _⟩ => rfl)
  have e2 : ∀ k : Fin 128, Read.ridx_main_v9 (ix2 p q) k = ix2 k q := fun k =>
    funext fun a => Fin.ext (by match a with | ⟨0, _⟩ => rfl | ⟨1, _⟩ => rfl)
  have e3 : Read.idx_main_v10 (Read.idx_main_v11 (ix2 p q)) = ix1 q :=
    funext fun a => Fin.ext (by match a with | ⟨0, _⟩ => rfl)
  rw [Read.val_main_v12_apply, Read.val_main_v9_apply, Read.val_main_v11_apply, Read.val_main_v10_apply, e3]
  simp only [e1, e2, node_act, Ideal.addf_def]
  rfl

end node

/-! ### The update stage: 32768 rows of length 128 -/

section update
variable (x0 : (⟨S65536x128, .f32⟩ : BufTy).Contents (Elt Ideal)) (x1 : (⟨S65536x3, .f32⟩ : BufTy).Contents (Elt Ideal)) (x2 : (⟨S32768x3, .f32⟩ : BufTy).Contents (Elt Ideal)) (x3 : (⟨S2x600000, .i32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S6x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) (x12 : (⟨S256x128, .f32⟩ : BufTy).Contents (Elt Ideal)) (x13 : (⟨S128, .f32⟩ : BufTy).Contents (Elt Ideal)) (x14 : (⟨S128x128, .f32⟩ : BufTy).Contents (Elt Ideal)) (x15 : (⟨S128, .f32⟩ : BufTy).Contents (Elt Ideal)) (x16 : (⟨S128x128, .f32⟩ : BufTy).Contents (Elt Ideal)) (x17 : (⟨S128, .f32⟩ : BufTy).Contents (Elt Ideal)) (x18 : (⟨S128x128, .f32⟩ : BufTy).Contents (Elt Ideal)) (x19 : (⟨S128, .f32⟩ : BufTy).Contents (Elt Ideal))

/-- The first affine map at row `p`, hidden column `j`. -/
theorem update_hidden (p : Fin 32768) (j : Fin 128) :
    Read.val_main_v69 (F := Ideal) x0 x1 x2 x3 x4 x5 x6 x7 x8 x9 x10 x11 x12 x13 x14 x15 x16 x17 (ix2 p j) = Cert.Spec.dense x16 x17 (fun k => Read.val_main_v65 (F := Ideal) x0 x1 x2 x3 x4 x5 x6 x7 x8 x9 x10 x11 x12 x13 x14 x15 (ix2 p k)) j := by
  have e1 : ∀ k : Fin 128, Read.lidx_main_v66 (ix2 p j) k = ix2 p k := fun k =>
    funext fun a => Fin.ext (by match a with | ⟨0, _⟩ => rfl | ⟨1, _⟩ => rfl)
  have e2 : ∀ k : Fin 128, Read.ridx_main_v66 (ix2 p j) k = ix2 k j := fun k =>
    funext fun a => Fin.ext (by match a with | ⟨0, _⟩ => rfl | ⟨1, _⟩ => rfl)
  have e3 : Read.idx_main_v67 (Read.idx_main_v68 (ix2 p j)) = ix1 j :=
    funext fun a => Fin.ext (by match a with | ⟨0, _⟩ => rfl)
  rw [Read.val_main_v69_apply, Read.val_main_v66_apply, Read.val_main_v68_apply, Read.val_main_v67_apply, e3]
  simp only [e1, e2, Ideal.addf_def]
  rfl

/-- The hidden entry times its logistic value at row `p`, hidden column `j`. -/
theorem update_act (p : Fin 32768) (j : Fin 128) :
    Read.val_main_v70 (F := Ideal) x0 x1 x2 x3 x4 x5 x6 x7 x8 x9 x10 x11 x12 x13 x14 x15 x16 x17 (ix2 p j)
      = Cert.Spec.silu (Cert.Spec.dense x16 x17 (fun k => Read.val_main_v65 (F := Ideal) x0 x1 x2 x3 x4 x5 x6 x7 x8 x9 x10 x11 x12 x13 x14 x15 (ix2 p k)) j) := by
  rw [Read.val_main_v70_apply, Read.val_main_call3_v5_apply, Read.val_main_call3_v4_apply, Read.val_main_call3_cst_0_apply,
    Read.val_main_call3_v3_apply, Read.val_main_call3_v2_apply, Read.val_main_call3_cst_apply, Read.val_main_call3_v1_apply,
    Read.val_main_call3_v0_apply, update_hidden]
  simp only [Ideal.mulf_def, Ideal.hostDivf_def, Ideal.addf_def, Ideal.hostUnary_exp_def, Ideal.hostNegf_def, Ideal.negf_def,
    Ideal.ofBits_def, Ideal.ofBits_one_f32]
  rfl

/-- The update stage is the two-layer row function of each row of the averaged messages. -/
theorem update_stage : Read.val_main_v74 (F := Ideal) x0 x1 x2 x3 x4 x5 x6 x7 x8 x9 x10 x11 x12 x13 x14 x15 x16 x17 x18 x19 = Cert.Spec.mlp x16 x17 x18 x19 (Read.val_main_v65 (F := Ideal) x0 x1 x2 x3 x4 x5 x6 x7 x8 x9 x10 x11 x12 x13 x14 x15) := by
  funext i
  obtain ⟨p, q, rfl⟩ : ∃ (p : Fin 32768) (q : Fin 128), i = ix2 p q := ⟨i 0, i 1, eq_ix2 i⟩
  have e1 : ∀ k : Fin 128, Read.lidx_main_v71 (ix2 p q) k = ix2 p k := fun k =>
    funext fun a => Fin.ext (by match a with | ⟨0, _⟩ => rfl | ⟨1, _⟩ => rfl)
  have e2 : ∀ k : Fin 128, Read.ridx_main_v71 (ix2 p q) k = ix2 k q := fun k =>
    funext fun a => Fin.ext (by match a with | ⟨0, _⟩ => rfl | ⟨1, _⟩ => rfl)
  have e3 : Read.idx_main_v72 (Read.idx_main_v73 (ix2 p q)) = ix1 q :=
    funext fun a => Fin.ext (by match a with | ⟨0, _⟩ => rfl)
  rw [Read.val_main_v74_apply, Read.val_main_v71_apply, Read.val_main_v73_apply, Read.val_main_v72_apply, e3]
  simp only [e1, e2, update_act, Ideal.addf_def]
  rfl

end update

/-! ### The edge stage: 600000 rows of length 6 -/

section edge
variable (x1 : (⟨S65536x3, .f32⟩ : BufTy).Contents (Elt Ideal)) (x2 : (⟨S32768x3, .f32⟩ : BufTy).Contents (Elt Ideal)) (x3 : (⟨S2x600000, .i32⟩ : BufTy).Contents (Elt Ideal)) (x8 : (⟨S6x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal))

/-- The first affine map at row `p`, hidden column `j`. -/
theorem edge_hidden (p : Fin 600000) (j : Fin 128) :
    Read.val_main_v31 (F := Ideal) x1 x2 x3 x8 x9 (ix2 p j) = Cert.Spec.dense x8 x9 (fun k => Read.val_main_v27 (F := Ideal) x1 x2 x3 (ix2 p k)) j := by
  have e1 : ∀ k : Fin 6, Read.lidx_main_v28 (ix2 p j) k = ix2 p k := fun k =>
    funext fun a => Fin.ext (by match a with | ⟨0, _⟩ => rfl | ⟨1, _⟩ => rfl)
  have e2 : ∀ k : Fin 6, Read.ridx_main_v28 (ix2 p j) k = ix2 k j := fun k =>
    funext fun a => Fin.ext (by match a with | ⟨0, _⟩ => rfl | ⟨1, _⟩ => rfl)
  have e3 : Read.idx_main_v29 (Read.idx_main_v30 (ix2 p j)) = ix1 j :=
    funext fun a => Fin.ext (by match a with | ⟨0, _⟩ => rfl)
  rw [Read.val_main_v31_apply, Read.val_main_v28_apply, Read.val_main_v30_apply, Read.val_main_v29_apply, e3]
  simp only [e1, e2, Ideal.addf_def]
  rfl

/-- The hidden entry times its logistic value at row `p`, hidden column `j`. -/
theorem edge_act (p : Fin 600000) (j : Fin 128) :
    Read.val_main_v32 (F := Ideal) x1 x2 x3 x8 x9 (ix2 p j)
      = Cert.Spec.silu (Cert.Spec.dense x8 x9 (fun k => Read.val_main_v27 (F := Ideal) x1 x2 x3 (ix2 p k)) j) := by
  rw [Read.val_main_v32_apply, Read.val_main_call1_v5_apply, Read.val_main_call1_v4_apply, Read.val_main_call1_cst_0_apply,
    Read.val_main_call1_v3_apply, Read.val_main_call1_v2_apply, Read.val_main_call1_cst_apply, Read.val_main_call1_v1_apply,
    Read.val_main_call1_v0_apply, edge_hidden]
  simp only [Ideal.mulf_def, Ideal.hostDivf_def, Ideal.addf_def, Ideal.hostUnary_exp_def, Ideal.hostNegf_def, Ideal.negf_def,
    Ideal.ofBits_def, Ideal.ofBits_one_f32]
  rfl

/-- The edge stage is the two-layer row function of each row of the joined edge coordinates. -/
theorem edge_stage : Read.val_main_v36 (F := Ideal) x1 x2 x3 x8 x9 x10 x11 = Cert.Spec.mlp x8 x9 x10 x11 (Read.val_main_v27 (F := Ideal) x1 x2 x3) := by
  funext i
  obtain ⟨p, q, rfl⟩ : ∃ (p : Fin 600000) (q : Fin 128), i = ix2 p q := ⟨i 0, i 1, eq_ix2 i⟩
  have e1 : ∀ k : Fin 128, Read.lidx_main_v33 (ix2 p q) k = ix2 p k := fun k =>
    funext fun a => Fin.ext (by match a with | ⟨0, _⟩ => rfl | ⟨1, _⟩ => rfl)
  have e2 : ∀ k : Fin 128, Read.ridx_main_v33 (ix2 p q) k = ix2 k q := fun k =>
    funext fun a => Fin.ext (by match a with | ⟨0, _⟩ => rfl | ⟨1, _⟩ => rfl)
  have e3 : Read.idx_main_v34 (Read.idx_main_v35 (ix2 p q)) = ix1 q :=
    funext fun a => Fin.ext (by match a with | ⟨0, _⟩ => rfl)
  rw [Read.val_main_v36_apply, Read.val_main_v33_apply, Read.val_main_v35_apply, Read.val_main_v34_apply, e3]
  simp only [e1, e2, edge_act, Ideal.addf_def]
  rfl

end edge

/-! ### The message stage: 600000 rows of length 256 -/

section message
variable (x0 : (⟨S65536x128, .f32⟩ : BufTy).Contents (Elt Ideal)) (x1 : (⟨S65536x3, .f32⟩ : BufTy).Contents (Elt Ideal)) (x2 : (⟨S32768x3, .f32⟩ : BufTy).Contents (Elt Ideal)) (x3 : (⟨S2x600000, .i32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S6x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) (x12 : (⟨S256x128, .f32⟩ : BufTy).Contents (Elt Ideal)) (x13 : (⟨S128, .f32⟩ : BufTy).Contents (Elt Ideal)) (x14 : (⟨S128x128, .f32⟩ : BufTy).Contents (Elt Ideal)) (x15 : (⟨S128, .f32⟩ : BufTy).Contents (Elt Ideal))

/-- The first affine map at row `p`, hidden column `j`. -/
theorem message_hidden (p : Fin 600000) (j : Fin 128) :
    Read.val_main_v48 (F := Ideal) x0 x1 x2 x3 x4 x5 x6 x7 x8 x9 x10 x11 x12 x13 (ix2 p j) = Cert.Spec.dense x12 x13 (fun k => Read.val_main_v44 (F := Ideal) x0 x1 x2 x3 x4 x5 x6 x7 x8 x9 x10 x11 (ix2 p k)) j := by
  have e1 : ∀ k : Fin 256, Read.lidx_main_v45 (ix2 p j) k = ix2 p k := fun k =>
    funext fun a => Fin.ext (by match a with | ⟨0, _⟩ => rfl | ⟨1, _⟩ => rfl)
  have e2 : ∀ k : Fin 256, Read.ridx_main_v45 (ix2 p j) k = ix2 k j := fun k =>
    funext fun a => Fin.ext (by match a with | ⟨0, _⟩ => rfl | ⟨1, _⟩ => rfl)
  have e3 : Read.idx_main_v46 (Read.idx_main_v47 (ix2 p j)) = ix1 j :=
    funext fun a => Fin.ext (by match a with | ⟨0, _⟩ => rfl)
  rw [Read.val_main_v48_apply, Read.val_main_v45_apply, Read.val_main_v47_apply, Read.val_main_v46_apply, e3]
  simp only [e1, e2, Ideal.addf_def]
  rfl

/-- The hidden entry times its logistic value at row `p`, hidden column `j`. -/
theorem message_act (p : Fin 600000) (j : Fin 128) :
    Read.val_main_v49 (F := Ideal) x0 x1 x2 x3 x4 x5 x6 x7 x8 x9 x10 x11 x12 x13 (ix2 p j)
      = Cert.Spec.silu (Cert.Spec.dense x12 x13 (fun k => Read.val_main_v44 (F := Ideal) x0 x1 x2 x3 x4 x5 x6 x7 x8 x9 x10 x11 (ix2 p k)) j) := by
  rw [Read.val_main_v49_apply, Read.val_main_call2_v5_apply, Read.val_main_call2_v4_apply, Read.val_main_call2_cst_0_apply,
    Read.val_main_call2_v3_apply, Read.val_main_call2_v2_apply, Read.val_main_call2_cst_apply, Read.val_main_call2_v1_apply,
    Read.val_main_call2_v0_apply, message_hidden]
  simp only [Ideal.mulf_def, Ideal.hostDivf_def, Ideal.addf_def, Ideal.hostUnary_exp_def, Ideal.hostNegf_def, Ideal.negf_def,
    Ideal.ofBits_def, Ideal.ofBits_one_f32]
  rfl

/-- The message stage is the two-layer row function of each joined row. -/
theorem message_stage : Read.val_main_v53 (F := Ideal) x0 x1 x2 x3 x4 x5 x6 x7 x8 x9 x10 x11 x12 x13 x14 x15 = Cert.Spec.mlp x12 x13 x14 x15 (Read.val_main_v44 (F := Ideal) x0 x1 x2 x3 x4 x5 x6 x7 x8 x9 x10 x11) := by
  funext i
  obtain ⟨p, q, rfl⟩ : ∃ (p : Fin 600000) (q : Fin 128), i = ix2 p q := ⟨i 0, i 1, eq_ix2 i⟩
  have e1 : ∀ k : Fin 128, Read.lidx_main_v50 (ix2 p q) k = ix2 p k := fun k =>
    funext fun a => Fin.ext (by match a with | ⟨0, _⟩ => rfl | ⟨1, _⟩ => rfl)
  have e2 : ∀ k : Fin 128, Read.ridx_main_v50 (ix2 p q) k = ix2 k q := fun k =>
    funext fun a => Fin.ext (by match a with | ⟨0, _⟩ => rfl | ⟨1, _⟩ => rfl)
  have e3 : Read.idx_main_v51 (Read.idx_main_v52 (ix2 p q)) = ix1 q :=
    funext fun a => Fin.ext (by match a with | ⟨0, _⟩ => rfl)
  rw [Read.val_main_v53_apply, Read.val_main_v50_apply, Read.val_main_v52_apply, Read.val_main_v51_apply, e3]
  simp only [e1, e2, message_act, Ideal.addf_def]
  rfl

end message

/-! ### The joined row: a gathered node row followed by the edge stage's row -/

section joined
variable (x0 : (⟨S65536x128, .f32⟩ : BufTy).Contents (Elt Ideal)) (x1 : (⟨S65536x3, .f32⟩ : BufTy).Contents (Elt Ideal)) (x2 : (⟨S32768x3, .f32⟩ : BufTy).Contents (Elt Ideal)) (x3 : (⟨S2x600000, .i32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S6x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal))

/-- Entry `k` of row `e` of the joined array: below 128 it is the gathered node row's entry `k`, from 128 on it is
    the edge stage's entry `k - 128`. -/
theorem joined_row (e : Fin 600000) (k : Fin 256) :
    Read.val_main_v44 (F := Ideal) x0 x1 x2 x3 x4 x5 x6 x7 x8 x9 x10 x11 (ix2 e k)
      = Cert.Spec.joinRow (fun k' => Read.val_main_v43 (F := Ideal) x0 x3 x4 x5 x6 x7 (ix2 e k'))
          (fun k' => Read.val_main_v36 (F := Ideal) x1 x2 x3 x8 x9 x10 x11 (ix2 e k')) k := by
  unfold Read.val_main_v44 Cert.Spec.joinRow
  generalize Read.val_main_v43 (F := Ideal) x0 x3 x4 x5 x6 x7 = u
  generalize Read.val_main_v36 (F := Ideal) x1 x2 x3 x8 x9 x10 x11 = v
  by_cases h : k.val < 128
  · rw [dif_pos h]
    exact concatenate_pair_apply_left 1 u v concatenates_S600000x128_S600000x128_S600000x256_d1 (ix2 e k) rfl
      (ix2 e ⟨k.val, h⟩) (fun b => by match b with | ⟨0, _⟩ => rfl | ⟨1, _⟩ => rfl)
  · rw [dif_neg h]
    exact concatenate_pair_apply_right 1 u v concatenates_S600000x128_S600000x128_S600000x256_d1 (ix2 e k) rfl rfl
      (ix2 e ⟨k.val - 128, by omega⟩)
      (fun b hb => by
        match b, hb with
        | ⟨0, _⟩, _ => rfl
        | ⟨1, _⟩, hb => exact absurd rfl hb)
      (by show (k.val - 128) + 128 = k.val; omega)

end joined

section message'
variable (x0 : (⟨S65536x128, .f32⟩ : BufTy).Contents (Elt Ideal)) (x1 : (⟨S65536x3, .f32⟩ : BufTy).Contents (Elt Ideal)) (x2 : (⟨S32768x3, .f32⟩ : BufTy).Contents (Elt Ideal)) (x3 : (⟨S2x600000, .i32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S6x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) (x12 : (⟨S256x128, .f32⟩ : BufTy).Contents (Elt Ideal)) (x13 : (⟨S128, .f32⟩ : BufTy).Contents (Elt Ideal)) (x14 : (⟨S128x128, .f32⟩ : BufTy).Contents (Elt Ideal)) (x15 : (⟨S128, .f32⟩ : BufTy).Contents (Elt Ideal))

/-- The message stage in terms of the edge coordinates and the gathered node rows: on every edge, the edge stage's row is
    joined after the gathered row and the joined row goes through the message stage. -/
theorem message_stage' : Read.val_main_v53 (F := Ideal) x0 x1 x2 x3 x4 x5 x6 x7 x8 x9 x10 x11 x12 x13 x14 x15
    = Cert.Spec.edgeMsg x8 x9 x10 x11 x12 x13 x14 x15 (Read.val_main_v27 (F := Ideal) x1 x2 x3)
        (Read.val_main_v43 (F := Ideal) x0 x3 x4 x5 x6 x7) := by
  funext i
  obtain ⟨p, q, rfl⟩ : ∃ (p : Fin 600000) (q : Fin 128), i = ix2 p q := ⟨i 0, i 1, eq_ix2 i⟩
  rw [message_stage, Cert.Spec.mlp_apply, Cert.Spec.edgeMsg_apply]
  refine congrArg (fun r => Cert.Spec.mlpRow x12 x13 x14 x15 r q) (funext fun k => ?_)
  rw [joined_row, edge_stage]
  rfl

end message'

end Cert.ReferenceIdeal.RefRows

end
-- ==== Proof.RefClosed.lean ====
/-
  The reference's result as one closed formula.

  Between its dense stages the reference wraps negative edge indices, gathers node and cell rows, joins two gathered
  coordinate triples, sums messages into their target cells and divides by the cells' edge counts.  These are the same
  whole-array functions the kernel side names; here each stretch of the reference is identified with the named function
  of its inputs, and the four dense stages with the specification's row functions.
-/
import proofs.«149918_j8864812499080_1_alg».proof.Proof.RefRows
import proofs.«149918_j8864812499080_1_alg».proof.Proof.GlueDefs

set_option maxRecDepth 16384

noncomputable section

namespace Cert.ReferenceIdeal.RefClosed

open Cert.ReferenceIdeal Cert.ReferenceIdeal.Gen Idealize.ShloMosaic Idealize.ShloMosaic.TcCoe Idealize.SL.Sem
  Idealize.ShloMosaic.StableHlo Idealize.ShloMosaic.ValueIdx

/-- The six edge attributes: the reference's joined gathers are the named function of the coordinates and the edge index. -/
theorem attr_eq (x1 : (⟨S65536x3, .f32⟩ : BufTy).Contents (Elt Ideal)) (x2 : (⟨S32768x3, .f32⟩ : BufTy).Contents (Elt Ideal)) (x3 : (⟨S2x600000, .i32⟩ : BufTy).Contents (Elt Ideal)) :
    Read.val_main_v27 (F := Ideal) x1 x2 x3 = Cert.KernelIdeal.Glue.edgeAttr (F := Ideal) x1 x2 x3 := rfl

/-- The gathered node rows: the reference's gather of the node stage's result at the wrapped sources. -/
theorem nodes_eq (x0 : (⟨S65536x128, .f32⟩ : BufTy).Contents (Elt Ideal)) (x3 : (⟨S2x600000, .i32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) :
    Read.val_main_v43 (F := Ideal) x0 x3 x4 x5 x6 x7
      = Cert.KernelIdeal.Glue.gatherNodes (F := Ideal) (Read.val_main_v12 (F := Ideal) x0 x4 x5 x6 x7) x3 := rfl

/-- The averaged messages: the reference's scatter-sum of the messages divided by the clamped edge counts. -/
theorem mean_eq (x0 : (⟨S65536x128, .f32⟩ : BufTy).Contents (Elt Ideal)) (x1 : (⟨S65536x3, .f32⟩ : BufTy).Contents (Elt Ideal)) (x2 : (⟨S32768x3, .f32⟩ : BufTy).Contents (Elt Ideal)) (x3 : (⟨S2x600000, .i32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S6x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) (x12 : (⟨S256x128, .f32⟩ : BufTy).Contents (Elt Ideal)) (x13 : (⟨S128, .f32⟩ : BufTy).Contents (Elt Ideal)) (x14 : (⟨S128x128, .f32⟩ : BufTy).Contents (Elt Ideal)) (x15 : (⟨S128, .f32⟩ : BufTy).Contents (Elt Ideal)) :
    Read.val_main_v65 (F := Ideal) x0 x1 x2 x3 x4 x5 x6 x7 x8 x9 x10 x11 x12 x13 x14 x15
      = Cert.KernelIdeal.Glue.meanAgg (F := Ideal) (Read.val_main_v53 (F := Ideal) x0 x1 x2 x3 x4 x5 x6 x7 x8 x9 x10 x11 x12 x13 x14 x15) x3 := rfl

/-- The reference's result: the update stage of the mean, over each cell's edges, of the message stage of the edge
    attributes joined after the gathered rows of the node stage. -/
theorem ref_closed (x0 : (⟨S65536x128, .f32⟩ : BufTy).Contents (Elt Ideal)) (x1 : (⟨S65536x3, .f32⟩ : BufTy).Contents (Elt Ideal)) (x2 : (⟨S32768x3, .f32⟩ : BufTy).Contents (Elt Ideal)) (x3 : (⟨S2x600000, .i32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S6x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) (x12 : (⟨S256x128, .f32⟩ : BufTy).Contents (Elt Ideal)) (x13 : (⟨S128, .f32⟩ : BufTy).Contents (Elt Ideal)) (x14 : (⟨S128x128, .f32⟩ : BufTy).Contents (Elt Ideal)) (x15 : (⟨S128, .f32⟩ : BufTy).Contents (Elt Ideal)) (x16 : (⟨S128x128, .f32⟩ : BufTy).Contents (Elt Ideal)) (x17 : (⟨S128, .f32⟩ : BufTy).Contents (Elt Ideal)) (x18 : (⟨S128x128, .f32⟩ : BufTy).Contents (Elt Ideal)) (x19 : (⟨S128, .f32⟩ : BufTy).Contents (Elt Ideal)) :
    Read.val_main_v74 (F := Ideal) x0 x1 x2 x3 x4 x5 x6 x7 x8 x9 x10 x11 x12 x13 x14 x15 x16 x17 x18 x19
      = Cert.Spec.mlp x16 x17 x18 x19
          (Cert.KernelIdeal.Glue.meanAgg (F := Ideal)
            (Cert.Spec.edgeMsg x8 x9 x10 x11 x12 x13 x14 x15 (Cert.KernelIdeal.Glue.edgeAttr (F := Ideal) x1 x2 x3)
              (Cert.KernelIdeal.Glue.gatherNodes (F := Ideal) (ε := .f32) (Cert.Spec.mlp x4 x5 x6 x7 x0) x3)) x3) := by
  rw [RefRows.update_stage, mean_eq, RefRows.message_stage', attr_eq, nodes_eq, RefRows.node_stage]

end Cert.ReferenceIdeal.RefClosed

end
-- ==== Proof.Claims.lean ====
/-
  The five claims.

  The three frames: the word-level kernel's and the idealized kernel's are the launch of @main's six segments with
  each region's body run once at a symbolic grid point (generated modules); the reference's is its straight-line run
  with the result dropped.  The idealization rewrote no operation, so there is nothing to preserve.  The value claim:
  at the exact instance the idealized kernel's result array ends at `layer` of its argument arrays (the run with the
  result named, then the closed formula of the six segments), and the reference's ends at the same `layer` of its own
  argument arrays (its run, then the closed formula of its stages); the argument arrays agree.
-/
import proofs.«149918_j8864812499080_1_alg».proof.Defs
import proofs.«149918_j8864812499080_1_alg».proof.Proof.Gen.Kernel
import proofs.«149918_j8864812499080_1_alg».proof.Proof.Gen.Kernel.Frame
import proofs.«149918_j8864812499080_1_alg».proof.Proof.Gen.KernelIdeal
import proofs.«149918_j8864812499080_1_alg».proof.Proof.Gen.KernelIdeal.Frame
import proofs.«149918_j8864812499080_1_alg».proof.Proof.Gen.ReferenceIdeal
import proofs.«149918_j8864812499080_1_alg».proof.Proof.Gen.ReferenceIdeal.Run
import proofs.«149918_j8864812499080_1_alg».proof.Proof.Gen.ReferenceIdeal.Read
import proofs.«149918_j8864812499080_1_alg».proof.Proof.Gen.Pre_finite_inputs
import proofs.«149918_j8864812499080_1_alg».proof.Proof.KernelRun
import proofs.«149918_j8864812499080_1_alg».proof.Proof.Closed
import proofs.«149918_j8864812499080_1_alg».proof.Proof.RefClosed

set_option maxRecDepth 16384

noncomputable section

namespace Cert.Proof.Claims

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with `layer` of the (agreeing) argument arrays in their result array. -/
theorem algebraic : Cert.algebraic_KernelIdeal_ReferenceIdeal := by
  intro m ρ m' ρ' _ hagree
  refine ⟨fun c => Cert.KernelIdeal.Closed.layer (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)), ?_, ?_⟩
  · exact (θ_run Cert.KernelIdeal.defs _ _).mono
      (fun r h c => ⟨(h c).1.trans (Cert.KernelIdeal.Closed.result_array m ρ c), (h c).2⟩)
      (Cert.KernelIdeal.ValueRun.run_named m ρ)
  · refine (θ_run Cert.ReferenceIdeal.defs _ _).mono (fun _ h c => ⟨?_, (h c).2⟩)
      (Cert.ReferenceIdeal.Value.run (F := Ideal) m' ρ')
    obtain ⟨e0, e1, e2, e3, e4, e5, e6, e7, e8, e9, e10, e11, e12, e13, e14, e15, e16, e17, e18, e19⟩ := hagree c
    rw [(h c).1, Cert.ReferenceIdeal.Read.val_main_v74_eq, Cert.ReferenceIdeal.RefClosed.ref_closed,
      e0, e1, e2, e3, e4, e5, e6, e7, e8, e9, e10, e11, e12, e13, e14, e15, e16, e17, e18, e19]
    rfl

end Cert.Proof.Claims

end
-- ==== Proof.lean ====
/-
  The certificate: a graph layer of four two-layer dense stages (node, edge, message, update) joined by gathers along
  the edges and a mean over each target cell's incoming messages, computed by three row-tiled kernel regions and host
  gathers and scatter-adds, against the same layer in plain array operations.

  At the exact instance every dense stage of either program is the same row function (Proof/Spec.lean): a matrix
  product into a zero accumulator and the host's contraction are the same sum, the bias row is added entrywise, a
  change of float format is the identity, and the logistic function is by definition 1 / (1 + e⁻ˣ), which is how the
  reference spells it.  Proof/Body.lean reads the three kernel bodies at an entry; Proof/Final0.lean, Final1.lean and
  Final2.lean pass from the row tiles to the whole arrays; Proof/RefRows.lean and RefClosed.lean read the reference's
  four stages and give its result as one formula; Proof/GlueDefs.lean, Glue.lean and GlueArgs.lean read the host
  stretches between the regions, whose gathers and scatter-adds both programs share and nobody opens;
  Proof/KernelRun.lean is the six-segment run with the result array named, Proof/Closed.lean the kernel's result as the
  same one formula, and Proof/Claims.lean the five claims.  The witnesses of the programs' stated side conditions are
  the generated instances.
-/
import proofs.«149918_j8864812499080_1_alg».proof.Defs
import proofs.«149918_j8864812499080_1_alg».proof.Proof.Gen.Kernel
import proofs.«149918_j8864812499080_1_alg».proof.Proof.Gen.KernelIdeal
import proofs.«149918_j8864812499080_1_alg».proof.Proof.Gen.ReferenceIdeal
import proofs.«149918_j8864812499080_1_alg».proof.Proof.Gen.Pre_finite_inputs
import proofs.«149918_j8864812499080_1_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
